-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x4096 : Shape := ⟨3, ![2, 2048, 4096]⟩
abbrev S11008x4096 : Shape := ⟨2, ![11008, 4096]⟩
abbrev S4096x11008 : Shape := ⟨2, ![4096, 11008]⟩
abbrev S_ : Shape := ⟨0, ![]⟩

class Facts : Prop where
  bcast_S_S2x2048x4096 : S_.BroadcastsInDim S2x2048x4096 (![] : Fin 0 → Fin S2x2048x4096.rank)
  reducesTo_S2x2048x4096_S_d0_1_2 : S2x2048x4096.ReducesTo [0, 1, 2] S_
  h_S_ : 0 < S_.numel
  bcast_S_S11008x4096 : S_.BroadcastsInDim S11008x4096 (![] : Fin 0 → Fin S11008x4096.rank)
  reducesTo_S11008x4096_S_d0_1 : S11008x4096.ReducesTo [0, 1] S_
  bcast_S_S4096x11008 : S_.BroadcastsInDim S4096x11008 (![] : Fin 0 → Fin S4096x11008.rank)
  reducesTo_S4096x11008_S_d0_1 : S4096x11008.ReducesTo [0, 1] S_

variable [Facts]

def fn_part1 {F : FTy → Type} [FloatOps F] (main_v13 : IVec S_ 1) (main_v16 : IVec S4096x11008 1) : IVec S_ 1 :=
  let main_c_5 : IVec S_ 1 := constantI S_ 1 1#1
  let main_v17 : IVec S_ 1 := (fun x v => Host.reduce IntOp.andi x v reducesTo_S4096x11008_S_d0_1 h_S_) main_v16 main_c_5
  let main_v18 : IVec S_ 1 := andi main_v13 main_v17
  main_v18

def fn {F : FTy → Type} [FloatOps F] (main_arg0 : FVec F S2x2048x4096 .f32) (main_arg1 : FVec F S11008x4096 .f32) (main_arg2 : FVec F S11008x4096 .f32) (main_arg3 : FVec F S4096x11008 .f32) : IVec S_ 1 :=
  let main_v0 : FVec F S2x2048x4096 .f32 := Host.absf main_arg0
  let main_cst : FVec F S_ .f32 := constant S_ .f32 0x7F800000#32
  let main_v1 : FVec F S2x2048x4096 .f32 := broadcastInDim S2x2048x4096 ![] bcast_S_S2x2048x4096 main_cst
  let main_v2 : IVec S2x2048x4096 1 := cmpf .olt main_v0 main_v1
  let main_c : IVec S_ 1 := constantI S_ 1 1#1
  let main_v3 : IVec S_ 1 := (fun x v => Host.reduce IntOp.andi x v reducesTo_S2x2048x4096_S_d0_1_2 h_S_) main_v2 main_c
  let main_v4 : FVec F S11008x4096 .f32 := Host.absf main_arg1
  let main_cst_0 : FVec F S_ .f32 := constant S_ .f32 0x7F800000#32
  let main_v5 : FVec F S11008x4096 .f32 := broadcastInDim S11008x4096 ![] bcast_S_S11008x4096 main_cst_0
  let main_v6 : IVec S11008x4096 1 := cmpf .olt main_v4 main_v5
  let main_c_1 : IVec S_ 1 := constantI S_ 1 1#1
  let main_v7 : IVec S_ 1 := (fun x v => Host.reduce IntOp.andi x v reducesTo_S11008x4096_S_d0_1 h_S_) main_v6 main_c_1
  let main_v8 : IVec S_ 1 := andi main_v3 main_v7
  let main_v9 : FVec F S11008x4096 .f32 := Host.absf main_arg2
  let main_cst_2 : FVec F S_ .f32 := constant S_ .f32 0x7F800000#32
  let main_v10 : FVec F S11008x4096 .f32 := broadcastInDim S11008x4096 ![] bcast_S_S11008x4096 main_cst_2
  let main_v11 : IVec S11008x4096 1 := cmpf .olt main_v9 main_v10
  let main_c_3 : IVec S_ 1 := constantI S_ 1 1#1
  let main_v12 : IVec S_ 1 := (fun x v => Host.reduce IntOp.andi x v reducesTo_S11008x4096_S_d0_1 h_S_) main_v11 main_c_3
  let main_v13 : IVec S_ 1 := andi main_v8 main_v12
  let main_v14 : FVec F S4096x11008 .f32 := Host.absf main_arg3
  let main_cst_4 : FVec F S_ .f32 := constant S_ .f32 0x7F800000#32
  let main_v15 : FVec F S4096x11008 .f32 := broadcastInDim S4096x11008 ![] bcast_S_S4096x11008 main_cst_4
  let main_v16 : IVec S4096x11008 1 := cmpf .olt main_v14 main_v15
  fn_part1 (F := F) main_v13 main_v16
-- ==== Kernel.lean ====
abbrev S2x2048x4096 : Shape := ⟨3, ![2, 2048, 4096]⟩
abbrev S11008x4096 : Shape := ⟨2, ![11008, 4096]⟩
abbrev S4096x11008 : Shape := ⟨2, ![4096, 11008]⟩
abbrev S4096x4096 : Shape := ⟨2, ![4096, 4096]⟩
abbrev S_ : Shape := ⟨0, ![]⟩
abbrev S11264x4096 : Shape := ⟨2, ![11264, 4096]⟩
abbrev S4096x11264 : Shape := ⟨2, ![4096, 11264]⟩
abbrev S512x4096 : Shape := ⟨2, ![512, 4096]⟩
abbrev S512 : Shape := ⟨1, ![512]⟩
abbrev S512x1 : Shape := ⟨2, ![512, 1]⟩
abbrev S256x4096 : Shape := ⟨2, ![256, 4096]⟩
abbrev S1024x4096 : Shape := ⟨2, ![1024, 4096]⟩
abbrev S256x1024 : Shape := ⟨2, ![256, 1024]⟩
abbrev S4096x1 : Shape := ⟨2, ![4096, 1]⟩
abbrev S256x11264 : Shape := ⟨2, ![256, 11264]⟩
abbrev S256x1 : Shape := ⟨2, ![256, 1]⟩
abbrev S256 : Shape := ⟨1, ![256]⟩
abbrev S1024x512 : Shape := ⟨2, ![1024, 512]⟩
abbrev S1024x1 : Shape := ⟨2, ![1024, 1]⟩
abbrev S1024x1024 : Shape := ⟨2, ![1024, 1024]⟩

abbrev nBuf : Space → Nat
  | .hbm => 88
  | .vmem => 25
  | .smem => 0
  | _ => 0

abbrev bufTy : (tb : Table) → Fin (tcTables nBuf tb) → BufTy
  | .hbm, ⟨0, _⟩ => ⟨S2x2048x4096, .f32⟩
  | .hbm, ⟨1, _⟩ => ⟨S11008x4096, .f32⟩
  | .hbm, ⟨2, _⟩ => ⟨S11008x4096, .f32⟩
  | .hbm, ⟨3, _⟩ => ⟨S4096x11008, .f32⟩
  | .hbm, ⟨4, _⟩ => ⟨S4096x4096, .f32⟩
  | .hbm, ⟨5, _⟩ => ⟨S11008x4096, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S11008x4096, .f32⟩
  | .hbm, ⟨15, _⟩ => ⟨S11008x4096, .f32⟩
  | .hbm, ⟨16, _⟩ => ⟨S11008x4096, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S11008x4096, .f32⟩
  | .hbm, ⟨21, _⟩ => ⟨S11008x4096, .f32⟩
  | .hbm, ⟨22, _⟩ => ⟨S_, .f32⟩
  | .hbm, ⟨23, _⟩ => ⟨S11008x4096, .f32⟩
  | .hbm, ⟨24, _⟩ => ⟨S11008x4096, .f32⟩
  | .hbm, ⟨25, _⟩ => ⟨S11008x4096, .f32⟩
  | .hbm, ⟨26, _⟩ => ⟨S11008x4096, .f32⟩
  | .hbm, ⟨27, _⟩ => ⟨S11008x4096, .bf16⟩
  | .hbm, ⟨28, _⟩ => ⟨S11008x4096, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S11008x4096, .f32⟩
  | .hbm, ⟨38, _⟩ => ⟨S11008x4096, .f32⟩
  | .hbm, ⟨39, _⟩ => ⟨S11008x4096, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S11008x4096, .f32⟩
  | .hbm, ⟨44, _⟩ => ⟨S11008x4096, .f32⟩
  | .hbm, ⟨45, _⟩ => ⟨S_, .f32⟩
  | .hbm, ⟨46, _⟩ => ⟨S11008x4096, .f32⟩
  | .hbm, ⟨47, _⟩ => ⟨S11008x4096, .f32⟩
  | .hbm, ⟨48, _⟩ => ⟨S11008x4096, .f32⟩
  | .hbm, ⟨49, _⟩ => ⟨S11008x4096, .f32⟩
  | .hbm, ⟨50, _⟩ => ⟨S11008x4096, .bf16⟩
  | .hbm, ⟨51, _⟩ => ⟨S4096x11008, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S4096x11008, .f32⟩
  | .hbm, ⟨61, _⟩ => ⟨S4096x11008, .f32⟩
  | .hbm, ⟨62, _⟩ => ⟨S4096x11008, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S4096x11008, .f32⟩
  | .hbm, ⟨67, _⟩ => ⟨S4096x11008, .f32⟩
  | .hbm, ⟨68, _⟩ => ⟨S_, .f32⟩
  | .hbm, ⟨69, _⟩ => ⟨S4096x11008, .f32⟩
  | .hbm, ⟨70, _⟩ => ⟨S4096x11008, .f32⟩
  | .hbm, ⟨71, _⟩ => ⟨S4096x11008, .f32⟩
  | .hbm, ⟨72, _⟩ => ⟨S4096x11008, .f32⟩
  | .hbm, ⟨73, _⟩ => ⟨S4096x11008, .bf16⟩
  | .hbm, ⟨74, _⟩ => ⟨S_, .i32⟩
  | .hbm, ⟨75, _⟩ => ⟨S_, .bf16⟩
  | .hbm, ⟨76, _⟩ => ⟨S11264x4096, .bf16⟩
  | .hbm, ⟨77, _⟩ => ⟨S_, .i32⟩
  | .hbm, ⟨78, _⟩ => ⟨S_, .bf16⟩
  | .hbm, ⟨79, _⟩ => ⟨S11264x4096, .bf16⟩
  | .hbm, ⟨80, _⟩ => ⟨S_, .i32⟩
  | .hbm, ⟨81, _⟩ => ⟨S_, .bf16⟩
  | .hbm, ⟨82, _⟩ => ⟨S4096x11264, .bf16⟩
  | .hbm, ⟨83, _⟩ => ⟨S4096x4096, .bf16⟩
  | .hbm, ⟨84, _⟩ => ⟨S4096x11264, .bf16⟩
  | .hbm, ⟨85, _⟩ => ⟨S4096x1, .f32⟩
  | .hbm, ⟨86, _⟩ => ⟨S4096x4096, .f32⟩
  | .hbm, ⟨87, _⟩ => ⟨S2x2048x4096, .f32⟩
  | .local _ .vmem, ⟨0, _⟩ => ⟨S512x4096, .f32⟩
  | .local _ .vmem, ⟨1, _⟩ => ⟨S512x4096, .f32⟩
  | .local _ .vmem, ⟨2, _⟩ => ⟨S512x4096, .bf16⟩
  | .local _ .vmem, ⟨3, _⟩ => ⟨S512x4096, .bf16⟩
  | .local _ .vmem, ⟨4, _⟩ => ⟨S256x4096, .bf16⟩
  | .local _ .vmem, ⟨5, _⟩ => ⟨S256x4096, .bf16⟩
  | .local _ .vmem, ⟨6, _⟩ => ⟨S1024x4096, .bf16⟩
  | .local _ .vmem, ⟨7, _⟩ => ⟨S1024x4096, .bf16⟩
  | .local _ .vmem, ⟨8, _⟩ => ⟨S1024x4096, .bf16⟩
  | .local _ .vmem, ⟨9, _⟩ => ⟨S1024x4096, .bf16⟩
  | .local _ .vmem, ⟨10, _⟩ => ⟨S256x1024, .bf16⟩
  | .local _ .vmem, ⟨11, _⟩ => ⟨S256x1024, .bf16⟩
  | .local _ .vmem, ⟨12, _⟩ => ⟨S256x11264, .bf16⟩
  | .local _ .vmem, ⟨13, _⟩ => ⟨S256x11264, .bf16⟩
  | .local _ .vmem, ⟨14, _⟩ => ⟨S256x1, .f32⟩
  | .local _ .vmem, ⟨15, _⟩ => ⟨S256x1, .f32⟩
  | .local _ .vmem, ⟨16, _⟩ => ⟨S1024x512, .bf16⟩
  | .local _ .vmem, ⟨17, _⟩ => ⟨S1024x512, .bf16⟩
  | .local _ .vmem, ⟨18, _⟩ => ⟨S1024x1, .f32⟩
  | .local _ .vmem, ⟨19, _⟩ => ⟨S1024x1, .f32⟩
  | .local _ .vmem, ⟨20, _⟩ => ⟨S1024x512, .bf16⟩
  | .local _ .vmem, ⟨21, _⟩ => ⟨S1024x512, .bf16⟩
  | .local _ .vmem, ⟨22, _⟩ => ⟨S1024x1024, .f32⟩
  | .local _ .vmem, ⟨23, _⟩ => ⟨S1024x1024, .f32⟩
  | .local _ .vmem, ⟨24, _⟩ => ⟨S1024x1024, .f32⟩
  | _, _ => ⟨S2x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_cst_2 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_cst_4 : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_5 : Ref sig .tc := ⟨.hbm, 29, rfl⟩
abbrev main_v14 : Ref sig .tc := ⟨.hbm, 30, rfl⟩
abbrev main_cst_6 : Ref sig .tc := ⟨.hbm, 31, rfl⟩
abbrev main_v15 : Ref sig .tc := ⟨.hbm, 32, rfl⟩
abbrev main_cst_7 : Ref sig .tc := ⟨.hbm, 33, rfl⟩
abbrev main_v16 : Ref sig .tc := ⟨.hbm, 34, rfl⟩
abbrev main_cst_8 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_9 : Ref sig .tc := ⟨.hbm, 40, rfl⟩
abbrev main_cst_10 : Ref sig .tc := ⟨.hbm, 41, rfl⟩
abbrev main_call3_v0 : Ref sig .tc := ⟨.hbm, 42, rfl⟩
abbrev main_call3_v1 : Ref sig .tc := ⟨.hbm, 43, rfl⟩
abbrev main_call3_v2 : Ref sig .tc := ⟨.hbm, 44, rfl⟩
abbrev main_call3_v3 : Ref sig .tc := ⟨.hbm, 45, rfl⟩
abbrev main_call3_v4 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_cst_11 : Ref sig .tc := ⟨.hbm, 52, rfl⟩
abbrev main_v26 : Ref sig .tc := ⟨.hbm, 53, rfl⟩
abbrev main_cst_12 : Ref sig .tc := ⟨.hbm, 54, rfl⟩
abbrev main_v27 : Ref sig .tc := ⟨.hbm, 55, rfl⟩
abbrev main_cst_13 : Ref sig .tc := ⟨.hbm, 56, rfl⟩
abbrev main_v28 : Ref sig .tc := ⟨.hbm, 57, rfl⟩
abbrev main_cst_14 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_cst_15 : Ref sig .tc := ⟨.hbm, 63, rfl⟩
abbrev main_cst_16 : Ref sig .tc := ⟨.hbm, 64, rfl⟩
abbrev main_call5_v0 : Ref sig .tc := ⟨.hbm, 65, rfl⟩
abbrev main_call5_v1 : Ref sig .tc := ⟨.hbm, 66, rfl⟩
abbrev main_call5_v2 : Ref sig .tc := ⟨.hbm, 67, rfl⟩
abbrev main_call5_v3 : Ref sig .tc := ⟨.hbm, 68, rfl⟩
abbrev main_call5_v4 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_c : Ref sig .tc := ⟨.hbm, 74, rfl⟩
abbrev main_call6_v0 : Ref sig .tc := ⟨.hbm, 75, rfl⟩
abbrev main_v37 : Ref sig .tc := ⟨.hbm, 76, rfl⟩
abbrev main_c_17 : Ref sig .tc := ⟨.hbm, 77, rfl⟩
abbrev main_call7_v0 : Ref sig .tc := ⟨.hbm, 78, rfl⟩
abbrev main_v38 : Ref sig .tc := ⟨.hbm, 79, rfl⟩
abbrev main_c_18 : Ref sig .tc := ⟨.hbm, 80, rfl⟩
abbrev main_call8_v0 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg1_1 : Ref sig .tc := ⟨.vmem, 19, rfl⟩
abbrev cc3_stg2_0 : Ref sig .tc := ⟨.vmem, 20, rfl⟩
abbrev cc3_stg2_1 : Ref sig .tc := ⟨.vmem, 21, rfl⟩
abbrev cc3_stg3_0 : Ref sig .tc := ⟨.vmem, 22, rfl⟩
abbrev cc3_stg3_1 : Ref sig .tc := ⟨.vmem, 23, rfl⟩
abbrev cc3_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc3_sem0_0 : DmaSem sig := 16
abbrev cc3_sem0_1 : DmaSem sig := 17
abbrev cc3_sem1_0 : DmaSem sig := 18
abbrev cc3_sem1_1 : DmaSem sig := 19
abbrev cc3_sem2_0 : DmaSem sig := 20
abbrev cc3_sem2_1 : DmaSem sig := 21
abbrev cc3_sem3_0 : DmaSem sig := 22
abbrev cc3_sem3_1 : DmaSem sig := 23

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![11, 16], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S256x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1024x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1024x4096 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S256x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x11264 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev grid3 : Pipeline.Grid := ⟨3, ![4, 4, 22], ![false, false, false]⟩

def k3_cond2 (i : grid3.Coords) : BitVec 1 :=
  let arg2 : BitVec 32 := BitVec.ofNat 32 (i 2).val
  let c21_i32 : BitVec 32 := 21#32
  let v26 : BitVec 1 := Scalar.cmpi .eq arg2 c21_i32
  let v27 : BitVec 32 := Scalar.extui v26
  let c0_i32_12 : BitVec 32 := 0#32
  let v28 : BitVec 1 := Scalar.cmpi .ne v27 c0_i32_12
  v28

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc3_transform_3 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S1024x512 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S1024x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false, false]

abbrev stage3_2 : Fin 2 → Memref sig .tc .vmem S1024x512 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true, true]

abbrev stage3_3 : Fin 2 → Memref sig .tc .vmem S1024x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, false]

class Facts₀ : Prop where
  shapeCasts_S2x2048x4096_S4096x4096 : S2x2048x4096.ShapeCasts S4096x4096
  reducesTo_S11008x4096_S_d0_1 : S11008x4096.ReducesTo [0, 1] S_
  h_S_ : 0 < S_.numel
  bcast_S_S11008x4096 : S_.BroadcastsInDim S11008x4096 (![] : Fin 0 → Fin S11008x4096.rank)
  bitsLt_bf16_f32 : FTy.bits .bf16 < FTy.bits .f32
  reducesTo_S4096x11008_S_d0_1 : S4096x11008.ReducesTo [0, 1] S_
  bcast_S_S4096x11008 : S_.BroadcastsInDim S4096x11008 (![] : Fin 0 → Fin S4096x11008.rank)
  pads_S11008x4096_S11264x4096_02560_000 : S11008x4096.Pads (![0, 0] : Fin 2 → Nat) ![256, 0] ![0, 0] S11264x4096
  pads_S4096x11008_S4096x11264_000_02560 : S4096x11008.Pads (![0, 0] : Fin 2 → Nat) ![0, 256] ![0, 0] S4096x11264
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  reduces_S512x4096_S512 : S512x4096.Reduces [1] S512
  shapeCasts_S512_S512x1 : S512.ShapeCasts S512x1
  broadcasts_S512x1_S512x4096 : S512x1.Broadcasts S512x4096
  packedbf16_S512x4096_S512x4096_0_0 : (Rect.unit (s := S512x4096) ![0, 0] S512x4096.size inb_S512x4096_S512x4096_0_0).PackedRows (EltTy.packing .bf16)
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S256x1024_S256x1024_0_0 : ∀ a, (![0, 0] : Fin 2 → Nat) a + S256x1024.size a ≤ S256x1024.size a
  h_S256x1024 : 0 < S256x1024.numel
  packedbf16_S256x1024_S256x1024_0_0 : (Rect.unit (s := S256x1024) ![0, 0] S256x1024.size inb_S256x1024_S256x1024_0_0).PackedRows (EltTy.packing .bf16)
  inb_S256x11264_S256x11264_0_0 : ∀ a, (![0, 0] : Fin 2 → Nat) a + S256x11264.size a ≤ S256x11264.size a
  h_S256x11264 : 0 < S256x11264.numel
  shapeCasts_S256x11264_S256x11264 : S256x11264.ShapeCasts S256x11264
  reduces_S256x11264_S256 : S256x11264.Reduces [1] S256
  shapeCasts_S256_S256x1 : S256.ShapeCasts S256x1
  inb_S256x1_S256x1_0_0 : ∀ a, (![0, 0] : Fin 2 → Nat) a + S256x1.size a ≤ S256x1.size a
  h_S256x1 : 0 < S256x1.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x512 : S1024x1.Broadcasts S1024x512
  shapeCasts_S4096x4096_S2x2048x4096 : S4096x4096.ShapeCasts S2x2048x4096
  dot_S256x4096_S1024x4096_S256x1024_1_1_0_0_n_n_wf : DotDims.WF S256x4096 S1024x4096 S256x1024 [1] [1] [0] [0] [] []
  dot_S1024x512_S1024x512_S1024x1024_1_1_0_0_n_n_wf : DotDims.WF S1024x512 S1024x512 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .f32 = 32 ∨ (Rect.block (s := S4096x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S4096x4096.size a
  hwx0_1 : ∀ i : grid0.Coords, EltTy.bits .bf16 = 32 ∨ (Rect.block (s := S4096x4096) S512x4096.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x4096.size a ≤ S4096x4096.size a
  hwx1_0 : ∀ i : grid1.Coords, EltTy.bits .bf16 = 32 ∨ (Rect.block (s := S4096x4096) S256x4096.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x4096.size a ≤ S11264x4096.size a
  hwx1_1 : ∀ i : grid1.Coords, EltTy.bits .bf16 = 32 ∨ (Rect.block (s := S11264x4096) S1024x4096.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x4096.size a ≤ S11264x4096.size a
  hwx1_2 : ∀ i : grid1.Coords, EltTy.bits .bf16 = 32 ∨ (Rect.block (s := S11264x4096) S1024x4096.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x1024.size a ≤ S4096x11264.size a
  hwx1_3 : ∀ i : grid1.Coords, EltTy.bits .bf16 = 32 ∨ (Rect.block (s := S4096x11264) S256x1024.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x11264.size a ≤ S4096x11264.size a
  hwx2_0 : ∀ i : grid2.Coords, EltTy.bits .bf16 = 32 ∨ (Rect.block (s := S4096x11264) S256x11264.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S256x1.size a ≤ S4096x1.size a
  hwx2_1 : ∀ i : grid2.Coords, EltTy.bits .f32 = 32 ∨ (Rect.block (s := S4096x1) S256x1.size (cc2_transform_1 i) (hinb2_1 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x512.size a ≤ S4096x11264.size a
  hwx3_0 : ∀ i : grid3.Coords, EltTy.bits .bf16 = 32 ∨ (Rect.block (s := S4096x11264) S1024x512.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x1.size a ≤ S4096x1.size a
  hwx3_1 : ∀ i : grid3.Coords, EltTy.bits .f32 = 32 ∨ (Rect.block (s := S4096x1) S1024x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1024x512.size a ≤ S4096x11264.size a
  hwx3_2 : ∀ i : grid3.Coords, EltTy.bits .bf16 = 32 ∨ (Rect.block (s := S4096x11264) S1024x512.size (cc3_transform_2 i) (hinb3_2 i)).WholeWords (EltTy.packing .bf16)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1024x1024.size a ≤ S4096x4096.size a
  hwx3_3 : ∀ i : grid3.Coords, EltTy.bits .f32 = 32 ∨ (Rect.block (s := S4096x4096) S1024x1024.size (cc3_transform_3 i) (hinb3_3 i)).WholeWords (EltTy.packing .f32)

variable [Facts₀]

def dot_S256x4096_S1024x4096_S256x1024_1_1_0_0_n_n : DotDims S256x4096 S1024x4096 S256x1024 where
  lhsContracting := [1]
  rhsContracting := [1]
  lhsNonContracting := [0]
  rhsNonContracting := [0]
  lhsBatch := []
  rhsBatch := []
  wf := dot_S256x4096_S1024x4096_S256x1024_1_1_0_0_n_n_wf
def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_v0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v40) S512x4096.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v40) S256x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v37) S1024x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v38) S1024x4096.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v41) S256x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v41) S256x11264.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v42) S256x1.size cc2_transform_1 reads2_1 true false 2 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

abbrev win3_0 : Pipeline.Window sig grid3 :=
  Pipeline.Window.ofSpec (Memref.whole main_v41) S1024x512.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v42) S1024x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v39) S1024x512.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v43) S1024x1024.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev idle3 : Fin 4 → grid3.Coords → Bool := fun | 0 => fun _ => false | 1 => fun _ => false | 2 => fun _ => false | 3 => fun i => !(k3_cond2 i == 1#1) | ⟨_ + 4, h⟩ => absurd h (Nat.not_lt.2 (Nat.le_add_left _ _))

class Facts : Prop extends Facts₀ where

variable [Facts]
-- ==== ReferenceIdeal.lean ====
abbrev S2x2048x4096 : Shape := ⟨3, ![2, 2048, 4096]⟩
abbrev S11008x4096 : Shape := ⟨2, ![11008, 4096]⟩
abbrev S4096x11008 : Shape := ⟨2, ![4096, 11008]⟩
abbrev S_ : Shape := ⟨0, ![]⟩
abbrev S2x2048 : Shape := ⟨2, ![2, 2048]⟩
abbrev S2x2048x1 : Shape := ⟨3, ![2, 2048, 1]⟩
abbrev S2x2048x11008 : Shape := ⟨3, ![2, 2048, 11008]⟩

abbrev nBuf : Space → Nat
  | .hbm => 153
  | .vmem => 0
  | .smem => 0
  | _ => 0

abbrev hbmTy0_0 (i : Nat) : BufTy := match i % 128 with
  | 0 => ⟨S2x2048x4096, .f32⟩
  | 1 => ⟨S11008x4096, .f32⟩
  | 2 => ⟨S11008x4096, .f32⟩
  | 3 => ⟨S4096x11008, .f32⟩
  | 4 => ⟨S2x2048x4096, .f32⟩
  | 5 => ⟨S_, .f32⟩
  | 6 => ⟨S2x2048, .f32⟩
  | 7 => ⟨S2x2048x1, .f32⟩
  | 8 => ⟨S_, .f32⟩
  | 9 => ⟨S_, .f32⟩
  | 10 => ⟨S2x2048x1, .f32⟩
  | 11 => ⟨S2x2048x1, .f32⟩
  | 12 => ⟨S_, .f32⟩
  | 13 => ⟨S2x2048x1, .f32⟩
  | 14 => ⟨S2x2048x1, .f32⟩
  | 15 => ⟨S2x2048x4096, .f32⟩
  | 16 => ⟨S2x2048x4096, .f32⟩
  | 17 => ⟨S2x2048x4096, .f32⟩
  | 18 => ⟨S_, .f32⟩
  | 19 => ⟨S_, .f32⟩
  | 20 => ⟨S_, .f32⟩
  | 21 => ⟨S2x2048x4096, .f32⟩
  | 22 => ⟨S2x2048x4096, .f32⟩
  | 23 => ⟨S_, .f32⟩
  | 24 => ⟨S2x2048x4096, .f32⟩
  | 25 => ⟨S2x2048x4096, .f32⟩
  | 26 => ⟨S2x2048x4096, .f32⟩
  | 27 => ⟨S2x2048x4096, .f32⟩
  | 28 => ⟨S11008x4096, .f32⟩
  | 29 => ⟨S_, .f32⟩
  | 30 => ⟨S_, .f32⟩
  | 31 => ⟨S_, .f32⟩
  | 32 => ⟨S_, .f32⟩
  | 33 => ⟨S_, .f32⟩
  | 34 => ⟨S_, .f32⟩
  | 35 => ⟨S_, .f32⟩
  | 36 => ⟨S_, .f32⟩
  | 37 => ⟨S_, .f32⟩
  | 38 => ⟨S11008x4096, .f32⟩
  | 39 => ⟨S11008x4096, .f32⟩
  | 40 => ⟨S11008x4096, .f32⟩
  | 41 => ⟨S_, .f32⟩
  | 42 => ⟨S_, .f32⟩
  | 43 => ⟨S_, .f32⟩
  | 44 => ⟨S11008x4096, .f32⟩
  | 45 => ⟨S11008x4096, .f32⟩
  | 46 => ⟨S_, .f32⟩
  | 47 => ⟨S11008x4096, .f32⟩
  | 48 => ⟨S11008x4096, .f32⟩
  | 49 => ⟨S11008x4096, .f32⟩
  | 50 => ⟨S11008x4096, .f32⟩
  | 51 => ⟨S2x2048x11008, .f32⟩
  | 52 => ⟨S2x2048x4096, .f32⟩
  | 53 => ⟨S_, .f32⟩
  | 54 => ⟨S2x2048, .f32⟩
  | 55 => ⟨S2x2048x1, .f32⟩
  | 56 => ⟨S_, .f32⟩
  | 57 => ⟨S_, .f32⟩
  | 58 => ⟨S2x2048x1, .f32⟩
  | 59 => ⟨S2x2048x1, .f32⟩
  | 60 => ⟨S_, .f32⟩
  | 61 => ⟨S2x2048x1, .f32⟩
  | 62 => ⟨S2x2048x1, .f32⟩
  | 63 => ⟨S2x2048x4096, .f32⟩
  | 64 => ⟨S2x2048x4096, .f32⟩
  | 65 => ⟨S2x2048x4096, .f32⟩
  | 66 => ⟨S_, .f32⟩
  | 67 => ⟨S_, .f32⟩
  | 68 => ⟨S_, .f32⟩
  | 69 => ⟨S2x2048x4096, .f32⟩
  | 70 => ⟨S2x2048x4096, .f32⟩
  | 71 => ⟨S_, .f32⟩
  | 72 => ⟨S2x2048x4096, .f32⟩
  | 73 => ⟨S2x2048x4096, .f32⟩
  | 74 => ⟨S2x2048x4096, .f32⟩
  | 75 => ⟨S2x2048x4096, .f32⟩
  | 76 => ⟨S11008x4096, .f32⟩
  | 77 => ⟨S_, .f32⟩
  | 78 => ⟨S_, .f32⟩
  | 79 => ⟨S_, .f32⟩
  | 80 => ⟨S_, .f32⟩
  | 81 => ⟨S_, .f32⟩
  | 82 => ⟨S_, .f32⟩
  | 83 => ⟨S_, .f32⟩
  | 84 => ⟨S_, .f32⟩
  | 85 => ⟨S_, .f32⟩
  | 86 => ⟨S11008x4096, .f32⟩
  | 87 => ⟨S11008x4096, .f32⟩
  | 88 => ⟨S11008x4096, .f32⟩
  | 89 => ⟨S_, .f32⟩
  | 90 => ⟨S_, .f32⟩
  | 91 => ⟨S_, .f32⟩
  | 92 => ⟨S11008x4096, .f32⟩
  | 93 => ⟨S11008x4096, .f32⟩
  | 94 => ⟨S_, .f32⟩
  | 95 => ⟨S11008x4096, .f32⟩
  | 96 => ⟨S11008x4096, .f32⟩
  | 97 => ⟨S11008x4096, .f32⟩
  | 98 => ⟨S11008x4096, .f32⟩
  | 99 => ⟨S2x2048x11008, .f32⟩
  | 100 => ⟨S_, .f32⟩
  | 101 => ⟨S2x2048x11008, .f32⟩
  | 102 => ⟨S2x2048x11008, .f32⟩
  | 103 => ⟨S2x2048x11008, .f32⟩
  | 104 => ⟨S2x2048x11008, .f32⟩
  | 105 => ⟨S2x2048x11008, .f32⟩
  | 106 => ⟨S_, .f32⟩
  | 107 => ⟨S2x2048, .f32⟩
  | 108 => ⟨S2x2048x1, .f32⟩
  | 109 => ⟨S_, .f32⟩
  | 110 => ⟨S_, .f32⟩
  | 111 => ⟨S2x2048x1, .f32⟩
  | 112 => ⟨S2x2048x1, .f32⟩
  | 113 => ⟨S_, .f32⟩
  | 114 => ⟨S2x2048x1, .f32⟩
  | 115 => ⟨S2x2048x1, .f32⟩
  | 116 => ⟨S2x2048x11008, .f32⟩
  | 117 => ⟨S2x2048x11008, .f32⟩
  | 118 => ⟨S2x2048x11008, .f32⟩
  | 119 => ⟨S_, .f32⟩
  | 120 => ⟨S_, .f32⟩
  | 121 => ⟨S_, .f32⟩
  | 122 => ⟨S2x2048x11008, .f32⟩
  | 123 => ⟨S2x2048x11008, .f32⟩
  | 124 => ⟨S_, .f32⟩
  | 125 => ⟨S2x2048x11008, .f32⟩
  | 126 => ⟨S2x2048x11008, .f32⟩
  | 127 => ⟨S2x2048x11008, .f32⟩
  | _ => ⟨S2x2048x4096, .f32⟩

abbrev hbmTy0_1 (i : Nat) : BufTy := match i % 128 with
  | 0 => ⟨S2x2048x11008, .f32⟩
  | 1 => ⟨S4096x11008, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S4096x11008, .f32⟩
  | 12 => ⟨S4096x11008, .f32⟩
  | 13 => ⟨S4096x11008, .f32⟩
  | 14 => ⟨S_, .f32⟩
  | 15 => ⟨S_, .f32⟩
  | 16 => ⟨S_, .f32⟩
  | 17 => ⟨S4096x11008, .f32⟩
  | 18 => ⟨S4096x11008, .f32⟩
  | 19 => ⟨S_, .f32⟩
  | 20 => ⟨S4096x11008, .f32⟩
  | 21 => ⟨S4096x11008, .f32⟩
  | 22 => ⟨S4096x11008, .f32⟩
  | 23 => ⟨S4096x11008, .f32⟩
  | 24 => ⟨S2x2048x4096, .f32⟩
  | _ => ⟨S2x2048x4096, .f32⟩

abbrev hbmTy (i : Nat) : BufTy := match i / 128 with
  | 0 => hbmTy0_0 i
  | 1 => hbmTy0_1 i
  | _ => ⟨S2x2048x4096, .f32⟩

abbrev bufTy : (tb : Table) → Fin (tcTables nBuf tb) → BufTy
  | .hbm, ⟨i, _⟩ => hbmTy i
  | _, _ => ⟨S2x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_call0_v0 : Ref sig .tc := ⟨.hbm, 9, rfl⟩
abbrev main_call0_v1 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_cst_3 : Ref sig .tc := ⟨.hbm, 19, rfl⟩
abbrev main_call2_v0 : Ref sig .tc := ⟨.hbm, 20, rfl⟩
abbrev main_call2_v1 : Ref sig .tc := ⟨.hbm, 21, rfl⟩
abbrev main_call2_v2 : Ref sig .tc := ⟨.hbm, 22, rfl⟩
abbrev main_call2_v3 : Ref sig .tc := ⟨.hbm, 23, rfl⟩
abbrev main_call2_v4 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst_4 : Ref sig .tc := ⟨.hbm, 29, rfl⟩
abbrev main_v13 : Ref sig .tc := ⟨.hbm, 30, rfl⟩
abbrev main_cst_5 : Ref sig .tc := ⟨.hbm, 31, rfl⟩
abbrev main_v14 : Ref sig .tc := ⟨.hbm, 32, rfl⟩
abbrev main_cst_6 : Ref sig .tc := ⟨.hbm, 33, rfl⟩
abbrev main_call3_v0 : Ref sig .tc := ⟨.hbm, 34, rfl⟩
abbrev main_v15 : Ref sig .tc := ⟨.hbm, 35, rfl⟩
abbrev main_cst_7 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_cst_8 : Ref sig .tc := ⟨.hbm, 41, rfl⟩
abbrev main_cst_9 : Ref sig .tc := ⟨.hbm, 42, rfl⟩
abbrev main_call5_v0 : Ref sig .tc := ⟨.hbm, 43, rfl⟩
abbrev main_call5_v1 : Ref sig .tc := ⟨.hbm, 44, rfl⟩
abbrev main_call5_v2 : Ref sig .tc := ⟨.hbm, 45, rfl⟩
abbrev main_call5_v3 : Ref sig .tc := ⟨.hbm, 46, rfl⟩
abbrev main_call5_v4 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_cst_10 : Ref sig .tc := ⟨.hbm, 53, rfl⟩
abbrev main_v25 : Ref sig .tc := ⟨.hbm, 54, rfl⟩
abbrev main_v26 : Ref sig .tc := ⟨.hbm, 55, rfl⟩
abbrev main_cst_11 : Ref sig .tc := ⟨.hbm, 56, rfl⟩
abbrev main_call6_v0 : Ref sig .tc := ⟨.hbm, 57, rfl⟩
abbrev main_call6_v1 : Ref sig .tc := ⟨.hbm, 58, rfl⟩
abbrev main_v27 : Ref sig .tc := ⟨.hbm, 59, rfl⟩
abbrev main_cst_12 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_cst_13 : Ref sig .tc := ⟨.hbm, 66, rfl⟩
abbrev main_cst_14 : Ref sig .tc := ⟨.hbm, 67, rfl⟩
abbrev main_call8_v0 : Ref sig .tc := ⟨.hbm, 68, rfl⟩
abbrev main_call8_v1 : Ref sig .tc := ⟨.hbm, 69, rfl⟩
abbrev main_call8_v2 : Ref sig .tc := ⟨.hbm, 70, rfl⟩
abbrev main_call8_v3 : Ref sig .tc := ⟨.hbm, 71, rfl⟩
abbrev main_call8_v4 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_cst_15 : Ref sig .tc := ⟨.hbm, 77, rfl⟩
abbrev main_v37 : Ref sig .tc := ⟨.hbm, 78, rfl⟩
abbrev main_cst_16 : Ref sig .tc := ⟨.hbm, 79, rfl⟩
abbrev main_v38 : Ref sig .tc := ⟨.hbm, 80, rfl⟩
abbrev main_cst_17 : Ref sig .tc := ⟨.hbm, 81, rfl⟩
abbrev main_call9_v0 : Ref sig .tc := ⟨.hbm, 82, rfl⟩
abbrev main_v39 : Ref sig .tc := ⟨.hbm, 83, rfl⟩
abbrev main_cst_18 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_cst_19 : Ref sig .tc := ⟨.hbm, 89, rfl⟩
abbrev main_cst_20 : Ref sig .tc := ⟨.hbm, 90, rfl⟩
abbrev main_call11_v0 : Ref sig .tc := ⟨.hbm, 91, rfl⟩
abbrev main_call11_v1 : Ref sig .tc := ⟨.hbm, 92, rfl⟩
abbrev main_call11_v2 : Ref sig .tc := ⟨.hbm, 93, rfl⟩
abbrev main_call11_v3 : Ref sig .tc := ⟨.hbm, 94, rfl⟩
abbrev main_call11_v4 : Ref sig .tc := ⟨.hbm, 95, rfl⟩
abbrev main_v44 : Ref sig .tc := ⟨.hbm, 96, rfl⟩
abbrev main_v45 : Ref sig .tc := ⟨.hbm, 97, rfl⟩
abbrev main_v46 : Ref sig .tc := ⟨.hbm, 98, rfl⟩
abbrev main_v47 : Ref sig .tc := ⟨.hbm, 99, rfl⟩
abbrev main_call12_cst : Ref sig .tc := ⟨.hbm, 100, rfl⟩
abbrev main_call12_v0 : Ref sig .tc := ⟨.hbm, 101, rfl⟩
abbrev main_v48 : Ref sig .tc := ⟨.hbm, 102, rfl⟩
abbrev main_v49 : Ref sig .tc := ⟨.hbm, 103, rfl⟩
abbrev main_v50 : Ref sig .tc := ⟨.hbm, 104, rfl⟩
abbrev main_v51 : Ref sig .tc := ⟨.hbm, 105, rfl⟩
abbrev main_cst_21 : Ref sig .tc := ⟨.hbm, 106, rfl⟩
abbrev main_v52 : Ref sig .tc := ⟨.hbm, 107, rfl⟩
abbrev main_v53 : Ref sig .tc := ⟨.hbm, 108, rfl⟩
abbrev main_cst_22 : Ref sig .tc := ⟨.hbm, 109, rfl⟩
abbrev main_call13_v0 : Ref sig .tc := ⟨.hbm, 110, rfl⟩
abbrev main_call13_v1 : Ref sig .tc := ⟨.hbm, 111, rfl⟩
abbrev main_v54 : Ref sig .tc := ⟨.hbm, 112, rfl⟩
abbrev main_cst_23 : Ref sig .tc := ⟨.hbm, 113, rfl⟩
abbrev main_v55 : Ref sig .tc := ⟨.hbm, 114, rfl⟩
abbrev main_v56 : Ref sig .tc := ⟨.hbm, 115, rfl⟩
abbrev main_v57 : Ref sig .tc := ⟨.hbm, 116, rfl⟩
abbrev main_v58 : Ref sig .tc := ⟨.hbm, 117, rfl⟩
abbrev main_v59 : Ref sig .tc := ⟨.hbm, 118, rfl⟩
abbrev main_cst_24 : Ref sig .tc := ⟨.hbm, 119, rfl⟩
abbrev main_cst_25 : Ref sig .tc := ⟨.hbm, 120, rfl⟩
abbrev main_call15_v0 : Ref sig .tc := ⟨.hbm, 121, rfl⟩
abbrev main_call15_v1 : Ref sig .tc := ⟨.hbm, 122, rfl⟩
abbrev main_call15_v2 : Ref sig .tc := ⟨.hbm, 123, rfl⟩
abbrev main_call15_v3 : Ref sig .tc := ⟨.hbm, 124, rfl⟩
abbrev main_call15_v4 : Ref sig .tc := ⟨.hbm, 125, rfl⟩
abbrev main_v60 : Ref sig .tc := ⟨.hbm, 126, rfl⟩
abbrev main_v61 : Ref sig .tc := ⟨.hbm, 127, rfl⟩
abbrev main_v62 : Ref sig .tc := ⟨.hbm, 128, rfl⟩
abbrev main_v63 : Ref sig .tc := ⟨.hbm, 129, rfl⟩
abbrev main_cst_26 : Ref sig .tc := ⟨.hbm, 130, rfl⟩
abbrev main_v64 : Ref sig .tc := ⟨.hbm, 131, rfl⟩
abbrev main_cst_27 : Ref sig .tc := ⟨.hbm, 132, rfl⟩
abbrev main_v65 : Ref sig .tc := ⟨.hbm, 133, rfl⟩
abbrev main_cst_28 : Ref sig .tc := ⟨.hbm, 134, rfl⟩
abbrev main_call16_v0 : Ref sig .tc := ⟨.hbm, 135, rfl⟩
abbrev main_v66 : Ref sig .tc := ⟨.hbm, 136, rfl⟩
abbrev main_cst_29 : Ref sig .tc := ⟨.hbm, 137, rfl⟩
abbrev main_v67 : Ref sig .tc := ⟨.hbm, 138, rfl⟩
abbrev main_v68 : Ref sig .tc := ⟨.hbm, 139, rfl⟩
abbrev main_v69 : Ref sig .tc := ⟨.hbm, 140, rfl⟩
abbrev main_v70 : Ref sig .tc := ⟨.hbm, 141, rfl⟩
abbrev main_cst_30 : Ref sig .tc := ⟨.hbm, 142, rfl⟩
abbrev main_cst_31 : Ref sig .tc := ⟨.hbm, 143, rfl⟩
abbrev main_call18_v0 : Ref sig .tc := ⟨.hbm, 144, rfl⟩
abbrev main_call18_v1 : Ref sig .tc := ⟨.hbm, 145, rfl⟩
abbrev main_call18_v2 : Ref sig .tc := ⟨.hbm, 146, rfl⟩
abbrev main_call18_v3 : Ref sig .tc := ⟨.hbm, 147, rfl⟩
abbrev main_call18_v4 : Ref sig .tc := ⟨.hbm, 148, rfl⟩
abbrev main_v71 : Ref sig .tc := ⟨.hbm, 149, rfl⟩
abbrev main_v72 : Ref sig .tc := ⟨.hbm, 150, rfl⟩
abbrev main_v73 : Ref sig .tc := ⟨.hbm, 151, rfl⟩
abbrev main_v74 : Ref sig .tc := ⟨.hbm, 152, rfl⟩

abbrev nD : Nat := 1
abbrev τ : Topo := Topo.v7x

variable {F : FTy → Type} [FloatOps F]

class Facts₀ : Prop where
  reducesTo_S2x2048x4096_S2x2048_d2 : S2x2048x4096.ReducesTo [2] S2x2048
  h_S_ : 0 < S_.numel
  bcast_S2x2048_S2x2048x1_0_1 : S2x2048.BroadcastsInDim S2x2048x1 (![0, 1] : Fin 2 → Fin S2x2048x1.rank)
  bcast_S_S2x2048x1 : S_.BroadcastsInDim S2x2048x1 (![] : Fin 0 → Fin S2x2048x1.rank)
  bcast_S2x2048x1_S2x2048x4096_0_1_2 : S2x2048x1.BroadcastsInDim S2x2048x4096 (![0, 1, 2] : Fin 3 → Fin S2x2048x4096.rank)
  bcast_S_S2x2048x4096 : S_.BroadcastsInDim S2x2048x4096 (![] : Fin 0 → Fin S2x2048x4096.rank)
  reducesTo_S11008x4096_S_d0_1 : S11008x4096.ReducesTo [0, 1] S_
  bcast_S_S11008x4096 : S_.BroadcastsInDim S11008x4096 (![] : Fin 0 → Fin S11008x4096.rank)
  bcast_S_S2x2048x11008 : S_.BroadcastsInDim S2x2048x11008 (![] : Fin 0 → Fin S2x2048x11008.rank)
  reducesTo_S2x2048x11008_S2x2048_d2 : S2x2048x11008.ReducesTo [2] S2x2048
  bcast_S2x2048x1_S2x2048x11008_0_1_2 : S2x2048x1.BroadcastsInDim S2x2048x11008 (![0, 1, 2] : Fin 3 → Fin S2x2048x11008.rank)
  reducesTo_S4096x11008_S_d0_1 : S4096x11008.ReducesTo [0, 1] S_
  bcast_S_S4096x11008 : S_.BroadcastsInDim S4096x11008 (![] : Fin 0 → Fin S4096x11008.rank)
  dot_S2x2048x4096_S11008x4096_S2x2048x11008_2_1_01_0_n_n_wf : DotDims.WF S2x2048x4096 S11008x4096 S2x2048x11008 [2] [1] [0, 1] [0] [] []
  dot_S2x2048x11008_S4096x11008_S2x2048x4096_2_1_01_0_n_n_wf : DotDims.WF S2x2048x11008 S4096x11008 S2x2048x4096 [2] [1] [0, 1] [0] [] []

variable [Facts₀]

def dot_S2x2048x4096_S11008x4096_S2x2048x11008_2_1_01_0_n_n : DotDims S2x2048x4096 S11008x4096 S2x2048x11008 where
  lhsContracting := [2]
  rhsContracting := [1]
  lhsNonContracting := [0, 1]
  rhsNonContracting := [0]
  lhsBatch := []
  rhsBatch := []
  wf := dot_S2x2048x4096_S11008x4096_S2x2048x11008_2_1_01_0_n_n_wf
def dot_S2x2048x11008_S4096x11008_S2x2048x4096_2_1_01_0_n_n : DotDims S2x2048x11008 S4096x11008 S2x2048x4096 where
  lhsContracting := [2]
  rhsContracting := [1]
  lhsNonContracting := [0, 1]
  rhsNonContracting := [0]
  lhsBatch := []
  rhsBatch := []
  wf := dot_S2x2048x11008_S4096x11008_S2x2048x4096_2_1_01_0_n_n_wf

class Facts : Prop extends Facts₀ where

variable [Facts]
-- ==== Proof.KB.R0.lean ====
import proofs.«139580_j65773129171180_2_alg».proof.Proof.Gen.Kernel.Launch
import proofs.«139580_j65773129171180_2_alg».proof.Proof.Gen.Kernel.Skeleton
import proofs.«139580_j65773129171180_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S512x4096 := Rect.unit (s := S512x4096) ![0, 0] S512x4096.size inb_S512x4096_S512x4096_0_0

/-- The quantized block the body leaves in the output window's buffer, from the input block. -/
def out0_1 (x0 : Vec F S512x4096 .f32) : Vec F S512x4096 .bf16 :=
  View.canon [⟨r0_0, k0_pay1 (View.ld x0 r0_0)⟩]

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]
theorem Phi0_first (c : Dev nD) : (dat0 V c).Φ 0 = Pipeline.ΦA spec0 c := rfl
theorem Phi0_last (c : Dev nD) : (dat0 V c).Φ (Fin.last cfg0.N) ⊢ Pipeline.ΦA spec0 c := .rfl

/-- Input window 0's current staging buffer holds its block at every point, whether or not the pipeline fetched it
    there: at an unfetched point the block index is that of the point before, and the body leaves the block in place. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-- The one store's rectangle is the whole 512x4096 output buffer, so it covers it. -/
theorem cover0_1 (p0 : Vec F S512x4096 .bf16) (y : S512x4096.Idx) :
    ∃ pc ∈ ([⟨r0_0, p0⟩] : List (View.Piece (Elt F) S512x4096 .bf16)), y ∈ pc.1.set :=
  View.cover_of_tiled [⟨r0_0, p0⟩] S512x4096.size (by rfl) y

set_option maxHeartbeats 1000000 in
/-- The row-quantizing kernel on whole staging memrefs, the input's reading `x0` and the output's anything, runs to the
    continuation holding the input's as it was and the output's at `out0_1 x0`: every row of the input block scaled by
    127 over its absolute maximum, rounded, clamped, scaled back and narrowed, written over the whole output buffer. -/
theorem sound_kernel0 (c : Dev nD) (E : Set ℕ) (i : grid0.Coords) (arg0 : Memref sig .tc .vmem S512x4096 .f32) (harg0 : arg0.IsWhole) (arg1 : Memref sig .tc .vmem S512x4096 .bf16) (harg1 : arg1.IsWhole)
    (x0 : Vec F S512x4096 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out0_1 x0)) -∗ K ⟨⟩))
      ⊢ wp frame (wpE (defs₀ (F := F)) Variants.none c none) E (cc0__quantize_kernel i arg0 harg0 arg1 harg1) K := by
  simp only [cc0__quantize_kernel_eq_skeleton]; unfold cc0__quantize_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- What the body is called with at point `t`: the invariant, the core's debts, and each window's current staging
    buffer at what the pipeline left in it. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- What it returns: the same, each buffer at what the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: every input's buffer holds its block, so the kernel's triple applies; the invariant and the
    debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ (grid0.coords t) _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KB.R1.lean ====
import proofs.«139580_j65773129171180_2_alg».proof.Proof.Gen.Kernel.Launch
import proofs.«139580_j65773129171180_2_alg».proof.Proof.Gen.Kernel.Skeleton
import proofs.«139580_j65773129171180_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_x : Rect S256x4096 := Rect.unit (s := S256x4096) ![0, 0] S256x4096.size inb_S256x4096_S256x4096_0_0
abbrev r1_w : Rect S1024x4096 := Rect.unit (s := S1024x4096) ![0, 0] S1024x4096.size inb_S1024x4096_S1024x4096_0_0
abbrev r1_o : Rect S256x1024 := Rect.unit (s := S256x1024) ![0, 0] S256x1024.size inb_S256x1024_S256x1024_0_0

/-- The gated block the body leaves in the output window's buffer, from the three input blocks. -/
def out1_3 (x0 : Vec F S256x4096 .bf16) (x1 : Vec F S1024x4096 .bf16) (x2 : Vec F S1024x4096 .bf16) : Vec F S256x1024 .bf16 :=
  View.canon [⟨r1_o, k1_pay1 (View.ld x0 r1_x) (View.ld x1 r1_w) (View.ld x2 r1_w)⟩]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]
theorem Phi1_first (c : Dev nD) : (dat1 V c).Φ 0 = Pipeline.ΦA spec1 c := rfl
theorem Phi1_last (c : Dev nD) : (dat1 V c).Φ (Fin.last cfg1.N) ⊢ Pipeline.ΦA spec1 c := .rfl

/-- Input window 0's current staging buffer holds its block at every point, whether or not the pipeline fetched it
    there: at an unfetched point the block index is that of the point before, and the body leaves the block in place. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)

/-- Input window 1's current staging buffer holds its block at every point, whether or not the pipeline fetched it
    there: at an unfetched point the block index is that of the point before, and the body leaves the block in place. -/
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

/-- Input window 2's current staging buffer holds its block at every point, whether or not the pipeline fetched it
    there: at an unfetched point the block index is that of the point before, and the body leaves the block in place. -/
theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)

/-- The one store's rectangle is the whole 256x1024 output buffer, so it covers it. -/
theorem cover1_3 (p0 : Vec F S256x1024 .bf16) (y : S256x1024.Idx) :
    ∃ pc ∈ ([⟨r1_o, p0⟩] : List (View.Piece (Elt F) S256x1024 .bf16)), y ∈ pc.1.set :=
  View.cover_of_tiled [⟨r1_o, p0⟩] S256x1024.size (by rfl) y

set_option maxHeartbeats 1000000 in
/-- The gated-product kernel on whole staging memrefs, the three inputs' reading `x0`, `x1`, `x2` and the output's
    anything, runs to the continuation holding the inputs' as they were and the output's at `out1_3 x0 x1 x2`: the square
    of the positive part of `x0·x1ᵀ` times `x0·x2ᵀ`, narrowed, written over the whole output buffer. The payload stays
    a named function of the three blocks throughout. -/
theorem sound_kernel1 (c : Dev nD) (E : Set ℕ) (i : grid1.Coords) (arg0 : Memref sig .tc .vmem S256x4096 .bf16) (harg0 : arg0.IsWhole) (arg1 : Memref sig .tc .vmem S1024x4096 .bf16) (harg1 : arg1.IsWhole) (arg2 : Memref sig .tc .vmem S1024x4096 .bf16) (harg2 : arg2.IsWhole) (arg3 : Memref sig .tc .vmem S256x1024 .bf16) (harg3 : arg3.IsWhole)
    (x0 : Vec F S256x4096 .bf16) (x1 : Vec F S1024x4096 .bf16) (x2 : Vec F S1024x4096 .bf16) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out1_3 x0 x1 x2)) -∗ K ⟨⟩))
      ⊢ wp frame (wpE (defs₀ (F := F)) Variants.none c none) E (cc1__gate_up_kernel i arg0 harg0 arg1 harg1 arg2 harg2 arg3 harg3) K := by
  simp only [cc1__gate_up_kernel_eq_skeleton]; unfold cc1__gate_up_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- What the body is called with at point `t`: the invariant, the core's debts, and each window's current staging
    buffer at what the pipeline left in it. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- What it returns: the same, each buffer at what the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: every input's buffer holds its block, so the kernel's triple applies; the invariant and the
    debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KB.R2.lean ====
import proofs.«139580_j65773129171180_2_alg».proof.Proof.Gen.Kernel.Launch
import proofs.«139580_j65773129171180_2_alg».proof.Proof.Gen.Kernel.Skeleton
import proofs.«139580_j65773129171180_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_h : Rect S256x11264 := Rect.unit (s := S256x11264) ![0, 0] S256x11264.size inb_S256x11264_S256x11264_0_0
abbrev r2_o : Rect S256x1 := Rect.unit (s := S256x1) ![0, 0] S256x1.size inb_S256x1_S256x1_0_0

/-- The column of row scales the body leaves in the output window's buffer, from the input block. -/
def out2_1 (x0 : Vec F S256x11264 .bf16) : Vec F S256x1 .f32 :=
  View.canon [⟨r2_o, k2_pay1 (View.ld x0 r2_h)⟩]

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => out2_1 (iblk2 V c 0 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = out2_1 (iblk2 V c 0 t) := by dsimp only [dat2]
theorem Phi2_first (c : Dev nD) : (dat2 V c).Φ 0 = Pipeline.ΦA spec2 c := rfl
theorem Phi2_last (c : Dev nD) : (dat2 V c).Φ (Fin.last cfg2.N) ⊢ Pipeline.ΦA spec2 c := .rfl

/-- The input window's current staging buffer holds its block at every point, whether or not the pipeline fetched
    it there: an unfetched point has the block index of the point before, and the body leaves the block in place. -/
theorem before2_0 (c : Dev nD) (t : Fin cfg2.N) (d) : (dat2 V c).before 0 t d = iblk2 V c 0 t :=
  ((dat2 V c).before_in_eq_fetched 0 rfl (fun _ => rfl) (fun _ _ _ => rfl)
      (fun t => by rw [after2_0]; unfold Dat.blockOf iblk2; rw [A_eq2]; try rfl) t d).trans
    (by unfold Dat.fetched Dat.blockOf iblk2; rw [A_eq2]; try rfl)

/-- The one store's rectangle is the whole 256x1 output buffer, so it covers it. -/
theorem cover2_1 (p0 : Vec F S256x1 .f32) (y : S256x1.Idx) :
    ∃ pc ∈ ([⟨r2_o, p0⟩] : List (View.Piece (Elt F) S256x1 .f32)), y ∈ pc.1.set :=
  View.cover_of_tiled [⟨r2_o, p0⟩] S256x1.size (by rfl) y

set_option maxHeartbeats 1000000 in
/-- The row-scale kernel on whole staging memrefs, the input's reading `x0` and the output's anything, runs to the
    continuation holding the input's as it was and the output's at `out2_1 x0`: the column of scales computed from
    the whole input block, written over the whole output buffer. -/
theorem sound_kernel2 (c : Dev nD) (E : Set ℕ) (i : grid2.Coords) (arg0 : Memref sig .tc .vmem S256x11264 .bf16) (harg0 : arg0.IsWhole)
    (arg1 : Memref sig .tc .vmem S256x1 .f32) (harg1 : arg1.IsWhole)
    (x0 : Vec F S256x11264 .bf16) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out2_1 x0)) -∗ K ⟨⟩))
      ⊢ wp frame (wpE (defs₀ (F := F)) Variants.none c none) E (cc2__row_amax_kernel i arg0 harg0 arg1 harg1) K := by
  simp only [cc2__row_amax_kernel_eq_skeleton]; unfold cc2__row_amax_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover2_1 _)

/-- What the body is called with at point `t`: the invariant, the core's debts, and each window's current staging
    buffer at what the pipeline left in it. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d)))

/-- What it returns: the same, each buffer at what the body leaves. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t))

/-- The body at any point: the input's buffer holds its block, so the kernel's triple applies; the invariant and the
    debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0]
  rw [show (dat2 V c).Φ t.succ = (dat2 V c).Φ t.castSucc from rfl,
    show (dat2 V c).owesAt () t.succ = (dat2 V c).owesAt () t.castSucc from rfl,
    after2_0, after2_1]
  iintro ⟨HΦ, Ho, ⟨%d0, H0⟩, ⟨%d1, H1⟩⟩
  iapply (sound_kernel2 c Set.univ _ _ _ _ _ (iblk2 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KB.R3Run.lean ====
import proofs.«139580_j65773129171180_2_alg».proof.Proof.Gen.Kernel.Launch
import proofs.«139580_j65773129171180_2_alg».proof.Proof.Gen.Kernel.Skeleton
import proofs.«139580_j65773129171180_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditionals of the body, from the grid coordinates -/

/-- The first conditional's test: the reduction index (the innermost grid coordinate) is 0. -/
abbrev cond3_0 (i : grid3.Coords) : Prop := (Scalar.cmpi .ne (Scalar.extui (Scalar.cmpi .eq (BitVec.ofNat 32 (i 2).val) 0#32)) 0#32) = 1#1
/-- It holds exactly at the points ≡ 0 (mod 22): decided over the 352 points. -/
theorem hcond3_0 : ∀ t : Fin cfg3.N, cond3_0 (grid3.coords t) ↔ t.val % 22 = 0 :=
  (by decide +kernel : ∀ t : Fin grid3.N, cond3_0 (grid3.coords t) ↔ t.val % 22 = 0)

/-- The second conditional's test: the reduction index is the last one, 21. -/
abbrev cond3_1 (i : grid3.Coords) : Prop := k3_cond2 i = 1#1
/-- It holds exactly at the points ≡ 21 (mod 22). -/
theorem hcond3_1 : ∀ t : Fin cfg3.N, cond3_1 (grid3.coords t) ↔ t.val % 22 = 21 :=
  (by decide +kernel : ∀ t : Fin grid3.N, cond3_1 (grid3.coords t) ↔ t.val % 22 = 21)

/-- The zero offsets of a whole-buffer rectangle of rank 2. -/
theorem hz2 : (![0, 0] : Fin 2 → Nat) = fun _ => 0 := funext fun a => by fin_cases a <;> rfl

/-! ## The body on whole memrefs, case by case

In each case the three input buffers hold blocks `x0` (the activations, bf16), `x1` (the per-row scale) and `x2`
(the weights, bf16) and are handed back unchanged. The accumulator `arg7` ends at
`k3_pay2 x0 x1 x2 s`, the accumulator `s` plus the product of the re-quantized `x0` with `x2`, where `s` is the
zero block `k3_pay1` when the reduction index is 0 and the accumulator's previous contents otherwise. -/

set_option maxHeartbeats 1000000 in
/-- Reduction index 0 (and not the last): the accumulator, at anything, is zeroed and one product is added to it;
    the output buffer `arg6` is left as found. -/
theorem run3_A (c : Dev nD) (i : grid3.Coords)
    (arg3 : Memref sig .tc .vmem S1024x512 .bf16) (harg3 : arg3.IsWhole) (arg4 : Memref sig .tc .vmem S1024x1 .f32) (harg4 : arg4.IsWhole)
    (arg5 : Memref sig .tc .vmem S1024x512 .bf16) (harg5 : arg5.IsWhole) (arg6 : Memref sig .tc .vmem S1024x1024 .f32) (harg6 : arg6.IsWhole)
    (arg7 : Memref sig .tc .vmem S1024x1024 .f32) (harg7 : arg7.IsWhole) (hc0 : cond3_0 i) (hc1 : ¬cond3_1 i)
    (x0 : Vec F S1024x512 .bf16) (x1 : Vec F S1024x1 .f32) (x2 : Vec F S1024x512 .bf16)
    (xi3 : Vec F S1024x1024 .f32) (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare xi3 ∗ (∃ d, owns (c : Thread nD τ) arg7 fullShare d)
        ∗ (iprop(owns (c : Thread nD τ) arg3 fullShare x0 ∗ owns (c : Thread nD τ) arg4 fullShare x1 ∗ owns (c : Thread nD τ) arg5 fullShare x2
            ∗ owns (c : Thread nD τ) arg6 fullShare xi3 ∗ owns (c : Thread nD τ) arg7 fullShare (k3_pay2 x0 x1 x2 (k3_pay1 (F := F)))) -∗ K ⟨⟩))
      ⊢ wp frame (wpE (defs₀ (F := F)) Variants.none c none) E (cc3__matmul3_kernel i arg3 harg3 arg4 harg4 arg5 harg5 arg6 harg6 arg7 harg7) K := by
    simp only [cc3__matmul3_kernel_eq_skeleton]; unfold cc3__matmul3_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2
    obtain rfl := harg6.eq_unread hf3
    sl_exec (disch := first | exact hc0 | exact hc1)
    sl_step
    sl_unfold_run_names
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; isplitr
    swap; · iexact HS0
    ipureintro
    rw [View.read_writes_eq_canon _ _ _ (fun y => ⟨_, List.Mem.head _, View.mem_set_unit_zero hz2 inb_S1024x1024_S1024x1024_0_0 y⟩),
      View.canon_cons_unit_zero (S := S1024x1024) hz2, View.readCov_unit_zero (S := S1024x1024) _ hz2]
    simp only [View.readAt_eq_ld, harg3.read_unread, harg4.read_unread, harg5.read_unread,
        View.ld_unit_zero (S := S1024x512) hz2, View.ld_unit_zero (S := S1024x1) hz2, View.ld_unit_zero (S := S1024x1024) hz2]

set_option maxHeartbeats 1000000 in
/-- Reduction index neither 0 nor the last: one product is added to the accumulator's contents `xs0`; the output
    buffer `arg6` is left as found. -/
theorem run3_B (c : Dev nD) (i : grid3.Coords)
    (arg3 : Memref sig .tc .vmem S1024x512 .bf16) (harg3 : arg3.IsWhole) (arg4 : Memref sig .tc .vmem S1024x1 .f32) (harg4 : arg4.IsWhole)
    (arg5 : Memref sig .tc .vmem S1024x512 .bf16) (harg5 : arg5.IsWhole) (arg6 : Memref sig .tc .vmem S1024x1024 .f32) (harg6 : arg6.IsWhole)
    (arg7 : Memref sig .tc .vmem S1024x1024 .f32) (harg7 : arg7.IsWhole) (hc0 : ¬cond3_0 i) (hc1 : ¬cond3_1 i)
    (x0 : Vec F S1024x512 .bf16) (x1 : Vec F S1024x1 .f32) (x2 : Vec F S1024x512 .bf16) (xs0 : Vec F S1024x1024 .f32)
    (xi3 : Vec F S1024x1024 .f32) (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare xi3 ∗ owns (c : Thread nD τ) arg7 fullShare xs0
        ∗ (iprop(owns (c : Thread nD τ) arg3 fullShare x0 ∗ owns (c : Thread nD τ) arg4 fullShare x1 ∗ owns (c : Thread nD τ) arg5 fullShare x2
            ∗ owns (c : Thread nD τ) arg6 fullShare xi3 ∗ owns (c : Thread nD τ) arg7 fullShare (k3_pay2 x0 x1 x2 xs0)) -∗ K ⟨⟩))
      ⊢ wp frame (wpE (defs₀ (F := F)) Variants.none c none) E (cc3__matmul3_kernel i arg3 harg3 arg4 harg4 arg5 harg5 arg6 harg6 arg7 harg7) K := by
    simp only [cc3__matmul3_kernel_eq_skeleton]; unfold cc3__matmul3_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2
    obtain rfl := harg6.eq_unread hf3; obtain rfl := harg7.eq_unread hfs0
    sl_exec (disch := first | exact hc0 | exact hc1)
    sl_step
    sl_unfold_run_names
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; isplitr
    swap; · iexact HS0
    ipureintro
    rw [View.read_writes_eq_canon _ _ _ (fun y => ⟨_, List.Mem.head _, View.mem_set_unit_zero hz2 inb_S1024x1024_S1024x1024_0_0 y⟩),
      View.canon_unit_zero hz2]
    simp only [View.readAt_eq_ld, harg3.read_unread, harg4.read_unread, harg5.read_unread, harg7.read_unread,
        View.ld_unit_zero (S := S1024x512) hz2, View.ld_unit_zero (S := S1024x1) hz2, View.ld_unit_zero (S := S1024x1024) hz2]

set_option maxHeartbeats 1000000 in
/-- Reduction index the last (and not 0): one product is added to the accumulator's contents `xs0`, and the sum is
    copied into the output buffer `arg6`, whatever it held. -/
theorem run3_C (c : Dev nD) (i : grid3.Coords)
    (arg3 : Memref sig .tc .vmem S1024x512 .bf16) (harg3 : arg3.IsWhole) (arg4 : Memref sig .tc .vmem S1024x1 .f32) (harg4 : arg4.IsWhole)
    (arg5 : Memref sig .tc .vmem S1024x512 .bf16) (harg5 : arg5.IsWhole) (arg6 : Memref sig .tc .vmem S1024x1024 .f32) (harg6 : arg6.IsWhole)
    (arg7 : Memref sig .tc .vmem S1024x1024 .f32) (harg7 : arg7.IsWhole) (hc0 : ¬cond3_0 i) (hc1 : cond3_1 i)
    (x0 : Vec F S1024x512 .bf16) (x1 : Vec F S1024x1 .f32) (x2 : Vec F S1024x512 .bf16) (xs0 : Vec F S1024x1024 .f32)
    (E : Set ℕ) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d) ∗ owns (c : Thread nD τ) arg7 fullShare xs0
        ∗ (iprop(owns (c : Thread nD τ) arg3 fullShare x0 ∗ owns (c : Thread nD τ) arg4 fullShare x1 ∗ owns (c : Thread nD τ) arg5 fullShare x2
            ∗ owns (c : Thread nD τ) arg6 fullShare (k3_pay2 x0 x1 x2 xs0) ∗ owns (c : Thread nD τ) arg7 fullShare (k3_pay2 x0 x1 x2 xs0)) -∗ K ⟨⟩))
      ⊢ wp frame (wpE (defs₀ (F := F)) Variants.none c none) E (cc3__matmul3_kernel i arg3 harg3 arg4 harg4 arg5 harg5 arg6 harg6 arg7 harg7) K := by
    simp only [cc3__matmul3_kernel_eq_skeleton]; unfold cc3__matmul3_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2
    obtain rfl := harg7.eq_unread hfs0
    sl_exec (disch := first | exact hc0 | exact hc1)
    sl_step
    sl_unfold_run_names
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr
      swap; · iexact H3
      ipureintro
      rw [View.read_writes_eq_canon _ _ _ (fun y => ⟨_, List.Mem.head _, View.mem_set_unit_zero hz2 inb_S1024x1024_S1024x1024_0_0 y⟩),
        View.canon_unit_zero hz2, View.readCov_unit_zero (S := S1024x1024) _ hz2]
      simp only [View.readAt_eq_ld, harg3.read_unread, harg4.read_unread, harg5.read_unread, harg7.read_unread,
        View.ld_unit_zero (S := S1024x512) hz2, View.ld_unit_zero (S := S1024x1) hz2, View.ld_unit_zero (S := S1024x1024) hz2]
    iexists _; isplitr
    swap; · iexact HS0
    ipureintro
    rw [View.read_writes_eq_canon _ _ _ (fun y => ⟨_, List.Mem.head _, View.mem_set_unit_zero hz2 inb_S1024x1024_S1024x1024_0_0 y⟩),
      View.canon_unit_zero hz2]
    simp only [View.readAt_eq_ld, harg3.read_unread, harg4.read_unread, harg5.read_unread, harg7.read_unread,
        View.ld_unit_zero (S := S1024x512) hz2, View.ld_unit_zero (S := S1024x1) hz2, View.ld_unit_zero (S := S1024x1024) hz2]

end Cert.Kernel.Hand

end
-- ==== Proof.KB.R3.lean ====
import proofs.«139580_j65773129171180_2_alg».proof.Proof.KB.R3Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Where the windows are idle -/

/-- At a point whose reduction index is not the last the output window is idle: the body stores nothing into it, -/
theorem idleAt3_3 : ∀ t : Fin cfg3.N, ¬cond3_1 (grid3.coords t) → cfg3.idle 3 (grid3.coords t) = true := by decide +kernel
/-- and the pipeline does not write its block back there. -/
theorem noFlush3_3 : ∀ t : Fin cfg3.N, ¬cond3_1 (grid3.coords t) → (cfg3.win 3).flush t = false := by decide +kernel
/-- At a point whose reduction index is the last the output window is live. -/
theorem liveAt3_3 : ∀ t : Fin cfg3.N, cond3_1 (grid3.coords t) → cfg3.idle 3 (grid3.coords t) = false := by decide +kernel

/-! ## The memrefs the body is called with -/

/-- Each window's current staging memref at point `t`, and its wholeness. -/
abbrev ms3_0 (t : Fin cfg3.N) : Memref sig .tc .vmem S1024x512 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1024x1 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1024x512 .bf16 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1024x1024 .f32 := win3_3.stage (cfg3.slots t 3)
abbrev hs3_3 (t : Fin cfg3.N) : (ms3_3 t).IsWhole := hstage3_3 ((cfg3.slots t 3).cast nbuf3_3)
/-- The accumulator: a whole scoped buffer of the kernel's own, passed beside the windows. -/
abbrev scM3 : Memref sig .tc .vmem S1024x1024 .f32 := Memref.whole cc3_scratch0

/-! ## The scoped rest: sixteen buffers nobody here touches, and the accumulator -/

/-- The sixteen scoped buffers that are staging buffers of the other three kernels, each at some contents: carried
    through this region as one factor. -/
def others3 (c : Dev nD) : sProp 𝕄 :=
  iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg1_1), ((c : Thread nD τ).loc cc0_stg1_1) ↦{fullShare} f)
      ∗ (∃ f : Buf (Elt F) ((c : Thread nD τ).loc cc1_stg0_0), ((c : Thread nD τ).loc cc1_stg0_0) ↦{fullShare} f)
      ∗ (∃ f : Buf (Elt F) ((c : Thread nD τ).loc cc1_stg0_1), ((c : Thread nD τ).loc cc1_stg0_1) ↦{fullShare} f)
      ∗ (∃ f : Buf (Elt F) ((c : Thread nD τ).loc cc1_stg1_0), ((c : Thread nD τ).loc cc1_stg1_0) ↦{fullShare} f)
      ∗ (∃ f : Buf (Elt F) ((c : Thread nD τ).loc cc1_stg1_1), ((c : Thread nD τ).loc cc1_stg1_1) ↦{fullShare} f)
      ∗ (∃ f : Buf (Elt F) ((c : Thread nD τ).loc cc1_stg2_0), ((c : Thread nD τ).loc cc1_stg2_0) ↦{fullShare} f)
      ∗ (∃ f : Buf (Elt F) ((c : Thread nD τ).loc cc1_stg2_1), ((c : Thread nD τ).loc cc1_stg2_1) ↦{fullShare} f)
      ∗ (∃ f : Buf (Elt F) ((c : Thread nD τ).loc cc1_stg3_0), ((c : Thread nD τ).loc cc1_stg3_0) ↦{fullShare} f)
      ∗ (∃ f : Buf (Elt F) ((c : Thread nD τ).loc cc1_stg3_1), ((c : Thread nD τ).loc cc1_stg3_1) ↦{fullShare} f)
      ∗ (∃ f : Buf (Elt F) ((c : Thread nD τ).loc cc2_stg0_0), ((c : Thread nD τ).loc cc2_stg0_0) ↦{fullShare} f)
      ∗ (∃ f : Buf (Elt F) ((c : Thread nD τ).loc cc2_stg0_1), ((c : Thread nD τ).loc cc2_stg0_1) ↦{fullShare} f)
      ∗ (∃ f : Buf (Elt F) ((c : Thread nD τ).loc cc2_stg1_0), ((c : Thread nD τ).loc cc2_stg1_0) ↦{fullShare} f)
      ∗ (∃ f : Buf (Elt F) ((c : Thread nD τ).loc cc2_stg1_1), ((c : Thread nD τ).loc cc2_stg1_1) ↦{fullShare} f))

/-- The class invariant hands out the sixteen other buffers, the accumulator at some contents and the generator register. -/
theorem PhiA3_to (c : Dev nD) :
    (Pipeline.ΦA spec3 c : sProp 𝕄)
      ⊢ iprop(iprop(others3 (F := F) c ∗ (∃ d, owns (c : Thread nD τ) scM3 fullShare d)) ∗ (∃ r, prngReg c r)) := by
  unfold Pipeline.ΦA; rw [scopedRest3_eq]; unfold others3; simp only [scM3, owns_whole]
  iintro ⟨⟨H1, H2, H3, H4, H5, H6, H7, H8, H9, H10, H11, H12, H13, H14, H15, H16, HS⟩, Hg⟩
  isplitr [Hg]
  · isplitr [HS]
    · isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      iexact H16
    · iexact HS
  · iexact Hg

/-- And takes them back. -/
theorem PhiA3_of (c : Dev nD) :
    iprop(iprop(others3 (F := F) c ∗ (∃ d, owns (c : Thread nD τ) scM3 fullShare d)) ∗ (∃ r, prngReg c r))
      ⊢ (Pipeline.ΦA spec3 c : sProp 𝕄) := by
  unfold Pipeline.ΦA; rw [scopedRest3_eq]; unfold others3; simp only [scM3, owns_whole]
  iintro ⟨⟨⟨H1, H2, H3, H4, H5, H6, H7, H8, H9, H10, H11, H12, H13, H14, H15, H16⟩, HS⟩, Hg⟩
  isplitr [Hg]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iexact HS
  · iexact Hg

/-! ## The windows' blocks and the accumulator point by point -/

/-- Window `w`'s block at grid point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- One accumulation step at point `t`: the accumulator `s` plus the product of the point's re-quantized activation
    block with its weight block. -/
def step3 (c : Dev nD) (t : Fin cfg3.N) (s : Vec F S1024x1024 .f32) : Vec F S1024x1024 .f32 :=
  k3_pay2 (iblk3 V c 0 t) (iblk3 V c 1 t) (iblk3 V c 2 t) s

/-- THE ACCUMULATOR after the body at position `n`: one step over the zero block where the reduction index is 0
    (`n % 22 = 0`), over the accumulator after the position before elsewhere. -/
def acc3 (c : Dev nD) : (n : ℕ) → n < cfg3.N → Vec F S1024x1024 .f32
  | 0, hn => step3 V c ⟨0, hn⟩ (k3_pay1 (F := F))
  | n + 1, hn =>
    if (n + 1) % 22 = 0 then step3 V c ⟨n + 1, hn⟩ (k3_pay1 (F := F))
    else step3 V c ⟨n + 1, hn⟩ (acc3 c n (Nat.lt_of_succ_lt hn))

/-- The accumulator at a point whose reduction index is 0: one step over zeros. -/
theorem acc3_first (c : Dev nD) (t : Fin cfg3.N) (h0 : t.val % 22 = 0) :
    acc3 V c t.val t.isLt = step3 V c t (k3_pay1 (F := F)) := by
  obtain ⟨n, hn⟩ := t
  cases n with
  | zero => rfl
  | succ n => exact if_pos h0

/-- The accumulator at any other point: one step over the accumulator after the point before. -/
theorem acc3_next (c : Dev nD) (t : Fin cfg3.N) (h0 : ¬t.val % 22 = 0) :
    acc3 V c t.val t.isLt = step3 V c t (acc3 V c (t.val - 1) (Nat.lt_of_le_of_lt (Nat.sub_le _ _) t.isLt)) := by
  obtain ⟨n, hn⟩ := t
  cases n with
  | zero => exact absurd (Nat.zero_mod _) h0
  | succ n => exact if_neg h0

/-! ## The region invariant -/

/-- Before position `n`: the class invariant before the first point; afterwards the sixteen other scoped buffers at
    anything, the accumulator at what the point before left in it, and the generator register at some state. -/
def PhiS3 (c : Dev nD) : (n : ℕ) → n ≤ cfg3.N → sProp 𝕄
  | 0, _ => Pipeline.ΦA spec3 c
  | n + 1, hn => iprop(iprop(others3 (F := F) c ∗ owns (c : Thread nD τ) scM3 fullShare (acc3 V c n hn)) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(others3 (F := F) c ∗ owns (c : Thread nD τ) scM3 fullShare (acc3 V c n hn)) ∗ (∃ r, prngReg c r)) := rfl

theorem PhiS3_pos (c : Dev nD) (n : ℕ) (h : n ≤ cfg3.N) (hz : n ≠ 0) :
    PhiS3 V c n h = iprop(iprop(others3 (F := F) c ∗ owns (c : Thread nD τ) scM3 fullShare (acc3 V c (n - 1) (by omega))) ∗ (∃ r, prngReg c r)) := by
  cases n with
  | zero => exact absurd rfl hz
  | succ n => rfl

/-! ## The proof data -/

/-- The proof data of the region on core `c`: the arrays as the region finds them; after the body at point `t` each
    input's buffer at its block and the output's at the accumulator (consulted only where the reduction index is the
    last: elsewhere the window is idle and not written back); the invariant `PhiS3`; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => acc3 V c t.val t.isLt
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = acc3 V c t.val t.isLt := by dsimp only [dat3]
/-- What the write-back at a point whose reduction index is the last writes: the accumulator there. -/
theorem after3_3_of_last (c : Dev nD) (t : Fin cfg3.N) (h : t.val % 22 = 21) : (dat3 V c).after 3 t = acc3 V c t.val t.isLt :=
  after3_3 V c t

theorem PhiS3_castSucc (c : Dev nD) (t : Fin cfg3.N) :
    (dat3 V c).Φ t.castSucc = PhiS3 V c t.val (Nat.le_of_lt t.isLt) := by
  dsimp only [dat3]; simp only [Fin.coe_castSucc]

theorem Phi3_first (c : Dev nD) : (dat3 V c).Φ 0 = Pipeline.ΦA spec3 c := by
  rw [show (dat3 V c).Φ 0 = PhiS3 V c 0 (Nat.zero_le _) from rfl, PhiS3_zero V c 0 _ rfl]

/-- After any point but the first the invariant gives the class invariant back: what the accumulator holds is forgotten. -/
theorem Phi3_out (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht]
  refine BIBase.Entails.trans ?_ (PhiA3_of c)
  iintro ⟨⟨Hoth, HS0⟩, Hg⟩
  isplitr [Hg]
  · isplitl [Hoth]; · iexact Hoth
    iexists _; iexact HS0
  · iexact Hg

theorem Phi3_last (c : Dev nD) : (dat3 V c).Φ (Fin.last cfg3.N) ⊢ Pipeline.ΦA spec3 c :=
  Phi3_out V c _ (by rw [Fin.val_last]; have : cfg3.N = 352 := N_3; omega)

/-! ## What the body finds in the input windows -/

/-- Each input's current staging buffer holds its block at every point, fetched there or not (the scale's block is
    fetched only where the row-block index moves: elsewhere the buffer still holds it). -/
theorem before3_0 (c : Dev nD) (t : Fin cfg3.N) (d) : (dat3 V c).before 0 t d = iblk3 V c 0 t :=
  ((dat3 V c).before_in_eq_fetched 0 rfl (fun _ => rfl) (fun _ _ _ => rfl)
      (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl)
      (fun t => by rw [after3_1]; unfold Dat.blockOf iblk3; rw [A_eq3]; try rfl) t d).trans
    (by unfold Dat.fetched Dat.blockOf iblk3; rw [A_eq3]; try rfl)
theorem before3_2 (c : Dev nD) (t : Fin cfg3.N) (d) : (dat3 V c).before 2 t d = iblk3 V c 2 t :=
  ((dat3 V c).before_in_eq_fetched 2 rfl (fun _ => rfl) (fun _ _ _ => rfl)
      (fun t => by rw [after3_2]; unfold Dat.blockOf iblk3; rw [A_eq3]; try rfl) t d).trans
    (by unfold Dat.fetched Dat.blockOf iblk3; rw [A_eq3]; try rfl)

/-! ## The body obligation, at a generic point -/

/-- The input windows are never idle. -/
theorem liveAt3_0 : ∀ t : Fin cfg3.N, cfg3.idle 0 (grid3.coords t) = false := fun _ => rfl
theorem liveAt3_1 : ∀ t : Fin cfg3.N, cfg3.idle 1 (grid3.coords t) = false := fun _ => rfl
theorem liveAt3_2 : ∀ t : Fin cfg3.N, cfg3.idle 2 (grid3.coords t) = false := fun _ => rfl

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 4800000 in
/-- The body at any point. The inputs' memrefs hold their blocks; the reduction index, in closed form over the point,
    says which of the three cases the point is in. The invariant hands the body the accumulator — at anything at the
    first point, at what the point before left afterwards — and takes it back at this point's contents; the sixteen
    other scoped buffers and the generator register pass through. Where the reduction index is not the last the output
    window's buffer goes back as it came; where it is, it goes back holding the accumulator. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = PhiS3 V c (t.val + 1) t.isLt from rfl, PhiS3_succ]
  have hN : t.val < 352 := lt_of_lt_of_eq t.isLt (show cfg3.N = 352 from N_3)
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  by_cases h0 : t.val % 22 = 0
  · have h1 : ¬t.val % 22 = 21 := by omega
    have hc0 : cond3_0 (grid3.coords t) := (hcond3_0 t).mpr h0
    have hc1 : ¬cond3_1 (grid3.coords t) := fun h => h1 ((hcond3_1 t).mp h)
    rw [Dat.leavesExact_idle (dat3 V c) 3 t (idleAt3_3 t hc1) (noFlush3_3 t hc1)]
    rw [acc3_first V c t h0]; unfold step3
    by_cases hz : t.val = 0
    · rw [PhiS3_castSucc V c t, PhiS3_zero V c _ _ hz]
      refine BIBase.Entails.trans (Idealize.SL.BI.Laws.sep_mono_left (PhiA3_to c)) ?_
      iintro ⟨⟨⟨Hoth, HS0⟩, Hg⟩, Ho, ⟨%d0, H0⟩, ⟨%d1, H1⟩, ⟨%d2, H2⟩, ⟨%d3, H3⟩⟩
      iapply (run3_A c (grid3.coords t) _ _ _ _ _ _ _ _ _ _ hc0 hc1 (iblk3 V c 0 t) (iblk3 V c 1 t) (iblk3 V c 2 t) _ Set.univ _)
      isplitl [H0]; · iexact H0
      isplitl [H1]; · iexact H1
      isplitl [H2]; · iexact H2
      isplitl [H3]; · iexact H3
      isplitl [HS0]; · iexact HS0
      iintro ⟨H0, H1, H2, H3, HS0⟩
      isplitl [Hoth HS0 Hg]
      · isplitl [Hoth HS0]
        · isplitl [Hoth]; · iexact Hoth
          iexact HS0
        iexact Hg
      isplitl [Ho]; · iexact Ho
      isplitl [H0]; · iexact H0
      isplitl [H1]; · iexact H1
      isplitl [H2]; · iexact H2
      iexists _; iexact H3
    · rw [PhiS3_castSucc V c t, PhiS3_pos V c _ _ hz]
      iintro ⟨⟨⟨Hoth, HS0⟩, Hg⟩, Ho, ⟨%d0, H0⟩, ⟨%d1, H1⟩, ⟨%d2, H2⟩, ⟨%d3, H3⟩⟩
      iapply (run3_A c (grid3.coords t) _ _ _ _ _ _ _ _ _ _ hc0 hc1 (iblk3 V c 0 t) (iblk3 V c 1 t) (iblk3 V c 2 t) _ Set.univ _)
      isplitl [H0]; · iexact H0
      isplitl [H1]; · iexact H1
      isplitl [H2]; · iexact H2
      isplitl [H3]; · iexact H3
      isplitl [HS0]; · iexists _; iexact HS0
      iintro ⟨H0, H1, H2, H3, HS0⟩
      isplitl [Hoth HS0 Hg]
      · isplitl [Hoth HS0]
        · isplitl [Hoth]; · iexact Hoth
          iexact HS0
        iexact Hg
      isplitl [Ho]; · iexact Ho
      isplitl [H0]; · iexact H0
      isplitl [H1]; · iexact H1
      isplitl [H2]; · iexact H2
      iexists _; iexact H3
  · have hz : t.val ≠ 0 := fun h => h0 (by rw [h])
    have hc0 : ¬cond3_0 (grid3.coords t) := fun h => h0 ((hcond3_0 t).mp h)
    rw [acc3_next V c t h0]; unfold step3
    rw [PhiS3_castSucc V c t, PhiS3_pos V c _ _ hz]
    by_cases h1 : t.val % 22 = 21
    · have hc1 : cond3_1 (grid3.coords t) := (hcond3_1 t).mpr h1
      rw [show (dat3 V c).leavesExact 3 t = owns (c : Thread nD τ) (ms3_3 t) fullShare ((dat3 V c).after 3 t) from by
        unfold Dat.leavesExact; rw [liveAt3_3 t hc1], after3_3]
      rw [acc3_next V c t h0]; unfold step3
      iintro ⟨⟨⟨Hoth, HS0⟩, Hg⟩, Ho, ⟨%d0, H0⟩, ⟨%d1, H1⟩, ⟨%d2, H2⟩, ⟨%d3, H3⟩⟩
      iapply (run3_C c (grid3.coords t) _ _ _ _ _ _ _ _ _ _ hc0 hc1 (iblk3 V c 0 t) (iblk3 V c 1 t) (iblk3 V c 2 t) _ Set.univ _)
      isplitl [H0]; · iexact H0
      isplitl [H1]; · iexact H1
      isplitl [H2]; · iexact H2
      isplitl [H3]; · iexists _; iexact H3
      isplitl [HS0]; · iexact HS0
      iintro ⟨H0, H1, H2, H3, HS0⟩
      isplitl [Hoth HS0 Hg]
      · isplitl [Hoth HS0]
        · isplitl [Hoth]; · iexact Hoth
          iexact HS0
        iexact Hg
      isplitl [Ho]; · iexact Ho
      isplitl [H0]; · iexact H0
      isplitl [H1]; · iexact H1
      isplitl [H2]; · iexact H2
      iexact H3
    · have hc1 : ¬cond3_1 (grid3.coords t) := fun h => h1 ((hcond3_1 t).mp h)
      rw [Dat.leavesExact_idle (dat3 V c) 3 t (idleAt3_3 t hc1) (noFlush3_3 t hc1)]
      iintro ⟨⟨⟨Hoth, HS0⟩, Hg⟩, Ho, ⟨%d0, H0⟩, ⟨%d1, H1⟩, ⟨%d2, H2⟩, ⟨%d3, H3⟩⟩
      iapply (run3_B c (grid3.coords t) _ _ _ _ _ _ _ _ _ _ hc0 hc1 (iblk3 V c 0 t) (iblk3 V c 1 t) (iblk3 V c 2 t) _ _ Set.univ _)
      isplitl [H0]; · iexact H0
      isplitl [H1]; · iexact H1
      isplitl [H2]; · iexact H2
      isplitl [H3]; · iexact H3
      isplitl [HS0]; · iexact HS0
      iintro ⟨H0, H1, H2, H3, HS0⟩
      isplitl [Hoth HS0 Hg]
      · isplitl [Hoth HS0]
        · isplitl [Hoth]; · iexact Hoth
          iexact HS0
        iexact Hg
      isplitl [Ho]; · iexact Ho
      isplitl [H0]; · iexact H0
      isplitl [H1]; · iexact H1
      isplitl [H2]; · iexact H2
      iexists _; iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.KB.Run.lean ====
/-
  The run of @main, from the launch to the return, read off segment by segment: eighteen stretches of host
  operations (the three weight matrices quantized to the ternary grid and padded with zero rows or columns up to 11264),
  the four kernel regions — the input rows quantized to the 8-bit grid; the gated product `relu(x·Wg)² · (x·Wu)` block by
  block; each row's scale from its largest absolute value; the product with the down matrix accumulated over 22 blocks of
  the contracted axis —, and the final reshape. Between two segments every unscoped buffer of a core is held whole at
  named contents: a host stretch takes them to what its operations compute, a region to its arrays at what its blocks'
  write-backs leave (every other buffer as entered). The run's post reads EVERY unscoped buffer at the last contents, so
  both the frame (no argument array is ever written) and the result's value follow from it.
-/
import proofs.«139580_j65773129171180_2_alg».proof.Proof.KB.R0
import proofs.«139580_j65773129171180_2_alg».proof.Proof.KB.R1
import proofs.«139580_j65773129171180_2_alg».proof.Proof.KB.R2
import proofs.«139580_j65773129171180_2_alg».proof.Proof.KB.R3
import proofs.«139580_j65773129171180_2_alg».proof.Proof.Gen.Kernel.Regions
import Idealize.ShloMosaic.Lib.Pipeline.Kit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- When region 0 is entered: the launch contents taken through the eighteen host stretches. -/
abbrev Q0 (c : Dev nD) : Valuation τ sig (Elt F) := V18 m c
abbrev T0 : (c : Dev nD) → (b : Ref sig .tc) → Buf (Elt F) ((c : Thread nD τ).loc b) := fun c b => Q0 m c b

/-- At region 0's exit: its arrays at what its write-backs leave, every other buffer as entered. -/
def Q1 (c : Dev nD) : Valuation τ sig (Elt F) :=
  Pipeline.withArrays spec0 c (Q0 m c) fun w => (dat0 (T0 m) c).arrAt w cfg0.N
theorem Q1_arr (c : Dev nD) (w : Fin cfg0.W) :
    Q1 m c (Proc.devRef .tc (Pipeline.arrRef spec0 w)) = (dat0 (T0 m) c).arrAt w cfg0.N := by
  unfold Q1; exact Pipeline.withArrays_arr spec0 launch0.win.arr_inj c _ _ w
theorem Q1_of_ne (c : Dev nD) (b : Ref sig .tc) (hb : ∀ w, Pipeline.arrRef spec0 w ≠ b) :
    Q1 m c (Proc.devRef .tc b) = Q0 m c (Proc.devRef .tc b) := by
  unfold Q1; exact Pipeline.withArrays_of_ne spec0 c _ _ b hb
/-- The same contents read at the TensorCore's references. -/
abbrev T1 : (c : Dev nD) → (b : Ref sig .tc) → Buf (Elt F) ((c : Thread nD τ).loc b) := fun c b => Q1 m c b
theorem hF0 (c : Dev nD) (w : Fin cfg0.W) : (dat0 (T0 m) c).arrAt w cfg0.N = T1 m c (Pipeline.arrRef spec0 w) :=
  (Q1_arr m c w).symm
theorem hrest0 (c : Dev nD) : ∀ b, b ∉ Finset.univ.image (Pipeline.arrRef spec0) → T1 m c b = T0 m c b :=
  fun b hb => Q1_of_ne m c b fun w e => hb (Finset.mem_image.mpr ⟨w, Finset.mem_univ _, e⟩)

/-- At region 1's exit: its arrays at what its write-backs leave, every other buffer as entered. -/
def Q2 (c : Dev nD) : Valuation τ sig (Elt F) :=
  Pipeline.withArrays spec1 c (Q1 m c) fun w => (dat1 (T1 m) c).arrAt w cfg1.N
theorem Q2_arr (c : Dev nD) (w : Fin cfg1.W) :
    Q2 m c (Proc.devRef .tc (Pipeline.arrRef spec1 w)) = (dat1 (T1 m) c).arrAt w cfg1.N := by
  unfold Q2; exact Pipeline.withArrays_arr spec1 launch1.win.arr_inj c _ _ w
theorem Q2_of_ne (c : Dev nD) (b : Ref sig .tc) (hb : ∀ w, Pipeline.arrRef spec1 w ≠ b) :
    Q2 m c (Proc.devRef .tc b) = Q1 m c (Proc.devRef .tc b) := by
  unfold Q2; exact Pipeline.withArrays_of_ne spec1 c _ _ b hb
/-- The same contents read at the TensorCore's references. -/
abbrev T2 : (c : Dev nD) → (b : Ref sig .tc) → Buf (Elt F) ((c : Thread nD τ).loc b) := fun c b => Q2 m c b
theorem hF1 (c : Dev nD) (w : Fin cfg1.W) : (dat1 (T1 m) c).arrAt w cfg1.N = T2 m c (Pipeline.arrRef spec1 w) :=
  (Q2_arr m c w).symm
theorem hrest1 (c : Dev nD) : ∀ b, b ∉ Finset.univ.image (Pipeline.arrRef spec1) → T2 m c b = T1 m c b :=
  fun b hb => Q2_of_ne m c b fun w e => hb (Finset.mem_image.mpr ⟨w, Finset.mem_univ _, e⟩)

/-- At region 2's exit: its arrays at what its write-backs leave, every other buffer as entered. -/
def Q3 (c : Dev nD) : Valuation τ sig (Elt F) :=
  Pipeline.withArrays spec2 c (Q2 m c) fun w => (dat2 (T2 m) c).arrAt w cfg2.N
theorem Q3_arr (c : Dev nD) (w : Fin cfg2.W) :
    Q3 m c (Proc.devRef .tc (Pipeline.arrRef spec2 w)) = (dat2 (T2 m) c).arrAt w cfg2.N := by
  unfold Q3; exact Pipeline.withArrays_arr spec2 launch2.win.arr_inj c _ _ w
theorem Q3_of_ne (c : Dev nD) (b : Ref sig .tc) (hb : ∀ w, Pipeline.arrRef spec2 w ≠ b) :
    Q3 m c (Proc.devRef .tc b) = Q2 m c (Proc.devRef .tc b) := by
  unfold Q3; exact Pipeline.withArrays_of_ne spec2 c _ _ b hb
/-- The same contents read at the TensorCore's references. -/
abbrev T3 : (c : Dev nD) → (b : Ref sig .tc) → Buf (Elt F) ((c : Thread nD τ).loc b) := fun c b => Q3 m c b
theorem hF2 (c : Dev nD) (w : Fin cfg2.W) : (dat2 (T2 m) c).arrAt w cfg2.N = T3 m c (Pipeline.arrRef spec2 w) :=
  (Q3_arr m c w).symm
theorem hrest2 (c : Dev nD) : ∀ b, b ∉ Finset.univ.image (Pipeline.arrRef spec2) → T3 m c b = T2 m c b :=
  fun b hb => Q3_of_ne m c b fun w e => hb (Finset.mem_image.mpr ⟨w, Finset.mem_univ _, e⟩)

/-- At region 3's exit: its arrays at what its write-backs leave, every other buffer as entered. -/
def Q4 (c : Dev nD) : Valuation τ sig (Elt F) :=
  Pipeline.withArrays spec3 c (Q3 m c) fun w => (dat3 (T3 m) c).arrAt w cfg3.N
theorem Q4_arr (c : Dev nD) (w : Fin cfg3.W) :
    Q4 m c (Proc.devRef .tc (Pipeline.arrRef spec3 w)) = (dat3 (T3 m) c).arrAt w cfg3.N := by
  unfold Q4; exact Pipeline.withArrays_arr spec3 launch3.win.arr_inj c _ _ w
theorem Q4_of_ne (c : Dev nD) (b : Ref sig .tc) (hb : ∀ w, Pipeline.arrRef spec3 w ≠ b) :
    Q4 m c (Proc.devRef .tc b) = Q3 m c (Proc.devRef .tc b) := by
  unfold Q4; exact Pipeline.withArrays_of_ne spec3 c _ _ b hb
/-- The same contents read at the TensorCore's references. -/
abbrev T4 : (c : Dev nD) → (b : Ref sig .tc) → Buf (Elt F) ((c : Thread nD τ).loc b) := fun c b => Q4 m c b
theorem hF3 (c : Dev nD) (w : Fin cfg3.W) : (dat3 (T3 m) c).arrAt w cfg3.N = T4 m c (Pipeline.arrRef spec3 w) :=
  (Q4_arr m c w).symm
theorem hrest3 (c : Dev nD) : ∀ b, b ∉ Finset.univ.image (Pipeline.arrRef spec3) → T4 m c b = T3 m c b :=
  fun b hb => Q4_of_ne m c b fun w e => hb (Finset.mem_image.mpr ⟨w, Finset.mem_univ _, e⟩)

/-- After the final reshape. -/
abbrev Q5 (c : Dev nD) : Valuation τ sig (Elt F) := StableHlo.after hostOps4 (Q4 m c)

/-! ## The proof data family and the thread state -/

/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (T0 m) c
  | ⟨1, _⟩ => fun c => dat1 (T1 m) c
  | ⟨2, _⟩ => fun c => dat2 (T2 m) c
  | ⟨3, _⟩ => fun c => dat3 (T3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and the core owing nothing. -/
abbrev R (c : Dev nD) : sProp 𝕄 := iprop((∃ r, prngReg c r) ∗ ∃ W, owes (c : Thread nD τ) (0 : CellTallies nD τ sig Unit) W)
/-- A host stretch as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- Region 0 over the thread state: entered with every unscoped buffer at the entry contents, left with its arrays at
    what the write-backs leave and every other buffer as entered; the generator register passes through the invariant;
    nothing is owed and the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (T0 m) c).loose
  hwaits := Pipeline.hwaits_of_owed_zero _ _ _ _ L lv 0 fun _ _ => rfl
  pre c := iprop(StableHlo.held (c : Thread nD τ) (Pipeline.ucRefs τ sig) (Q0 m c) ∗ R c)
  post c := iprop(StableHlo.held (c : Thread nD τ) (Pipeline.ucRefs τ sig) (Q1 m c) ∗ R c)
  X c := iprop(∃ r, prngReg c r)
  Y c := iprop(∃ r, prngReg c r)
  Z c := Pipeline.unscopedRest (Ix := Unit) (Name := ℕ) (U := UR sig nD τ) (Lvl := ℕ) spec0 c (T0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (T0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from Phi0_first (T0 m) c]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from Phi0_last (T0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (T0 m c) (T1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the entry contents, left with its arrays at
    what the write-backs leave and every other buffer as entered; the generator register passes through the invariant;
    nothing is owed and the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (T1 m) c).loose
  hwaits := Pipeline.hwaits_of_owed_zero _ _ _ _ L lv 1 fun _ _ => rfl
  pre c := iprop(StableHlo.held (c : Thread nD τ) (Pipeline.ucRefs τ sig) (Q1 m c) ∗ R c)
  post c := iprop(StableHlo.held (c : Thread nD τ) (Pipeline.ucRefs τ sig) (Q2 m c) ∗ R c)
  X c := iprop(∃ r, prngReg c r)
  Y c := iprop(∃ r, prngReg c r)
  Z c := Pipeline.unscopedRest (Ix := Unit) (Name := ℕ) (U := UR sig nD τ) (Lvl := ℕ) spec1 c (T1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (T1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from Phi1_first (T1 m) c]; unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from Phi1_last (T1 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (T1 m c) (T2 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at the entry contents, left with its arrays at
    what the write-backs leave and every other buffer as entered; the generator register passes through the invariant;
    nothing is owed and the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (T2 m) c).loose
  hwaits := Pipeline.hwaits_of_owed_zero _ _ _ _ L lv 2 fun _ _ => rfl
  pre c := iprop(StableHlo.held (c : Thread nD τ) (Pipeline.ucRefs τ sig) (Q2 m c) ∗ R c)
  post c := iprop(StableHlo.held (c : Thread nD τ) (Pipeline.ucRefs τ sig) (Q3 m c) ∗ R c)
  X c := iprop(∃ r, prngReg c r)
  Y c := iprop(∃ r, prngReg c r)
  Z c := Pipeline.unscopedRest (Ix := Unit) (Name := ℕ) (U := UR sig nD τ) (Lvl := ℕ) spec2 c (T2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (T2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from Phi2_first (T2 m) c]; unfold Pipeline.ΦA
    iintro ⟨Hp, -, Hr⟩
    isplitl [Hr]; · iexact Hr
    iexact Hp
  hout c := by
    rw [Pipeline.ownSems0_none]
    refine (show (pdats m 2 c).Φ (Fin.last _) ⊢ Pipeline.ΦA spec2 c from Phi2_last (T2 m) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (T2 m c) (T3 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered with every unscoped buffer at the entry contents, left with its arrays at
    what the write-backs leave and every other buffer as entered; the generator register passes through the invariant;
    nothing is owed and the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (T3 m) c).loose
  hwaits := Pipeline.hwaits_of_owed_zero _ _ _ _ L lv 3 fun _ _ => rfl
  pre c := iprop(StableHlo.held (c : Thread nD τ) (Pipeline.ucRefs τ sig) (Q3 m c) ∗ R c)
  post c := iprop(StableHlo.held (c : Thread nD τ) (Pipeline.ucRefs τ sig) (Q4 m c) ∗ R c)
  X c := iprop(∃ r, prngReg c r)
  Y c := iprop(∃ r, prngReg c r)
  Z c := Pipeline.unscopedRest (Ix := Unit) (Name := ℕ) (U := UR sig nD τ) (Lvl := ℕ) spec3 c (T3 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (T3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from Phi3_first (T3 m) c]; unfold Pipeline.ΦA
    iintro ⟨Hp, -, Hr⟩
    isplitl [Hr]; · iexact Hr
    iexact Hp
  hout c := by
    rw [Pipeline.ownSems0_none]
    refine (show (pdats m 3 c).Φ (Fin.last _) ⊢ Pipeline.ΦA spec3 c from Phi3_last (T3 m) c).trans ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (T3 m c) (T4 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 23 segments in order. -/
abbrev hsegs : List (Pipeline.Seg (pcfgs (F := F)) adm (pdats m) () defs₀ 𝒱₀ L lv) :=
  [ .host (hseg hostOps0 hostOps0_sub hostOps0_fresh (V0 m)),
    .host (hseg hostOps0_1 hostOps0_1_sub hostOps0_1_fresh (V1 m)),
    .host (hseg hostOps0_2 hostOps0_2_sub hostOps0_2_fresh (V2 m)),
    .host (hseg hostOps0_3 hostOps0_3_sub hostOps0_3_fresh (V3 m)),
    .host (hseg hostOps0_4 hostOps0_4_sub hostOps0_4_fresh (V4 m)),
    .host (hseg hostOps0_5 hostOps0_5_sub hostOps0_5_fresh (V5 m)),
    .host (hseg hostOps0_6 hostOps0_6_sub hostOps0_6_fresh (V6 m)),
    .host (hseg hostOps0_7 hostOps0_7_sub hostOps0_7_fresh (V7 m)),
    .host (hseg hostOps0_8 hostOps0_8_sub hostOps0_8_fresh (V8 m)),
    .host (hseg hostOps0_9 hostOps0_9_sub hostOps0_9_fresh (V9 m)),
    .host (hseg hostOps0_10 hostOps0_10_sub hostOps0_10_fresh (V10 m)),
    .host (hseg hostOps0_11 hostOps0_11_sub hostOps0_11_fresh (V11 m)),
    .host (hseg hostOps0_12 hostOps0_12_sub hostOps0_12_fresh (V12 m)),
    .host (hseg hostOps0_13 hostOps0_13_sub hostOps0_13_fresh (V13 m)),
    .host (hseg hostOps0_14 hostOps0_14_sub hostOps0_14_fresh (V14 m)),
    .host (hseg hostOps0_15 hostOps0_15_sub hostOps0_15_fresh (V15 m)),
    .host (hseg hostOps0_16 hostOps0_16_sub hostOps0_16_fresh (V16 m)),
    .host (hseg hostOps0_17 hostOps0_17_sub hostOps0_17_fresh (V17 m)),
    .region (reg0 m), .region (reg1 m), .region (reg2 m), .region (reg3 m),
    .host (hseg hostOps4 hostOps4_sub hostOps4_fresh (Q4 m)) ]

theorem main_run (c : Dev nD) : main (F := F) c = Pipeline.Seg.run (hsegs m) := by
  rw [main_chain c, Pipeline.Seg.run_eq_chain]; rfl

set_option backward.isDefEq.respectTransparency.types false in
/-- THE RUN: from any memory with zero counters, every weakly fair execution of @main terminates, nothing faulting, and
    in every final state each unscoped buffer of each core holds the last boundary's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = Q5 m c b) :=
  Pipeline.θ_run_regions_kit (pcfgs (F := F)) adm (pdats m) () cellOf_inj emb₁ defs₀ 𝒱₀ L lv m ρ main (hsegs m)
    (fun c Q => by rw [main_run m c])
    (by simp only [hsegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => iprop(StableHlo.held (c : Thread nD τ) (Pipeline.ucRefs τ sig) (Q5 m c) ∗ ∃ r, prngReg c r))
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl,
      fun c => by
        show (iprop(StableHlo.held (c : Thread nD τ) (Pipeline.ucRefs τ sig) (Q5 m c) ∗ R c) : sProp 𝕄) ⊢ _
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Q5 m c b)
    (hfin := fun c s' => by
      iintro ⟨⟨Hh, -⟩, HSI⟩
      unfold StableHlo.held
      imodintro
      iapply (pointsTo_read_all (Pipeline.ucRefs τ sig) (fun b => (((c : Thread nD τ)).1, b)) (Q5 m c) s')
      isplitl [Hh] <;> iassumption)
    (hQ := fun s h => h)

end Cert.Kernel.Hand

end
-- ==== Proof.KB.Frame.lean ====
/-
  The frame of @main: no host operation writes an argument array and no region changes one (a region changes only the
  array of its output window, and no argument is one), so each argument's buffer holds its launch contents at every
  boundary, the last included; the run's post reads them there.
-/
import proofs.«139580_j65773129171180_2_alg».proof.Proof.KB.Run

set_option maxRecDepth 16384

noncomputable section

namespace Cert.Kernel.Hand

open Cert.Kernel Cert.Kernel.Gen
open Idealize.ShloMosaic Idealize.ShloMosaic.TcCoe
open Idealize.SL Idealize.SL.Sem

variable {F : FTy → Type} [FloatOps F]
variable (m : (ℓ : Loc nD τ sig) → Buf (Elt F) ℓ)

/-- No host stretch writes `main_arg0` and no region stages it in a window it changes: its last contents are the launch's. -/
theorem Q5_main_arg0 (c : Dev nD) : Q5 m c (Proc.devRef .tc main_arg0) = m ((c : Thread nD τ).loc main_arg0) :=
  (StableHlo.after_of_writes_sub hostOps4 _ hostOps4_writes (r := main_arg0) (by decide)).trans <|
  (Q4_of_ne m c main_arg0 (by decide)).trans <| (Q3_of_ne m c main_arg0 (by decide)).trans <|
  (Q2_of_ne m c main_arg0 (by decide)).trans <| (Q1_of_ne m c main_arg0 (by decide)).trans <|
  (V18_of m c main_arg0 (by decide)).trans <| (V17_of m c main_arg0 (by decide)).trans <| (V16_of m c main_arg0 (by decide)).trans <| (V15_of m c main_arg0 (by decide)).trans <| (V14_of m c main_arg0 (by decide)).trans <| (V13_of m c main_arg0 (by decide)).trans <| (V12_of m c main_arg0 (by decide)).trans <| (V11_of m c main_arg0 (by decide)).trans <| (V10_of m c main_arg0 (by decide)).trans <| (V9_of m c main_arg0 (by decide)).trans <| (V8_of m c main_arg0 (by decide)).trans <| (V7_of m c main_arg0 (by decide)).trans <| (V6_of m c main_arg0 (by decide)).trans <| (V5_of m c main_arg0 (by decide)).trans <| (V4_of m c main_arg0 (by decide)).trans <| (V3_of m c main_arg0 (by decide)).trans <| (V2_of m c main_arg0 (by decide)).trans <| (V1_of m c main_arg0 (by decide)).trans <| rfl

/-- No host stretch writes `main_arg1` and no region stages it in a window it changes: its last contents are the launch's. -/
theorem Q5_main_arg1 (c : Dev nD) : Q5 m c (Proc.devRef .tc main_arg1) = m ((c : Thread nD τ).loc main_arg1) :=
  (StableHlo.after_of_writes_sub hostOps4 _ hostOps4_writes (r := main_arg1) (by decide)).trans <|
  (Q4_of_ne m c main_arg1 (by decide)).trans <| (Q3_of_ne m c main_arg1 (by decide)).trans <|
  (Q2_of_ne m c main_arg1 (by decide)).trans <| (Q1_of_ne m c main_arg1 (by decide)).trans <|
  (V18_of m c main_arg1 (by decide)).trans <| (V17_of m c main_arg1 (by decide)).trans <| (V16_of m c main_arg1 (by decide)).trans <| (V15_of m c main_arg1 (by decide)).trans <| (V14_of m c main_arg1 (by decide)).trans <| (V13_of m c main_arg1 (by decide)).trans <| (V12_of m c main_arg1 (by decide)).trans <| (V11_of m c main_arg1 (by decide)).trans <| (V10_of m c main_arg1 (by decide)).trans <| (V9_of m c main_arg1 (by decide)).trans <| (V8_of m c main_arg1 (by decide)).trans <| (V7_of m c main_arg1 (by decide)).trans <| (V6_of m c main_arg1 (by decide)).trans <| (V5_of m c main_arg1 (by decide)).trans <| (V4_of m c main_arg1 (by decide)).trans <| (V3_of m c main_arg1 (by decide)).trans <| (V2_of m c main_arg1 (by decide)).trans <| (V1_of m c main_arg1 (by decide)).trans <| rfl

/-- No host stretch writes `main_arg2` and no region stages it in a window it changes: its last contents are the launch's. -/
theorem Q5_main_arg2 (c : Dev nD) : Q5 m c (Proc.devRef .tc main_arg2) = m ((c : Thread nD τ).loc main_arg2) :=
  (StableHlo.after_of_writes_sub hostOps4 _ hostOps4_writes (r := main_arg2) (by decide)).trans <|
  (Q4_of_ne m c main_arg2 (by decide)).trans <| (Q3_of_ne m c main_arg2 (by decide)).trans <|
  (Q2_of_ne m c main_arg2 (by decide)).trans <| (Q1_of_ne m c main_arg2 (by decide)).trans <|
  (V18_of m c main_arg2 (by decide)).trans <| (V17_of m c main_arg2 (by decide)).trans <| (V16_of m c main_arg2 (by decide)).trans <| (V15_of m c main_arg2 (by decide)).trans <| (V14_of m c main_arg2 (by decide)).trans <| (V13_of m c main_arg2 (by decide)).trans <| (V12_of m c main_arg2 (by decide)).trans <| (V11_of m c main_arg2 (by decide)).trans <| (V10_of m c main_arg2 (by decide)).trans <| (V9_of m c main_arg2 (by decide)).trans <| (V8_of m c main_arg2 (by decide)).trans <| (V7_of m c main_arg2 (by decide)).trans <| (V6_of m c main_arg2 (by decide)).trans <| (V5_of m c main_arg2 (by decide)).trans <| (V4_of m c main_arg2 (by decide)).trans <| (V3_of m c main_arg2 (by decide)).trans <| (V2_of m c main_arg2 (by decide)).trans <| (V1_of m c main_arg2 (by decide)).trans <| rfl

/-- No host stretch writes `main_arg3` and no region stages it in a window it changes: its last contents are the launch's. -/
theorem Q5_main_arg3 (c : Dev nD) : Q5 m c (Proc.devRef .tc main_arg3) = m ((c : Thread nD τ).loc main_arg3) :=
  (StableHlo.after_of_writes_sub hostOps4 _ hostOps4_writes (r := main_arg3) (by decide)).trans <|
  (Q4_of_ne m c main_arg3 (by decide)).trans <| (Q3_of_ne m c main_arg3 (by decide)).trans <|
  (Q2_of_ne m c main_arg3 (by decide)).trans <| (Q1_of_ne m c main_arg3 (by decide)).trans <|
  (V18_of m c main_arg3 (by decide)).trans <| (V17_of m c main_arg3 (by decide)).trans <| (V16_of m c main_arg3 (by decide)).trans <| (V15_of m c main_arg3 (by decide)).trans <| (V14_of m c main_arg3 (by decide)).trans <| (V13_of m c main_arg3 (by decide)).trans <| (V12_of m c main_arg3 (by decide)).trans <| (V11_of m c main_arg3 (by decide)).trans <| (V10_of m c main_arg3 (by decide)).trans <| (V9_of m c main_arg3 (by decide)).trans <| (V8_of m c main_arg3 (by decide)).trans <| (V7_of m c main_arg3 (by decide)).trans <| (V6_of m c main_arg3 (by decide)).trans <| (V5_of m c main_arg3 (by decide)).trans <| (V4_of m c main_arg3 (by decide)).trans <| (V3_of m c main_arg3 (by decide)).trans <| (V2_of m c main_arg3 (by decide)).trans <| (V1_of m c main_arg3 (by decide)).trans <| rfl

/-- Every weakly fair execution of @main terminates, nothing faulting, with the four argument arrays as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (Q5_main_arg0 m c),
     (h c _ (mem_uc main_arg1 (by decide))).trans (Q5_main_arg1 m c),
     (h c _ (mem_uc main_arg2 (by decide))).trans (Q5_main_arg2 m c),
     (h c _ (mem_uc main_arg3 (by decide))).trans (Q5_main_arg3 m c)⟩) (run_all m ρ)

end Cert.Kernel.Hand

end
-- ==== Proof.KI.R0.lean ====
import proofs.«139580_j65773129171180_2_alg».proof.Proof.Gen.KernelIdeal.Launch
import proofs.«139580_j65773129171180_2_alg».proof.Proof.Gen.KernelIdeal.Skeleton
import proofs.«139580_j65773129171180_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S512x4096 := Rect.unit (s := S512x4096) ![0, 0] S512x4096.size inb_S512x4096_S512x4096_0_0

/-- The quantized block the body leaves in the output window's buffer, from the input block. -/
def out0_1 (x0 : Vec F S512x4096 .f32) : Vec F S512x4096 .bf16 :=
  View.canon [⟨r0_0, k0_pay1 (View.ld x0 r0_0)⟩]

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]
theorem Phi0_first (c : Dev nD) : (dat0 V c).Φ 0 = Pipeline.ΦA spec0 c := rfl
theorem Phi0_last (c : Dev nD) : (dat0 V c).Φ (Fin.last cfg0.N) ⊢ Pipeline.ΦA spec0 c := .rfl

/-- Input window 0's current staging buffer holds its block at every point, whether or not the pipeline fetched it
    there: at an unfetched point the block index is that of the point before, and the body leaves the block in place. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-- The one store's rectangle is the whole 512x4096 output buffer, so it covers it. -/
theorem cover0_1 (p0 : Vec F S512x4096 .bf16) (y : S512x4096.Idx) :
    ∃ pc ∈ ([⟨r0_0, p0⟩] : List (View.Piece (Elt F) S512x4096 .bf16)), y ∈ pc.1.set :=
  View.cover_of_tiled [⟨r0_0, p0⟩] S512x4096.size (by rfl) y

set_option maxHeartbeats 1000000 in
/-- The row-quantizing kernel on whole staging memrefs, the input's reading `x0` and the output's anything, runs to the
    continuation holding the input's as it was and the output's at `out0_1 x0`: every row of the input block scaled by
    127 over its absolute maximum, rounded, clamped, scaled back and narrowed, written over the whole output buffer. -/
theorem sound_kernel0 (c : Dev nD) (E : Set ℕ) (i : grid0.Coords) (arg0 : Memref sig .tc .vmem S512x4096 .f32) (harg0 : arg0.IsWhole) (arg1 : Memref sig .tc .vmem S512x4096 .bf16) (harg1 : arg1.IsWhole)
    (x0 : Vec F S512x4096 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out0_1 x0)) -∗ K ⟨⟩))
      ⊢ wp frame (wpE (defs₀ (F := F)) Variants.none c none) E (cc0__quantize_kernel i arg0 harg0 arg1 harg1) K := by
  simp only [cc0__quantize_kernel_eq_skeleton]; unfold cc0__quantize_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- What the body is called with at point `t`: the invariant, the core's debts, and each window's current staging
    buffer at what the pipeline left in it. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- What it returns: the same, each buffer at what the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: every input's buffer holds its block, so the kernel's triple applies; the invariant and the
    debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ (grid0.coords t) _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1.lean ====
import proofs.«139580_j65773129171180_2_alg».proof.Proof.Gen.KernelIdeal.Launch
import proofs.«139580_j65773129171180_2_alg».proof.Proof.Gen.KernelIdeal.Skeleton
import proofs.«139580_j65773129171180_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_x : Rect S256x4096 := Rect.unit (s := S256x4096) ![0, 0] S256x4096.size inb_S256x4096_S256x4096_0_0
abbrev r1_w : Rect S1024x4096 := Rect.unit (s := S1024x4096) ![0, 0] S1024x4096.size inb_S1024x4096_S1024x4096_0_0
abbrev r1_o : Rect S256x1024 := Rect.unit (s := S256x1024) ![0, 0] S256x1024.size inb_S256x1024_S256x1024_0_0

/-- The gated block the body leaves in the output window's buffer, from the three input blocks. -/
def out1_3 (x0 : Vec F S256x4096 .bf16) (x1 : Vec F S1024x4096 .bf16) (x2 : Vec F S1024x4096 .bf16) : Vec F S256x1024 .bf16 :=
  View.canon [⟨r1_o, k1_pay1 (View.ld x0 r1_x) (View.ld x1 r1_w) (View.ld x2 r1_w)⟩]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]
theorem Phi1_first (c : Dev nD) : (dat1 V c).Φ 0 = Pipeline.ΦA spec1 c := rfl
theorem Phi1_last (c : Dev nD) : (dat1 V c).Φ (Fin.last cfg1.N) ⊢ Pipeline.ΦA spec1 c := .rfl

/-- Input window 0's current staging buffer holds its block at every point, whether or not the pipeline fetched it
    there: at an unfetched point the block index is that of the point before, and the body leaves the block in place. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)

/-- Input window 1's current staging buffer holds its block at every point, whether or not the pipeline fetched it
    there: at an unfetched point the block index is that of the point before, and the body leaves the block in place. -/
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

/-- Input window 2's current staging buffer holds its block at every point, whether or not the pipeline fetched it
    there: at an unfetched point the block index is that of the point before, and the body leaves the block in place. -/
theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)

/-- The one store's rectangle is the whole 256x1024 output buffer, so it covers it. -/
theorem cover1_3 (p0 : Vec F S256x1024 .bf16) (y : S256x1024.Idx) :
    ∃ pc ∈ ([⟨r1_o, p0⟩] : List (View.Piece (Elt F) S256x1024 .bf16)), y ∈ pc.1.set :=
  View.cover_of_tiled [⟨r1_o, p0⟩] S256x1024.size (by rfl) y

set_option maxHeartbeats 1000000 in
/-- The gated-product kernel on whole staging memrefs, the three inputs' reading `x0`, `x1`, `x2` and the output's
    anything, runs to the continuation holding the inputs' as they were and the output's at `out1_3 x0 x1 x2`: the square
    of the positive part of `x0·x1ᵀ` times `x0·x2ᵀ`, narrowed, written over the whole output buffer. The payload stays
    a named function of the three blocks throughout. -/
theorem sound_kernel1 (c : Dev nD) (E : Set ℕ) (i : grid1.Coords) (arg0 : Memref sig .tc .vmem S256x4096 .bf16) (harg0 : arg0.IsWhole) (arg1 : Memref sig .tc .vmem S1024x4096 .bf16) (harg1 : arg1.IsWhole) (arg2 : Memref sig .tc .vmem S1024x4096 .bf16) (harg2 : arg2.IsWhole) (arg3 : Memref sig .tc .vmem S256x1024 .bf16) (harg3 : arg3.IsWhole)
    (x0 : Vec F S256x4096 .bf16) (x1 : Vec F S1024x4096 .bf16) (x2 : Vec F S1024x4096 .bf16) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out1_3 x0 x1 x2)) -∗ K ⟨⟩))
      ⊢ wp frame (wpE (defs₀ (F := F)) Variants.none c none) E (cc1__gate_up_kernel i arg0 harg0 arg1 harg1 arg2 harg2 arg3 harg3) K := by
  simp only [cc1__gate_up_kernel_eq_skeleton]; unfold cc1__gate_up_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- What the body is called with at point `t`: the invariant, the core's debts, and each window's current staging
    buffer at what the pipeline left in it. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- What it returns: the same, each buffer at what the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: every input's buffer holds its block, so the kernel's triple applies; the invariant and the
    debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.R2.lean ====
import proofs.«139580_j65773129171180_2_alg».proof.Proof.Gen.KernelIdeal.Launch
import proofs.«139580_j65773129171180_2_alg».proof.Proof.Gen.KernelIdeal.Skeleton
import proofs.«139580_j65773129171180_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_h : Rect S256x11264 := Rect.unit (s := S256x11264) ![0, 0] S256x11264.size inb_S256x11264_S256x11264_0_0
abbrev r2_o : Rect S256x1 := Rect.unit (s := S256x1) ![0, 0] S256x1.size inb_S256x1_S256x1_0_0

/-- The column of row scales the body leaves in the output window's buffer, from the input block. -/
def out2_1 (x0 : Vec F S256x11264 .bf16) : Vec F S256x1 .f32 :=
  View.canon [⟨r2_o, k2_pay1 (View.ld x0 r2_h)⟩]

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => out2_1 (iblk2 V c 0 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = out2_1 (iblk2 V c 0 t) := by dsimp only [dat2]
theorem Phi2_first (c : Dev nD) : (dat2 V c).Φ 0 = Pipeline.ΦA spec2 c := rfl
theorem Phi2_last (c : Dev nD) : (dat2 V c).Φ (Fin.last cfg2.N) ⊢ Pipeline.ΦA spec2 c := .rfl

/-- The input window's current staging buffer holds its block at every point, whether or not the pipeline fetched
    it there: an unfetched point has the block index of the point before, and the body leaves the block in place. -/
theorem before2_0 (c : Dev nD) (t : Fin cfg2.N) (d) : (dat2 V c).before 0 t d = iblk2 V c 0 t :=
  ((dat2 V c).before_in_eq_fetched 0 rfl (fun _ => rfl) (fun _ _ _ => rfl)
      (fun t => by rw [after2_0]; unfold Dat.blockOf iblk2; rw [A_eq2]; try rfl) t d).trans
    (by unfold Dat.fetched Dat.blockOf iblk2; rw [A_eq2]; try rfl)

/-- The one store's rectangle is the whole 256x1 output buffer, so it covers it. -/
theorem cover2_1 (p0 : Vec F S256x1 .f32) (y : S256x1.Idx) :
    ∃ pc ∈ ([⟨r2_o, p0⟩] : List (View.Piece (Elt F) S256x1 .f32)), y ∈ pc.1.set :=
  View.cover_of_tiled [⟨r2_o, p0⟩] S256x1.size (by rfl) y

set_option maxHeartbeats 1000000 in
/-- The row-scale kernel on whole staging memrefs, the input's reading `x0` and the output's anything, runs to the
    continuation holding the input's as it was and the output's at `out2_1 x0`: the column of scales computed from
    the whole input block, written over the whole output buffer. -/
theorem sound_kernel2 (c : Dev nD) (E : Set ℕ) (i : grid2.Coords) (arg0 : Memref sig .tc .vmem S256x11264 .bf16) (harg0 : arg0.IsWhole)
    (arg1 : Memref sig .tc .vmem S256x1 .f32) (harg1 : arg1.IsWhole)
    (x0 : Vec F S256x11264 .bf16) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out2_1 x0)) -∗ K ⟨⟩))
      ⊢ wp frame (wpE (defs₀ (F := F)) Variants.none c none) E (cc2__row_amax_kernel i arg0 harg0 arg1 harg1) K := by
  simp only [cc2__row_amax_kernel_eq_skeleton]; unfold cc2__row_amax_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover2_1 _)

/-- What the body is called with at point `t`: the invariant, the core's debts, and each window's current staging
    buffer at what the pipeline left in it. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d)))

/-- What it returns: the same, each buffer at what the body leaves. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t))

/-- The body at any point: the input's buffer holds its block, so the kernel's triple applies; the invariant and the
    debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0]
  rw [show (dat2 V c).Φ t.succ = (dat2 V c).Φ t.castSucc from rfl,
    show (dat2 V c).owesAt () t.succ = (dat2 V c).owesAt () t.castSucc from rfl,
    after2_0, after2_1]
  iintro ⟨HΦ, Ho, ⟨%d0, H0⟩, ⟨%d1, H1⟩⟩
  iapply (sound_kernel2 c Set.univ _ _ _ _ _ (iblk2 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.R3Run.lean ====
import proofs.«139580_j65773129171180_2_alg».proof.Proof.Gen.KernelIdeal.Launch
import proofs.«139580_j65773129171180_2_alg».proof.Proof.Gen.KernelIdeal.Skeleton
import proofs.«139580_j65773129171180_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditionals of the body, from the grid coordinates -/

/-- The first conditional's test: the reduction index (the innermost grid coordinate) is 0. -/
abbrev cond3_0 (i : grid3.Coords) : Prop := (Scalar.cmpi .ne (Scalar.extui (Scalar.cmpi .eq (BitVec.ofNat 32 (i 2).val) 0#32)) 0#32) = 1#1
/-- It holds exactly at the points ≡ 0 (mod 22): decided over the 352 points. -/
theorem hcond3_0 : ∀ t : Fin cfg3.N, cond3_0 (grid3.coords t) ↔ t.val % 22 = 0 :=
  (by decide +kernel : ∀ t : Fin grid3.N, cond3_0 (grid3.coords t) ↔ t.val % 22 = 0)

/-- The second conditional's test: the reduction index is the last one, 21. -/
abbrev cond3_1 (i : grid3.Coords) : Prop := k3_cond2 i = 1#1
/-- It holds exactly at the points ≡ 21 (mod 22). -/
theorem hcond3_1 : ∀ t : Fin cfg3.N, cond3_1 (grid3.coords t) ↔ t.val % 22 = 21 :=
  (by decide +kernel : ∀ t : Fin grid3.N, cond3_1 (grid3.coords t) ↔ t.val % 22 = 21)

/-- The zero offsets of a whole-buffer rectangle of rank 2. -/
theorem hz2 : (![0, 0] : Fin 2 → Nat) = fun _ => 0 := funext fun a => by fin_cases a <;> rfl

/-! ## The body on whole memrefs, case by case

In each case the three input buffers hold blocks `x0` (the activations, bf16), `x1` (the per-row scale) and `x2`
(the weights, bf16) and are handed back unchanged. The accumulator `arg7` ends at
`k3_pay2 x0 x1 x2 s`, the accumulator `s` plus the product of the re-quantized `x0` with `x2`, where `s` is the
zero block `k3_pay1` when the reduction index is 0 and the accumulator's previous contents otherwise. -/

set_option maxHeartbeats 1000000 in
/-- Reduction index 0 (and not the last): the accumulator, at anything, is zeroed and one product is added to it;
    the output buffer `arg6` is left as found. -/
theorem run3_A (c : Dev nD) (i : grid3.Coords)
    (arg3 : Memref sig .tc .vmem S1024x512 .bf16) (harg3 : arg3.IsWhole) (arg4 : Memref sig .tc .vmem S1024x1 .f32) (harg4 : arg4.IsWhole)
    (arg5 : Memref sig .tc .vmem S1024x512 .bf16) (harg5 : arg5.IsWhole) (arg6 : Memref sig .tc .vmem S1024x1024 .f32) (harg6 : arg6.IsWhole)
    (arg7 : Memref sig .tc .vmem S1024x1024 .f32) (harg7 : arg7.IsWhole) (hc0 : cond3_0 i) (hc1 : ¬cond3_1 i)
    (x0 : Vec F S1024x512 .bf16) (x1 : Vec F S1024x1 .f32) (x2 : Vec F S1024x512 .bf16)
    (xi3 : Vec F S1024x1024 .f32) (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare xi3 ∗ (∃ d, owns (c : Thread nD τ) arg7 fullShare d)
        ∗ (iprop(owns (c : Thread nD τ) arg3 fullShare x0 ∗ owns (c : Thread nD τ) arg4 fullShare x1 ∗ owns (c : Thread nD τ) arg5 fullShare x2
            ∗ owns (c : Thread nD τ) arg6 fullShare xi3 ∗ owns (c : Thread nD τ) arg7 fullShare (k3_pay2 x0 x1 x2 (k3_pay1 (F := F)))) -∗ K ⟨⟩))
      ⊢ wp frame (wpE (defs₀ (F := F)) Variants.none c none) E (cc3__matmul3_kernel i arg3 harg3 arg4 harg4 arg5 harg5 arg6 harg6 arg7 harg7) K := by
    simp only [cc3__matmul3_kernel_eq_skeleton]; unfold cc3__matmul3_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2
    obtain rfl := harg6.eq_unread hf3
    sl_exec (disch := first | exact hc0 | exact hc1)
    sl_step
    sl_unfold_run_names
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; isplitr
    swap; · iexact HS0
    ipureintro
    rw [View.read_writes_eq_canon _ _ _ (fun y => ⟨_, List.Mem.head _, View.mem_set_unit_zero hz2 inb_S1024x1024_S1024x1024_0_0 y⟩),
      View.canon_cons_unit_zero (S := S1024x1024) hz2, View.readCov_unit_zero (S := S1024x1024) _ hz2]
    simp only [View.readAt_eq_ld, harg3.read_unread, harg4.read_unread, harg5.read_unread,
        View.ld_unit_zero (S := S1024x512) hz2, View.ld_unit_zero (S := S1024x1) hz2, View.ld_unit_zero (S := S1024x1024) hz2]

set_option maxHeartbeats 1000000 in
/-- Reduction index neither 0 nor the last: one product is added to the accumulator's contents `xs0`; the output
    buffer `arg6` is left as found. -/
theorem run3_B (c : Dev nD) (i : grid3.Coords)
    (arg3 : Memref sig .tc .vmem S1024x512 .bf16) (harg3 : arg3.IsWhole) (arg4 : Memref sig .tc .vmem S1024x1 .f32) (harg4 : arg4.IsWhole)
    (arg5 : Memref sig .tc .vmem S1024x512 .bf16) (harg5 : arg5.IsWhole) (arg6 : Memref sig .tc .vmem S1024x1024 .f32) (harg6 : arg6.IsWhole)
    (arg7 : Memref sig .tc .vmem S1024x1024 .f32) (harg7 : arg7.IsWhole) (hc0 : ¬cond3_0 i) (hc1 : ¬cond3_1 i)
    (x0 : Vec F S1024x512 .bf16) (x1 : Vec F S1024x1 .f32) (x2 : Vec F S1024x512 .bf16) (xs0 : Vec F S1024x1024 .f32)
    (xi3 : Vec F S1024x1024 .f32) (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare xi3 ∗ owns (c : Thread nD τ) arg7 fullShare xs0
        ∗ (iprop(owns (c : Thread nD τ) arg3 fullShare x0 ∗ owns (c : Thread nD τ) arg4 fullShare x1 ∗ owns (c : Thread nD τ) arg5 fullShare x2
            ∗ owns (c : Thread nD τ) arg6 fullShare xi3 ∗ owns (c : Thread nD τ) arg7 fullShare (k3_pay2 x0 x1 x2 xs0)) -∗ K ⟨⟩))
      ⊢ wp frame (wpE (defs₀ (F := F)) Variants.none c none) E (cc3__matmul3_kernel i arg3 harg3 arg4 harg4 arg5 harg5 arg6 harg6 arg7 harg7) K := by
    simp only [cc3__matmul3_kernel_eq_skeleton]; unfold cc3__matmul3_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2
    obtain rfl := harg6.eq_unread hf3; obtain rfl := harg7.eq_unread hfs0
    sl_exec (disch := first | exact hc0 | exact hc1)
    sl_step
    sl_unfold_run_names
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; isplitr
    swap; · iexact HS0
    ipureintro
    rw [View.read_writes_eq_canon _ _ _ (fun y => ⟨_, List.Mem.head _, View.mem_set_unit_zero hz2 inb_S1024x1024_S1024x1024_0_0 y⟩),
      View.canon_unit_zero hz2]
    simp only [View.readAt_eq_ld, harg3.read_unread, harg4.read_unread, harg5.read_unread, harg7.read_unread,
        View.ld_unit_zero (S := S1024x512) hz2, View.ld_unit_zero (S := S1024x1) hz2, View.ld_unit_zero (S := S1024x1024) hz2]

set_option maxHeartbeats 1000000 in
/-- Reduction index the last (and not 0): one product is added to the accumulator's contents `xs0`, and the sum is
    copied into the output buffer `arg6`, whatever it held. -/
theorem run3_C (c : Dev nD) (i : grid3.Coords)
    (arg3 : Memref sig .tc .vmem S1024x512 .bf16) (harg3 : arg3.IsWhole) (arg4 : Memref sig .tc .vmem S1024x1 .f32) (harg4 : arg4.IsWhole)
    (arg5 : Memref sig .tc .vmem S1024x512 .bf16) (harg5 : arg5.IsWhole) (arg6 : Memref sig .tc .vmem S1024x1024 .f32) (harg6 : arg6.IsWhole)
    (arg7 : Memref sig .tc .vmem S1024x1024 .f32) (harg7 : arg7.IsWhole) (hc0 : ¬cond3_0 i) (hc1 : cond3_1 i)
    (x0 : Vec F S1024x512 .bf16) (x1 : Vec F S1024x1 .f32) (x2 : Vec F S1024x512 .bf16) (xs0 : Vec F S1024x1024 .f32)
    (E : Set ℕ) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d) ∗ owns (c : Thread nD τ) arg7 fullShare xs0
        ∗ (iprop(owns (c : Thread nD τ) arg3 fullShare x0 ∗ owns (c : Thread nD τ) arg4 fullShare x1 ∗ owns (c : Thread nD τ) arg5 fullShare x2
            ∗ owns (c : Thread nD τ) arg6 fullShare (k3_pay2 x0 x1 x2 xs0) ∗ owns (c : Thread nD τ) arg7 fullShare (k3_pay2 x0 x1 x2 xs0)) -∗ K ⟨⟩))
      ⊢ wp frame (wpE (defs₀ (F := F)) Variants.none c none) E (cc3__matmul3_kernel i arg3 harg3 arg4 harg4 arg5 harg5 arg6 harg6 arg7 harg7) K := by
    simp only [cc3__matmul3_kernel_eq_skeleton]; unfold cc3__matmul3_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2
    obtain rfl := harg7.eq_unread hfs0
    sl_exec (disch := first | exact hc0 | exact hc1)
    sl_step
    sl_unfold_run_names
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr
      swap; · iexact H3
      ipureintro
      rw [View.read_writes_eq_canon _ _ _ (fun y => ⟨_, List.Mem.head _, View.mem_set_unit_zero hz2 inb_S1024x1024_S1024x1024_0_0 y⟩),
        View.canon_unit_zero hz2, View.readCov_unit_zero (S := S1024x1024) _ hz2]
      simp only [View.readAt_eq_ld, harg3.read_unread, harg4.read_unread, harg5.read_unread, harg7.read_unread,
        View.ld_unit_zero (S := S1024x512) hz2, View.ld_unit_zero (S := S1024x1) hz2, View.ld_unit_zero (S := S1024x1024) hz2]
    iexists _; isplitr
    swap; · iexact HS0
    ipureintro
    rw [View.read_writes_eq_canon _ _ _ (fun y => ⟨_, List.Mem.head _, View.mem_set_unit_zero hz2 inb_S1024x1024_S1024x1024_0_0 y⟩),
      View.canon_unit_zero hz2]
    simp only [View.readAt_eq_ld, harg3.read_unread, harg4.read_unread, harg5.read_unread, harg7.read_unread,
        View.ld_unit_zero (S := S1024x512) hz2, View.ld_unit_zero (S := S1024x1) hz2, View.ld_unit_zero (S := S1024x1024) hz2]

end Cert.KernelIdeal.Hand

end
-- ==== Proof.KI.R3.lean ====
import proofs.«139580_j65773129171180_2_alg».proof.Proof.KI.R3Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Where the windows are idle -/

/-- At a point whose reduction index is not the last the output window is idle: the body stores nothing into it, -/
theorem idleAt3_3 : ∀ t : Fin cfg3.N, ¬cond3_1 (grid3.coords t) → cfg3.idle 3 (grid3.coords t) = true := by decide +kernel
/-- and the pipeline does not write its block back there. -/
theorem noFlush3_3 : ∀ t : Fin cfg3.N, ¬cond3_1 (grid3.coords t) → (cfg3.win 3).flush t = false := by decide +kernel
/-- At a point whose reduction index is the last the output window is live. -/
theorem liveAt3_3 : ∀ t : Fin cfg3.N, cond3_1 (grid3.coords t) → cfg3.idle 3 (grid3.coords t) = false := by decide +kernel

/-! ## The memrefs the body is called with -/

/-- Each window's current staging memref at point `t`, and its wholeness. -/
abbrev ms3_0 (t : Fin cfg3.N) : Memref sig .tc .vmem S1024x512 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1024x1 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1024x512 .bf16 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1024x1024 .f32 := win3_3.stage (cfg3.slots t 3)
abbrev hs3_3 (t : Fin cfg3.N) : (ms3_3 t).IsWhole := hstage3_3 ((cfg3.slots t 3).cast nbuf3_3)
/-- The accumulator: a whole scoped buffer of the kernel's own, passed beside the windows. -/
abbrev scM3 : Memref sig .tc .vmem S1024x1024 .f32 := Memref.whole cc3_scratch0

/-! ## The scoped rest: sixteen buffers nobody here touches, and the accumulator -/

/-- The sixteen scoped buffers that are staging buffers of the other three kernels, each at some contents: carried
    through this region as one factor. -/
def others3 (c : Dev nD) : sProp 𝕄 :=
  iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg1_1), ((c : Thread nD τ).loc cc0_stg1_1) ↦{fullShare} f)
      ∗ (∃ f : Buf (Elt F) ((c : Thread nD τ).loc cc1_stg0_0), ((c : Thread nD τ).loc cc1_stg0_0) ↦{fullShare} f)
      ∗ (∃ f : Buf (Elt F) ((c : Thread nD τ).loc cc1_stg0_1), ((c : Thread nD τ).loc cc1_stg0_1) ↦{fullShare} f)
      ∗ (∃ f : Buf (Elt F) ((c : Thread nD τ).loc cc1_stg1_0), ((c : Thread nD τ).loc cc1_stg1_0) ↦{fullShare} f)
      ∗ (∃ f : Buf (Elt F) ((c : Thread nD τ).loc cc1_stg1_1), ((c : Thread nD τ).loc cc1_stg1_1) ↦{fullShare} f)
      ∗ (∃ f : Buf (Elt F) ((c : Thread nD τ).loc cc1_stg2_0), ((c : Thread nD τ).loc cc1_stg2_0) ↦{fullShare} f)
      ∗ (∃ f : Buf (Elt F) ((c : Thread nD τ).loc cc1_stg2_1), ((c : Thread nD τ).loc cc1_stg2_1) ↦{fullShare} f)
      ∗ (∃ f : Buf (Elt F) ((c : Thread nD τ).loc cc1_stg3_0), ((c : Thread nD τ).loc cc1_stg3_0) ↦{fullShare} f)
      ∗ (∃ f : Buf (Elt F) ((c : Thread nD τ).loc cc1_stg3_1), ((c : Thread nD τ).loc cc1_stg3_1) ↦{fullShare} f)
      ∗ (∃ f : Buf (Elt F) ((c : Thread nD τ).loc cc2_stg0_0), ((c : Thread nD τ).loc cc2_stg0_0) ↦{fullShare} f)
      ∗ (∃ f : Buf (Elt F) ((c : Thread nD τ).loc cc2_stg0_1), ((c : Thread nD τ).loc cc2_stg0_1) ↦{fullShare} f)
      ∗ (∃ f : Buf (Elt F) ((c : Thread nD τ).loc cc2_stg1_0), ((c : Thread nD τ).loc cc2_stg1_0) ↦{fullShare} f)
      ∗ (∃ f : Buf (Elt F) ((c : Thread nD τ).loc cc2_stg1_1), ((c : Thread nD τ).loc cc2_stg1_1) ↦{fullShare} f))

/-- The class invariant hands out the sixteen other buffers, the accumulator at some contents and the generator register. -/
theorem PhiA3_to (c : Dev nD) :
    (Pipeline.ΦA spec3 c : sProp 𝕄)
      ⊢ iprop(iprop(others3 (F := F) c ∗ (∃ d, owns (c : Thread nD τ) scM3 fullShare d)) ∗ (∃ r, prngReg c r)) := by
  unfold Pipeline.ΦA; rw [scopedRest3_eq]; unfold others3; simp only [scM3, owns_whole]
  iintro ⟨⟨H1, H2, H3, H4, H5, H6, H7, H8, H9, H10, H11, H12, H13, H14, H15, H16, HS⟩, Hg⟩
  isplitr [Hg]
  · isplitr [HS]
    · isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      iexact H16
    · iexact HS
  · iexact Hg

/-- And takes them back. -/
theorem PhiA3_of (c : Dev nD) :
    iprop(iprop(others3 (F := F) c ∗ (∃ d, owns (c : Thread nD τ) scM3 fullShare d)) ∗ (∃ r, prngReg c r))
      ⊢ (Pipeline.ΦA spec3 c : sProp 𝕄) := by
  unfold Pipeline.ΦA; rw [scopedRest3_eq]; unfold others3; simp only [scM3, owns_whole]
  iintro ⟨⟨⟨H1, H2, H3, H4, H5, H6, H7, H8, H9, H10, H11, H12, H13, H14, H15, H16⟩, HS⟩, Hg⟩
  isplitr [Hg]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iexact HS
  · iexact Hg

/-! ## The windows' blocks and the accumulator point by point -/

/-- Window `w`'s block at grid point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- One accumulation step at point `t`: the accumulator `s` plus the product of the point's re-quantized activation
    block with its weight block. -/
def step3 (c : Dev nD) (t : Fin cfg3.N) (s : Vec F S1024x1024 .f32) : Vec F S1024x1024 .f32 :=
  k3_pay2 (iblk3 V c 0 t) (iblk3 V c 1 t) (iblk3 V c 2 t) s

/-- THE ACCUMULATOR after the body at position `n`: one step over the zero block where the reduction index is 0
    (`n % 22 = 0`), over the accumulator after the position before elsewhere. -/
def acc3 (c : Dev nD) : (n : ℕ) → n < cfg3.N → Vec F S1024x1024 .f32
  | 0, hn => step3 V c ⟨0, hn⟩ (k3_pay1 (F := F))
  | n + 1, hn =>
    if (n + 1) % 22 = 0 then step3 V c ⟨n + 1, hn⟩ (k3_pay1 (F := F))
    else step3 V c ⟨n + 1, hn⟩ (acc3 c n (Nat.lt_of_succ_lt hn))

/-- The accumulator at a point whose reduction index is 0: one step over zeros. -/
theorem acc3_first (c : Dev nD) (t : Fin cfg3.N) (h0 : t.val % 22 = 0) :
    acc3 V c t.val t.isLt = step3 V c t (k3_pay1 (F := F)) := by
  obtain ⟨n, hn⟩ := t
  cases n with
  | zero => rfl
  | succ n => exact if_pos h0

/-- The accumulator at any other point: one step over the accumulator after the point before. -/
theorem acc3_next (c : Dev nD) (t : Fin cfg3.N) (h0 : ¬t.val % 22 = 0) :
    acc3 V c t.val t.isLt = step3 V c t (acc3 V c (t.val - 1) (Nat.lt_of_le_of_lt (Nat.sub_le _ _) t.isLt)) := by
  obtain ⟨n, hn⟩ := t
  cases n with
  | zero => exact absurd (Nat.zero_mod _) h0
  | succ n => exact if_neg h0

/-! ## The region invariant -/

/-- Before position `n`: the class invariant before the first point; afterwards the sixteen other scoped buffers at
    anything, the accumulator at what the point before left in it, and the generator register at some state. -/
def PhiS3 (c : Dev nD) : (n : ℕ) → n ≤ cfg3.N → sProp 𝕄
  | 0, _ => Pipeline.ΦA spec3 c
  | n + 1, hn => iprop(iprop(others3 (F := F) c ∗ owns (c : Thread nD τ) scM3 fullShare (acc3 V c n hn)) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(others3 (F := F) c ∗ owns (c : Thread nD τ) scM3 fullShare (acc3 V c n hn)) ∗ (∃ r, prngReg c r)) := rfl

theorem PhiS3_pos (c : Dev nD) (n : ℕ) (h : n ≤ cfg3.N) (hz : n ≠ 0) :
    PhiS3 V c n h = iprop(iprop(others3 (F := F) c ∗ owns (c : Thread nD τ) scM3 fullShare (acc3 V c (n - 1) (by omega))) ∗ (∃ r, prngReg c r)) := by
  cases n with
  | zero => exact absurd rfl hz
  | succ n => rfl

/-! ## The proof data -/

/-- The proof data of the region on core `c`: the arrays as the region finds them; after the body at point `t` each
    input's buffer at its block and the output's at the accumulator (consulted only where the reduction index is the
    last: elsewhere the window is idle and not written back); the invariant `PhiS3`; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => acc3 V c t.val t.isLt
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = acc3 V c t.val t.isLt := by dsimp only [dat3]
/-- What the write-back at a point whose reduction index is the last writes: the accumulator there. -/
theorem after3_3_of_last (c : Dev nD) (t : Fin cfg3.N) (h : t.val % 22 = 21) : (dat3 V c).after 3 t = acc3 V c t.val t.isLt :=
  after3_3 V c t

theorem PhiS3_castSucc (c : Dev nD) (t : Fin cfg3.N) :
    (dat3 V c).Φ t.castSucc = PhiS3 V c t.val (Nat.le_of_lt t.isLt) := by
  dsimp only [dat3]; simp only [Fin.coe_castSucc]

theorem Phi3_first (c : Dev nD) : (dat3 V c).Φ 0 = Pipeline.ΦA spec3 c := by
  rw [show (dat3 V c).Φ 0 = PhiS3 V c 0 (Nat.zero_le _) from rfl, PhiS3_zero V c 0 _ rfl]

/-- After any point but the first the invariant gives the class invariant back: what the accumulator holds is forgotten. -/
theorem Phi3_out (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht]
  refine BIBase.Entails.trans ?_ (PhiA3_of c)
  iintro ⟨⟨Hoth, HS0⟩, Hg⟩
  isplitr [Hg]
  · isplitl [Hoth]; · iexact Hoth
    iexists _; iexact HS0
  · iexact Hg

theorem Phi3_last (c : Dev nD) : (dat3 V c).Φ (Fin.last cfg3.N) ⊢ Pipeline.ΦA spec3 c :=
  Phi3_out V c _ (by rw [Fin.val_last]; have : cfg3.N = 352 := N_3; omega)

/-! ## What the body finds in the input windows -/

/-- Each input's current staging buffer holds its block at every point, fetched there or not (the scale's block is
    fetched only where the row-block index moves: elsewhere the buffer still holds it). -/
theorem before3_0 (c : Dev nD) (t : Fin cfg3.N) (d) : (dat3 V c).before 0 t d = iblk3 V c 0 t :=
  ((dat3 V c).before_in_eq_fetched 0 rfl (fun _ => rfl) (fun _ _ _ => rfl)
      (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl)
      (fun t => by rw [after3_1]; unfold Dat.blockOf iblk3; rw [A_eq3]; try rfl) t d).trans
    (by unfold Dat.fetched Dat.blockOf iblk3; rw [A_eq3]; try rfl)
theorem before3_2 (c : Dev nD) (t : Fin cfg3.N) (d) : (dat3 V c).before 2 t d = iblk3 V c 2 t :=
  ((dat3 V c).before_in_eq_fetched 2 rfl (fun _ => rfl) (fun _ _ _ => rfl)
      (fun t => by rw [after3_2]; unfold Dat.blockOf iblk3; rw [A_eq3]; try rfl) t d).trans
    (by unfold Dat.fetched Dat.blockOf iblk3; rw [A_eq3]; try rfl)

/-! ## The body obligation, at a generic point -/

/-- The input windows are never idle. -/
theorem liveAt3_0 : ∀ t : Fin cfg3.N, cfg3.idle 0 (grid3.coords t) = false := fun _ => rfl
theorem liveAt3_1 : ∀ t : Fin cfg3.N, cfg3.idle 1 (grid3.coords t) = false := fun _ => rfl
theorem liveAt3_2 : ∀ t : Fin cfg3.N, cfg3.idle 2 (grid3.coords t) = false := fun _ => rfl

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 4800000 in
/-- The body at any point. The inputs' memrefs hold their blocks; the reduction index, in closed form over the point,
    says which of the three cases the point is in. The invariant hands the body the accumulator — at anything at the
    first point, at what the point before left afterwards — and takes it back at this point's contents; the sixteen
    other scoped buffers and the generator register pass through. Where the reduction index is not the last the output
    window's buffer goes back as it came; where it is, it goes back holding the accumulator. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = PhiS3 V c (t.val + 1) t.isLt from rfl, PhiS3_succ]
  have hN : t.val < 352 := lt_of_lt_of_eq t.isLt (show cfg3.N = 352 from N_3)
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  by_cases h0 : t.val % 22 = 0
  · have h1 : ¬t.val % 22 = 21 := by omega
    have hc0 : cond3_0 (grid3.coords t) := (hcond3_0 t).mpr h0
    have hc1 : ¬cond3_1 (grid3.coords t) := fun h => h1 ((hcond3_1 t).mp h)
    rw [Dat.leavesExact_idle (dat3 V c) 3 t (idleAt3_3 t hc1) (noFlush3_3 t hc1)]
    rw [acc3_first V c t h0]; unfold step3
    by_cases hz : t.val = 0
    · rw [PhiS3_castSucc V c t, PhiS3_zero V c _ _ hz]
      refine BIBase.Entails.trans (Idealize.SL.BI.Laws.sep_mono_left (PhiA3_to c)) ?_
      iintro ⟨⟨⟨Hoth, HS0⟩, Hg⟩, Ho, ⟨%d0, H0⟩, ⟨%d1, H1⟩, ⟨%d2, H2⟩, ⟨%d3, H3⟩⟩
      iapply (run3_A c (grid3.coords t) _ _ _ _ _ _ _ _ _ _ hc0 hc1 (iblk3 V c 0 t) (iblk3 V c 1 t) (iblk3 V c 2 t) _ Set.univ _)
      isplitl [H0]; · iexact H0
      isplitl [H1]; · iexact H1
      isplitl [H2]; · iexact H2
      isplitl [H3]; · iexact H3
      isplitl [HS0]; · iexact HS0
      iintro ⟨H0, H1, H2, H3, HS0⟩
      isplitl [Hoth HS0 Hg]
      · isplitl [Hoth HS0]
        · isplitl [Hoth]; · iexact Hoth
          iexact HS0
        iexact Hg
      isplitl [Ho]; · iexact Ho
      isplitl [H0]; · iexact H0
      isplitl [H1]; · iexact H1
      isplitl [H2]; · iexact H2
      iexists _; iexact H3
    · rw [PhiS3_castSucc V c t, PhiS3_pos V c _ _ hz]
      iintro ⟨⟨⟨Hoth, HS0⟩, Hg⟩, Ho, ⟨%d0, H0⟩, ⟨%d1, H1⟩, ⟨%d2, H2⟩, ⟨%d3, H3⟩⟩
      iapply (run3_A c (grid3.coords t) _ _ _ _ _ _ _ _ _ _ hc0 hc1 (iblk3 V c 0 t) (iblk3 V c 1 t) (iblk3 V c 2 t) _ Set.univ _)
      isplitl [H0]; · iexact H0
      isplitl [H1]; · iexact H1
      isplitl [H2]; · iexact H2
      isplitl [H3]; · iexact H3
      isplitl [HS0]; · iexists _; iexact HS0
      iintro ⟨H0, H1, H2, H3, HS0⟩
      isplitl [Hoth HS0 Hg]
      · isplitl [Hoth HS0]
        · isplitl [Hoth]; · iexact Hoth
          iexact HS0
        iexact Hg
      isplitl [Ho]; · iexact Ho
      isplitl [H0]; · iexact H0
      isplitl [H1]; · iexact H1
      isplitl [H2]; · iexact H2
      iexists _; iexact H3
  · have hz : t.val ≠ 0 := fun h => h0 (by rw [h])
    have hc0 : ¬cond3_0 (grid3.coords t) := fun h => h0 ((hcond3_0 t).mp h)
    rw [acc3_next V c t h0]; unfold step3
    rw [PhiS3_castSucc V c t, PhiS3_pos V c _ _ hz]
    by_cases h1 : t.val % 22 = 21
    · have hc1 : cond3_1 (grid3.coords t) := (hcond3_1 t).mpr h1
      rw [show (dat3 V c).leavesExact 3 t = owns (c : Thread nD τ) (ms3_3 t) fullShare ((dat3 V c).after 3 t) from by
        unfold Dat.leavesExact; rw [liveAt3_3 t hc1], after3_3]
      rw [acc3_next V c t h0]; unfold step3
      iintro ⟨⟨⟨Hoth, HS0⟩, Hg⟩, Ho, ⟨%d0, H0⟩, ⟨%d1, H1⟩, ⟨%d2, H2⟩, ⟨%d3, H3⟩⟩
      iapply (run3_C c (grid3.coords t) _ _ _ _ _ _ _ _ _ _ hc0 hc1 (iblk3 V c 0 t) (iblk3 V c 1 t) (iblk3 V c 2 t) _ Set.univ _)
      isplitl [H0]; · iexact H0
      isplitl [H1]; · iexact H1
      isplitl [H2]; · iexact H2
      isplitl [H3]; · iexists _; iexact H3
      isplitl [HS0]; · iexact HS0
      iintro ⟨H0, H1, H2, H3, HS0⟩
      isplitl [Hoth HS0 Hg]
      · isplitl [Hoth HS0]
        · isplitl [Hoth]; · iexact Hoth
          iexact HS0
        iexact Hg
      isplitl [Ho]; · iexact Ho
      isplitl [H0]; · iexact H0
      isplitl [H1]; · iexact H1
      isplitl [H2]; · iexact H2
      iexact H3
    · have hc1 : ¬cond3_1 (grid3.coords t) := fun h => h1 ((hcond3_1 t).mp h)
      rw [Dat.leavesExact_idle (dat3 V c) 3 t (idleAt3_3 t hc1) (noFlush3_3 t hc1)]
      iintro ⟨⟨⟨Hoth, HS0⟩, Hg⟩, Ho, ⟨%d0, H0⟩, ⟨%d1, H1⟩, ⟨%d2, H2⟩, ⟨%d3, H3⟩⟩
      iapply (run3_B c (grid3.coords t) _ _ _ _ _ _ _ _ _ _ hc0 hc1 (iblk3 V c 0 t) (iblk3 V c 1 t) (iblk3 V c 2 t) _ _ Set.univ _)
      isplitl [H0]; · iexact H0
      isplitl [H1]; · iexact H1
      isplitl [H2]; · iexact H2
      isplitl [H3]; · iexact H3
      isplitl [HS0]; · iexact HS0
      iintro ⟨H0, H1, H2, H3, HS0⟩
      isplitl [Hoth HS0 Hg]
      · isplitl [Hoth HS0]
        · isplitl [Hoth]; · iexact Hoth
          iexact HS0
        iexact Hg
      isplitl [Ho]; · iexact Ho
      isplitl [H0]; · iexact H0
      isplitl [H1]; · iexact H1
      isplitl [H2]; · iexact H2
      iexists _; iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Run.lean ====
/-
  The run of @main, from the launch to the return, read off segment by segment: eighteen stretches of host
  operations (the three weight matrices quantized to the ternary grid and padded with zero rows or columns up to 11264),
  the four kernel regions — the input rows quantized to the 8-bit grid; the gated product `relu(x·Wg)² · (x·Wu)` block by
  block; each row's scale from its largest absolute value; the product with the down matrix accumulated over 22 blocks of
  the contracted axis —, and the final reshape. Between two segments every unscoped buffer of a core is held whole at
  named contents: a host stretch takes them to what its operations compute, a region to its arrays at what its blocks'
  write-backs leave (every other buffer as entered). The run's post reads EVERY unscoped buffer at the last contents, so
  both the frame (no argument array is ever written) and the result's value follow from it.
-/
import proofs.«139580_j65773129171180_2_alg».proof.Proof.KI.R0
import proofs.«139580_j65773129171180_2_alg».proof.Proof.KI.R1
import proofs.«139580_j65773129171180_2_alg».proof.Proof.KI.R2
import proofs.«139580_j65773129171180_2_alg».proof.Proof.KI.R3
import proofs.«139580_j65773129171180_2_alg».proof.Proof.Gen.KernelIdeal.Regions
import Idealize.ShloMosaic.Lib.Pipeline.Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- When region 0 is entered: the launch contents taken through the eighteen host stretches. -/
abbrev Q0 (c : Dev nD) : Valuation τ sig (Elt F) := V18 m c
abbrev T0 : (c : Dev nD) → (b : Ref sig .tc) → Buf (Elt F) ((c : Thread nD τ).loc b) := fun c b => Q0 m c b

/-- At region 0's exit: its arrays at what its write-backs leave, every other buffer as entered. -/
def Q1 (c : Dev nD) : Valuation τ sig (Elt F) :=
  Pipeline.withArrays spec0 c (Q0 m c) fun w => (dat0 (T0 m) c).arrAt w cfg0.N
theorem Q1_arr (c : Dev nD) (w : Fin cfg0.W) :
    Q1 m c (Proc.devRef .tc (Pipeline.arrRef spec0 w)) = (dat0 (T0 m) c).arrAt w cfg0.N := by
  unfold Q1; exact Pipeline.withArrays_arr spec0 launch0.win.arr_inj c _ _ w
theorem Q1_of_ne (c : Dev nD) (b : Ref sig .tc) (hb : ∀ w, Pipeline.arrRef spec0 w ≠ b) :
    Q1 m c (Proc.devRef .tc b) = Q0 m c (Proc.devRef .tc b) := by
  unfold Q1; exact Pipeline.withArrays_of_ne spec0 c _ _ b hb
/-- The same contents read at the TensorCore's references. -/
abbrev T1 : (c : Dev nD) → (b : Ref sig .tc) → Buf (Elt F) ((c : Thread nD τ).loc b) := fun c b => Q1 m c b
theorem hF0 (c : Dev nD) (w : Fin cfg0.W) : (dat0 (T0 m) c).arrAt w cfg0.N = T1 m c (Pipeline.arrRef spec0 w) :=
  (Q1_arr m c w).symm
theorem hrest0 (c : Dev nD) : ∀ b, b ∉ Finset.univ.image (Pipeline.arrRef spec0) → T1 m c b = T0 m c b :=
  fun b hb => Q1_of_ne m c b fun w e => hb (Finset.mem_image.mpr ⟨w, Finset.mem_univ _, e⟩)

/-- At region 1's exit: its arrays at what its write-backs leave, every other buffer as entered. -/
def Q2 (c : Dev nD) : Valuation τ sig (Elt F) :=
  Pipeline.withArrays spec1 c (Q1 m c) fun w => (dat1 (T1 m) c).arrAt w cfg1.N
theorem Q2_arr (c : Dev nD) (w : Fin cfg1.W) :
    Q2 m c (Proc.devRef .tc (Pipeline.arrRef spec1 w)) = (dat1 (T1 m) c).arrAt w cfg1.N := by
  unfold Q2; exact Pipeline.withArrays_arr spec1 launch1.win.arr_inj c _ _ w
theorem Q2_of_ne (c : Dev nD) (b : Ref sig .tc) (hb : ∀ w, Pipeline.arrRef spec1 w ≠ b) :
    Q2 m c (Proc.devRef .tc b) = Q1 m c (Proc.devRef .tc b) := by
  unfold Q2; exact Pipeline.withArrays_of_ne spec1 c _ _ b hb
/-- The same contents read at the TensorCore's references. -/
abbrev T2 : (c : Dev nD) → (b : Ref sig .tc) → Buf (Elt F) ((c : Thread nD τ).loc b) := fun c b => Q2 m c b
theorem hF1 (c : Dev nD) (w : Fin cfg1.W) : (dat1 (T1 m) c).arrAt w cfg1.N = T2 m c (Pipeline.arrRef spec1 w) :=
  (Q2_arr m c w).symm
theorem hrest1 (c : Dev nD) : ∀ b, b ∉ Finset.univ.image (Pipeline.arrRef spec1) → T2 m c b = T1 m c b :=
  fun b hb => Q2_of_ne m c b fun w e => hb (Finset.mem_image.mpr ⟨w, Finset.mem_univ _, e⟩)

/-- At region 2's exit: its arrays at what its write-backs leave, every other buffer as entered. -/
def Q3 (c : Dev nD) : Valuation τ sig (Elt F) :=
  Pipeline.withArrays spec2 c (Q2 m c) fun w => (dat2 (T2 m) c).arrAt w cfg2.N
theorem Q3_arr (c : Dev nD) (w : Fin cfg2.W) :
    Q3 m c (Proc.devRef .tc (Pipeline.arrRef spec2 w)) = (dat2 (T2 m) c).arrAt w cfg2.N := by
  unfold Q3; exact Pipeline.withArrays_arr spec2 launch2.win.arr_inj c _ _ w
theorem Q3_of_ne (c : Dev nD) (b : Ref sig .tc) (hb : ∀ w, Pipeline.arrRef spec2 w ≠ b) :
    Q3 m c (Proc.devRef .tc b) = Q2 m c (Proc.devRef .tc b) := by
  unfold Q3; exact Pipeline.withArrays_of_ne spec2 c _ _ b hb
/-- The same contents read at the TensorCore's references. -/
abbrev T3 : (c : Dev nD) → (b : Ref sig .tc) → Buf (Elt F) ((c : Thread nD τ).loc b) := fun c b => Q3 m c b
theorem hF2 (c : Dev nD) (w : Fin cfg2.W) : (dat2 (T2 m) c).arrAt w cfg2.N = T3 m c (Pipeline.arrRef spec2 w) :=
  (Q3_arr m c w).symm
theorem hrest2 (c : Dev nD) : ∀ b, b ∉ Finset.univ.image (Pipeline.arrRef spec2) → T3 m c b = T2 m c b :=
  fun b hb => Q3_of_ne m c b fun w e => hb (Finset.mem_image.mpr ⟨w, Finset.mem_univ _, e⟩)

/-- At region 3's exit: its arrays at what its write-backs leave, every other buffer as entered. -/
def Q4 (c : Dev nD) : Valuation τ sig (Elt F) :=
  Pipeline.withArrays spec3 c (Q3 m c) fun w => (dat3 (T3 m) c).arrAt w cfg3.N
theorem Q4_arr (c : Dev nD) (w : Fin cfg3.W) :
    Q4 m c (Proc.devRef .tc (Pipeline.arrRef spec3 w)) = (dat3 (T3 m) c).arrAt w cfg3.N := by
  unfold Q4; exact Pipeline.withArrays_arr spec3 launch3.win.arr_inj c _ _ w
theorem Q4_of_ne (c : Dev nD) (b : Ref sig .tc) (hb : ∀ w, Pipeline.arrRef spec3 w ≠ b) :
    Q4 m c (Proc.devRef .tc b) = Q3 m c (Proc.devRef .tc b) := by
  unfold Q4; exact Pipeline.withArrays_of_ne spec3 c _ _ b hb
/-- The same contents read at the TensorCore's references. -/
abbrev T4 : (c : Dev nD) → (b : Ref sig .tc) → Buf (Elt F) ((c : Thread nD τ).loc b) := fun c b => Q4 m c b
theorem hF3 (c : Dev nD) (w : Fin cfg3.W) : (dat3 (T3 m) c).arrAt w cfg3.N = T4 m c (Pipeline.arrRef spec3 w) :=
  (Q4_arr m c w).symm
theorem hrest3 (c : Dev nD) : ∀ b, b ∉ Finset.univ.image (Pipeline.arrRef spec3) → T4 m c b = T3 m c b :=
  fun b hb => Q4_of_ne m c b fun w e => hb (Finset.mem_image.mpr ⟨w, Finset.mem_univ _, e⟩)

/-- After the final reshape. -/
abbrev Q5 (c : Dev nD) : Valuation τ sig (Elt F) := StableHlo.after hostOps4 (Q4 m c)

/-! ## The proof data family and the thread state -/

/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (T0 m) c
  | ⟨1, _⟩ => fun c => dat1 (T1 m) c
  | ⟨2, _⟩ => fun c => dat2 (T2 m) c
  | ⟨3, _⟩ => fun c => dat3 (T3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and the core owing nothing. -/
abbrev R (c : Dev nD) : sProp 𝕄 := iprop((∃ r, prngReg c r) ∗ ∃ W, owes (c : Thread nD τ) (0 : CellTallies nD τ sig Unit) W)
/-- A host stretch as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- Region 0 over the thread state: entered with every unscoped buffer at the entry contents, left with its arrays at
    what the write-backs leave and every other buffer as entered; the generator register passes through the invariant;
    nothing is owed and the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (T0 m) c).loose
  hwaits := Pipeline.hwaits_of_owed_zero _ _ _ _ L lv 0 fun _ _ => rfl
  pre c := iprop(StableHlo.held (c : Thread nD τ) (Pipeline.ucRefs τ sig) (Q0 m c) ∗ R c)
  post c := iprop(StableHlo.held (c : Thread nD τ) (Pipeline.ucRefs τ sig) (Q1 m c) ∗ R c)
  X c := iprop(∃ r, prngReg c r)
  Y c := iprop(∃ r, prngReg c r)
  Z c := Pipeline.unscopedRest (Ix := Unit) (Name := ℕ) (U := UR sig nD τ) (Lvl := ℕ) spec0 c (T0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (T0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from Phi0_first (T0 m) c]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from Phi0_last (T0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (T0 m c) (T1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the entry contents, left with its arrays at
    what the write-backs leave and every other buffer as entered; the generator register passes through the invariant;
    nothing is owed and the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (T1 m) c).loose
  hwaits := Pipeline.hwaits_of_owed_zero _ _ _ _ L lv 1 fun _ _ => rfl
  pre c := iprop(StableHlo.held (c : Thread nD τ) (Pipeline.ucRefs τ sig) (Q1 m c) ∗ R c)
  post c := iprop(StableHlo.held (c : Thread nD τ) (Pipeline.ucRefs τ sig) (Q2 m c) ∗ R c)
  X c := iprop(∃ r, prngReg c r)
  Y c := iprop(∃ r, prngReg c r)
  Z c := Pipeline.unscopedRest (Ix := Unit) (Name := ℕ) (U := UR sig nD τ) (Lvl := ℕ) spec1 c (T1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (T1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from Phi1_first (T1 m) c]; unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from Phi1_last (T1 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (T1 m c) (T2 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at the entry contents, left with its arrays at
    what the write-backs leave and every other buffer as entered; the generator register passes through the invariant;
    nothing is owed and the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (T2 m) c).loose
  hwaits := Pipeline.hwaits_of_owed_zero _ _ _ _ L lv 2 fun _ _ => rfl
  pre c := iprop(StableHlo.held (c : Thread nD τ) (Pipeline.ucRefs τ sig) (Q2 m c) ∗ R c)
  post c := iprop(StableHlo.held (c : Thread nD τ) (Pipeline.ucRefs τ sig) (Q3 m c) ∗ R c)
  X c := iprop(∃ r, prngReg c r)
  Y c := iprop(∃ r, prngReg c r)
  Z c := Pipeline.unscopedRest (Ix := Unit) (Name := ℕ) (U := UR sig nD τ) (Lvl := ℕ) spec2 c (T2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (T2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from Phi2_first (T2 m) c]; unfold Pipeline.ΦA
    iintro ⟨Hp, -, Hr⟩
    isplitl [Hr]; · iexact Hr
    iexact Hp
  hout c := by
    rw [Pipeline.ownSems0_none]
    refine (show (pdats m 2 c).Φ (Fin.last _) ⊢ Pipeline.ΦA spec2 c from Phi2_last (T2 m) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (T2 m c) (T3 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered with every unscoped buffer at the entry contents, left with its arrays at
    what the write-backs leave and every other buffer as entered; the generator register passes through the invariant;
    nothing is owed and the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (T3 m) c).loose
  hwaits := Pipeline.hwaits_of_owed_zero _ _ _ _ L lv 3 fun _ _ => rfl
  pre c := iprop(StableHlo.held (c : Thread nD τ) (Pipeline.ucRefs τ sig) (Q3 m c) ∗ R c)
  post c := iprop(StableHlo.held (c : Thread nD τ) (Pipeline.ucRefs τ sig) (Q4 m c) ∗ R c)
  X c := iprop(∃ r, prngReg c r)
  Y c := iprop(∃ r, prngReg c r)
  Z c := Pipeline.unscopedRest (Ix := Unit) (Name := ℕ) (U := UR sig nD τ) (Lvl := ℕ) spec3 c (T3 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (T3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from Phi3_first (T3 m) c]; unfold Pipeline.ΦA
    iintro ⟨Hp, -, Hr⟩
    isplitl [Hr]; · iexact Hr
    iexact Hp
  hout c := by
    rw [Pipeline.ownSems0_none]
    refine (show (pdats m 3 c).Φ (Fin.last _) ⊢ Pipeline.ΦA spec3 c from Phi3_last (T3 m) c).trans ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (T3 m c) (T4 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 23 segments in order. -/
abbrev hsegs : List (Pipeline.Seg (pcfgs (F := F)) adm (pdats m) () defs₀ 𝒱₀ L lv) :=
  [ .host (hseg hostOps0 hostOps0_sub hostOps0_fresh (V0 m)),
    .host (hseg hostOps0_1 hostOps0_1_sub hostOps0_1_fresh (V1 m)),
    .host (hseg hostOps0_2 hostOps0_2_sub hostOps0_2_fresh (V2 m)),
    .host (hseg hostOps0_3 hostOps0_3_sub hostOps0_3_fresh (V3 m)),
    .host (hseg hostOps0_4 hostOps0_4_sub hostOps0_4_fresh (V4 m)),
    .host (hseg hostOps0_5 hostOps0_5_sub hostOps0_5_fresh (V5 m)),
    .host (hseg hostOps0_6 hostOps0_6_sub hostOps0_6_fresh (V6 m)),
    .host (hseg hostOps0_7 hostOps0_7_sub hostOps0_7_fresh (V7 m)),
    .host (hseg hostOps0_8 hostOps0_8_sub hostOps0_8_fresh (V8 m)),
    .host (hseg hostOps0_9 hostOps0_9_sub hostOps0_9_fresh (V9 m)),
    .host (hseg hostOps0_10 hostOps0_10_sub hostOps0_10_fresh (V10 m)),
    .host (hseg hostOps0_11 hostOps0_11_sub hostOps0_11_fresh (V11 m)),
    .host (hseg hostOps0_12 hostOps0_12_sub hostOps0_12_fresh (V12 m)),
    .host (hseg hostOps0_13 hostOps0_13_sub hostOps0_13_fresh (V13 m)),
    .host (hseg hostOps0_14 hostOps0_14_sub hostOps0_14_fresh (V14 m)),
    .host (hseg hostOps0_15 hostOps0_15_sub hostOps0_15_fresh (V15 m)),
    .host (hseg hostOps0_16 hostOps0_16_sub hostOps0_16_fresh (V16 m)),
    .host (hseg hostOps0_17 hostOps0_17_sub hostOps0_17_fresh (V17 m)),
    .region (reg0 m), .region (reg1 m), .region (reg2 m), .region (reg3 m),
    .host (hseg hostOps4 hostOps4_sub hostOps4_fresh (Q4 m)) ]

theorem main_run (c : Dev nD) : main (F := F) c = Pipeline.Seg.run (hsegs m) := by
  rw [main_chain c, Pipeline.Seg.run_eq_chain]; rfl

set_option backward.isDefEq.respectTransparency.types false in
/-- THE RUN: from any memory with zero counters, every weakly fair execution of @main terminates, nothing faulting, and
    in every final state each unscoped buffer of each core holds the last boundary's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = Q5 m c b) :=
  Pipeline.θ_run_regions_kit (pcfgs (F := F)) adm (pdats m) () cellOf_inj emb₁ defs₀ 𝒱₀ L lv m ρ main (hsegs m)
    (fun c Q => by rw [main_run m c])
    (by simp only [hsegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => iprop(StableHlo.held (c : Thread nD τ) (Pipeline.ucRefs τ sig) (Q5 m c) ∗ ∃ r, prngReg c r))
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl,
      fun c => by
        show (iprop(StableHlo.held (c : Thread nD τ) (Pipeline.ucRefs τ sig) (Q5 m c) ∗ R c) : sProp 𝕄) ⊢ _
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Q5 m c b)
    (hfin := fun c s' => by
      iintro ⟨⟨Hh, -⟩, HSI⟩
      unfold StableHlo.held
      imodintro
      iapply (pointsTo_read_all (Pipeline.ucRefs τ sig) (fun b => (((c : Thread nD τ)).1, b)) (Q5 m c) s')
      isplitl [Hh] <;> iassumption)
    (hQ := fun s h => h)

end Cert.KernelIdeal.Hand

end
-- ==== Proof.KI.Frame.lean ====
/-
  The frame of @main: no host operation writes an argument array and no region changes one (a region changes only the
  array of its output window, and no argument is one), so each argument's buffer holds its launch contents at every
  boundary, the last included; the run's post reads them there.
-/
import proofs.«139580_j65773129171180_2_alg».proof.Proof.KI.Run

set_option maxRecDepth 16384

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]
variable (m : (ℓ : Loc nD τ sig) → Buf (Elt F) ℓ)

/-- No host stretch writes `main_arg0` and no region stages it in a window it changes: its last contents are the launch's. -/
theorem Q5_main_arg0 (c : Dev nD) : Q5 m c (Proc.devRef .tc main_arg0) = m ((c : Thread nD τ).loc main_arg0) :=
  (StableHlo.after_of_writes_sub hostOps4 _ hostOps4_writes (r := main_arg0) (by decide)).trans <|
  (Q4_of_ne m c main_arg0 (by decide)).trans <| (Q3_of_ne m c main_arg0 (by decide)).trans <|
  (Q2_of_ne m c main_arg0 (by decide)).trans <| (Q1_of_ne m c main_arg0 (by decide)).trans <|
  (V18_of m c main_arg0 (by decide)).trans <| (V17_of m c main_arg0 (by decide)).trans <| (V16_of m c main_arg0 (by decide)).trans <| (V15_of m c main_arg0 (by decide)).trans <| (V14_of m c main_arg0 (by decide)).trans <| (V13_of m c main_arg0 (by decide)).trans <| (V12_of m c main_arg0 (by decide)).trans <| (V11_of m c main_arg0 (by decide)).trans <| (V10_of m c main_arg0 (by decide)).trans <| (V9_of m c main_arg0 (by decide)).trans <| (V8_of m c main_arg0 (by decide)).trans <| (V7_of m c main_arg0 (by decide)).trans <| (V6_of m c main_arg0 (by decide)).trans <| (V5_of m c main_arg0 (by decide)).trans <| (V4_of m c main_arg0 (by decide)).trans <| (V3_of m c main_arg0 (by decide)).trans <| (V2_of m c main_arg0 (by decide)).trans <| (V1_of m c main_arg0 (by decide)).trans <| rfl

/-- No host stretch writes `main_arg1` and no region stages it in a window it changes: its last contents are the launch's. -/
theorem Q5_main_arg1 (c : Dev nD) : Q5 m c (Proc.devRef .tc main_arg1) = m ((c : Thread nD τ).loc main_arg1) :=
  (StableHlo.after_of_writes_sub hostOps4 _ hostOps4_writes (r := main_arg1) (by decide)).trans <|
  (Q4_of_ne m c main_arg1 (by decide)).trans <| (Q3_of_ne m c main_arg1 (by decide)).trans <|
  (Q2_of_ne m c main_arg1 (by decide)).trans <| (Q1_of_ne m c main_arg1 (by decide)).trans <|
  (V18_of m c main_arg1 (by decide)).trans <| (V17_of m c main_arg1 (by decide)).trans <| (V16_of m c main_arg1 (by decide)).trans <| (V15_of m c main_arg1 (by decide)).trans <| (V14_of m c main_arg1 (by decide)).trans <| (V13_of m c main_arg1 (by decide)).trans <| (V12_of m c main_arg1 (by decide)).trans <| (V11_of m c main_arg1 (by decide)).trans <| (V10_of m c main_arg1 (by decide)).trans <| (V9_of m c main_arg1 (by decide)).trans <| (V8_of m c main_arg1 (by decide)).trans <| (V7_of m c main_arg1 (by decide)).trans <| (V6_of m c main_arg1 (by decide)).trans <| (V5_of m c main_arg1 (by decide)).trans <| (V4_of m c main_arg1 (by decide)).trans <| (V3_of m c main_arg1 (by decide)).trans <| (V2_of m c main_arg1 (by decide)).trans <| (V1_of m c main_arg1 (by decide)).trans <| rfl

/-- No host stretch writes `main_arg2` and no region stages it in a window it changes: its last contents are the launch's. -/
theorem Q5_main_arg2 (c : Dev nD) : Q5 m c (Proc.devRef .tc main_arg2) = m ((c : Thread nD τ).loc main_arg2) :=
  (StableHlo.after_of_writes_sub hostOps4 _ hostOps4_writes (r := main_arg2) (by decide)).trans <|
  (Q4_of_ne m c main_arg2 (by decide)).trans <| (Q3_of_ne m c main_arg2 (by decide)).trans <|
  (Q2_of_ne m c main_arg2 (by decide)).trans <| (Q1_of_ne m c main_arg2 (by decide)).trans <|
  (V18_of m c main_arg2 (by decide)).trans <| (V17_of m c main_arg2 (by decide)).trans <| (V16_of m c main_arg2 (by decide)).trans <| (V15_of m c main_arg2 (by decide)).trans <| (V14_of m c main_arg2 (by decide)).trans <| (V13_of m c main_arg2 (by decide)).trans <| (V12_of m c main_arg2 (by decide)).trans <| (V11_of m c main_arg2 (by decide)).trans <| (V10_of m c main_arg2 (by decide)).trans <| (V9_of m c main_arg2 (by decide)).trans <| (V8_of m c main_arg2 (by decide)).trans <| (V7_of m c main_arg2 (by decide)).trans <| (V6_of m c main_arg2 (by decide)).trans <| (V5_of m c main_arg2 (by decide)).trans <| (V4_of m c main_arg2 (by decide)).trans <| (V3_of m c main_arg2 (by decide)).trans <| (V2_of m c main_arg2 (by decide)).trans <| (V1_of m c main_arg2 (by decide)).trans <| rfl

/-- No host stretch writes `main_arg3` and no region stages it in a window it changes: its last contents are the launch's. -/
theorem Q5_main_arg3 (c : Dev nD) : Q5 m c (Proc.devRef .tc main_arg3) = m ((c : Thread nD τ).loc main_arg3) :=
  (StableHlo.after_of_writes_sub hostOps4 _ hostOps4_writes (r := main_arg3) (by decide)).trans <|
  (Q4_of_ne m c main_arg3 (by decide)).trans <| (Q3_of_ne m c main_arg3 (by decide)).trans <|
  (Q2_of_ne m c main_arg3 (by decide)).trans <| (Q1_of_ne m c main_arg3 (by decide)).trans <|
  (V18_of m c main_arg3 (by decide)).trans <| (V17_of m c main_arg3 (by decide)).trans <| (V16_of m c main_arg3 (by decide)).trans <| (V15_of m c main_arg3 (by decide)).trans <| (V14_of m c main_arg3 (by decide)).trans <| (V13_of m c main_arg3 (by decide)).trans <| (V12_of m c main_arg3 (by decide)).trans <| (V11_of m c main_arg3 (by decide)).trans <| (V10_of m c main_arg3 (by decide)).trans <| (V9_of m c main_arg3 (by decide)).trans <| (V8_of m c main_arg3 (by decide)).trans <| (V7_of m c main_arg3 (by decide)).trans <| (V6_of m c main_arg3 (by decide)).trans <| (V5_of m c main_arg3 (by decide)).trans <| (V4_of m c main_arg3 (by decide)).trans <| (V3_of m c main_arg3 (by decide)).trans <| (V2_of m c main_arg3 (by decide)).trans <| (V1_of m c main_arg3 (by decide)).trans <| rfl

/-- Every weakly fair execution of @main terminates, nothing faulting, with the four argument arrays as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (Q5_main_arg0 m c),
     (h c _ (mem_uc main_arg1 (by decide))).trans (Q5_main_arg1 m c),
     (h c _ (mem_uc main_arg2 (by decide))).trans (Q5_main_arg2 m c),
     (h c _ (mem_uc main_arg3 (by decide))).trans (Q5_main_arg3 m c)⟩) (run_all m ρ)

end Cert.KernelIdeal.Hand

end
-- ==== Proof.Spec.lean ====
/-
  The function both programs compute, index by index, on the extended reals.

  A row of activations is quantized to the 8-bit grid by its own scale: with `a` the largest absolute value of the
  row, the scale is `127 / max a ε`, and an entry `x` becomes `clamp (round (x · scale)) / scale`, the clamp to
  `[-128, 127]`, the rounding to nearest with ties to even. A weight matrix is quantized to `{-1, 0, 1}` by ONE scale
  for the whole matrix, `1 / max (mean |w|) ε`, its mean the sum of the absolute values (from `0`) over the number of
  entries. The gated layer is: `g`, `u` the products of the quantized input rows with the quantized gate and up
  matrices; `h = relu(g)² · u`; `h`'s rows quantized again by their own scales; the result their product with the
  quantized down matrix. All constants are kept as the binary words both programs print.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- ε = f32(1e-5), 127, -128, 1, -1, the entry count 11008·4096 and 0, each as the binary word printed. -/
abbrev eps : EReal := Ideal.ofBits .f32 0x3727C5AC#32
abbrev c127 : EReal := Ideal.ofBits .f32 0x42FE0000#32
abbrev cm128 : EReal := Ideal.ofBits .f32 0xC3000000#32
abbrev c1 : EReal := Ideal.ofBits .f32 0x3F800000#32
abbrev cm1 : EReal := Ideal.ofBits .f32 0xBF800000#32
abbrev cN : EReal := Ideal.ofBits .f32 0x4C2C0000#32
abbrev c0 : EReal := Ideal.ofBits .f32 0x00000000#32

/-- Rounding to nearest, ties to even, the infinities fixed. -/
abbrev rnd (x : EReal) : EReal := Ideal.liftRound Ideal.roundHalfEven x

/-- The largest value of a finite family, from `-∞`. -/
def fmax {n : Nat} (f : Fin n → EReal) : EReal := (Finset.univ : Finset (Fin n)).fold max ⊥ f

/-- A row's scale from its largest absolute value. -/
def ascale (a : EReal) : EReal := Ideal.div c127 (max a eps)

/-- An activation `x` on the 8-bit grid of scale `s`. -/
def aq (x s : EReal) : EReal := Ideal.div (min c127 (max cm128 (rnd (x * s)))) s

/-- A matrix's scale from the sum of its absolute values. -/
def wscale (sumabs : EReal) : EReal := Ideal.div c1 (max (Ideal.div sumabs cN) eps)

/-- A weight `w` on the ternary grid of scale `s`. -/
def wq (w s : EReal) : EReal := Ideal.div (min c1 (max cm1 (rnd (w * s)))) s

/-- `|x|` on the extended reals. -/
abbrev eabs (x : EReal) : EReal := max x (-x)

section
variable (x : (⟨3, ![2, 2048, 4096]⟩ : Shape).Idx → EReal)
variable (wg wu : (⟨2, ![11008, 4096]⟩ : Shape).Idx → EReal) (wd : (⟨2, ![4096, 11008]⟩ : Shape).Idx → EReal)

/-- The input rows' scales and the quantized input. -/
def xscale (b : Fin 2) (s : Fin 2048) : EReal := ascale (fmax fun k : Fin 4096 => eabs (x (ix3 b s k)))
def xq (b : Fin 2) (s : Fin 2048) (k : Fin 4096) : EReal := aq (x (ix3 b s k)) (xscale x b s)

/-- A matrix's one scale: from the sum, started at `0`, of all its absolute values. -/
def mscale {n0 n1 : Nat} (w : (⟨2, ![n0, n1]⟩ : Shape).Idx → EReal) : EReal :=
  wscale (c0 + ∑ i : (⟨2, ![n0, n1]⟩ : Shape).Idx, eabs (w i))
def mq {n0 n1 : Nat} (w : (⟨2, ![n0, n1]⟩ : Shape).Idx → EReal) (i : Fin n0) (k : Fin n1) : EReal :=
  wq (w (ix2 i k)) (mscale w)

/-- The gate and up products, the gated value, its rows' scales, its quantization, and the result. -/
def gate (b : Fin 2) (s : Fin 2048) (i : Fin 11008) : EReal := ∑ k : Fin 4096, xq x b s k * mq wg i k
def up (b : Fin 2) (s : Fin 2048) (i : Fin 11008) : EReal := ∑ k : Fin 4096, xq x b s k * mq wu i k
def hval (b : Fin 2) (s : Fin 2048) (i : Fin 11008) : EReal :=
  (max (gate x wg b s i) c0 * max (gate x wg b s i) c0) * up x wu b s i
def hscale (b : Fin 2) (s : Fin 2048) : EReal := ascale (fmax fun i : Fin 11008 => eabs (hval x wg wu b s i))
def hq (b : Fin 2) (s : Fin 2048) (i : Fin 11008) : EReal := aq (hval x wg wu b s i) (hscale x wg wu b s)
def out (b : Fin 2) (s : Fin 2048) (o : Fin 4096) : EReal := ∑ i : Fin 11008, hq x wg wu b s i * mq wd o i

/-- The result array. -/
def G : (⟨3, ![2, 2048, 4096]⟩ : Shape).Idx → EReal := fun j => out x wg wu wd (j 0) (j 1) (j 2)
end

end Cert.Spec

end
-- ==== Proof.RegionSpec.lean ====
/-
  What each of the four kernel regions leaves in its output array, as ONE function of the arrays it reads, index by
  index, on the extended reals (the rows are the 4096 tokens; the hidden axis is padded from 11008 to 11264).
    `A0 x`         row `r` of `x` on the 8-bit grid of the row's own scale;
    `A1 xq wg wu`  `relu(g)² · u` with `g`, `u` row `r` of `xq` against rows `j` of the two padded weight matrices;
    `A2 h`         each row's scale, from the largest absolute value over all 11264 columns;
    `A3 h s wd`    row `r` of `h`, on the 8-bit grid of scale `s r`, against row `o` of the padded down matrix, summed block
                  after block: 22 blocks of 512 columns, each block's sum added to the running total, which starts at 0.
-/
import proofs.«139580_j65773129171180_2_alg».proof.Proof.Spec

noncomputable section

namespace Cert.RegionSpec

open Idealize.ShloMosaic Idealize.ShloMosaic.ValueIdx Cert.Spec

abbrev I4096x4096 := (⟨2, ![4096, 4096]⟩ : Shape).Idx
abbrev I11264x4096 := (⟨2, ![11264, 4096]⟩ : Shape).Idx
abbrev I4096x11264 := (⟨2, ![4096, 11264]⟩ : Shape).Idx
abbrev I4096x1 := (⟨2, ![4096, 1]⟩ : Shape).Idx

/-- Region 0: the rows quantized. -/
def A0 (x : I4096x4096 → EReal) : I4096x4096 → EReal := fun i =>
  aq (x i) (ascale (fmax fun k : Fin 4096 => eabs (x (ix2 (i 0) k))))

/-- The product of row `r` of `a` with row `j` of `w`, over the 4096 input features. -/
def dotRow (a : I4096x4096 → EReal) (w : I11264x4096 → EReal) (r : Fin 4096) (j : Fin 11264) : EReal :=
  ∑ k : Fin 4096, a (ix2 r k) * w (ix2 j k)

/-- Region 1: the gated product. -/
def A1 (xq : I4096x4096 → EReal) (wg wu : I11264x4096 → EReal) : I4096x11264 → EReal := fun i =>
  (max (dotRow xq wg (i 0) (i 1)) c0 * max (dotRow xq wg (i 0) (i 1)) c0) * dotRow xq wu (i 0) (i 1)

/-- Region 2: the rows' scales, a column. -/
def A2 (h : I4096x11264 → EReal) : I4096x1 → EReal := fun i =>
  ascale (fmax fun j : Fin 11264 => eabs (h (ix2 (i 0) j)))

/-- Block `kb`'s contribution to entry `(r, o)` of the last product. -/
def blockSum (h : I4096x11264 → EReal) (s : I4096x1 → EReal) (wd : I4096x11264 → EReal) (r o : Fin 4096) (kb : Fin 22) : EReal :=
  ∑ q : Fin 512, aq (h (ix2 r ⟨kb.val * 512 + q.val, by omega⟩)) (s (ix2 r 0)) * wd (ix2 o ⟨kb.val * 512 + q.val, by omega⟩)

/-- The running total after blocks `0 … n`: it starts at `0` and takes each block's sum in turn. -/
def runTotal (B : Fin 22 → EReal) : (n : ℕ) → n < 22 → EReal
  | 0, h => c0 + B ⟨0, h⟩
  | n + 1, h => runTotal B n (Nat.lt_of_succ_lt h) + B ⟨n + 1, h⟩

/-- Region 3: the blocked product. -/
def A3 (h : I4096x11264 → EReal) (s : I4096x1 → EReal) (wd : I4096x11264 → EReal) : I4096x4096 → EReal := fun i =>
  runTotal (blockSum h s wd (i 0) (i 1)) 21 (by omega)

end Cert.RegionSpec

end
-- ==== Proof.LibKeepdims.lean ====
/-
  Layout and reduction facts a row-wise kernel needs when its payload is read at one index, over the extended reals:
  the column forms of a "keep the reduced axis" computation — a vector of row values viewed as a one-column matrix,
  and a one-column matrix spread over every column —, a row's maximum as the fold of `max` over the row's entries, the
  two binary words that encode `-∞`, and the two pointwise operations (absolute value, rounding to even) at an index.
-/
import Idealize.ShloMosaic.Lib.ValueLayout
import Idealize.ShloMosaic.PureOps.Ideal.Laws

namespace Cert.LibKeepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

section AtIdeal
variable {s : Shape} {φ : FTy}

/-- An absolute value at an index is the larger of the element and its negation … -/
theorem absf_apply (a : FVec Ideal s φ) (i : s.Idx) : absf a i = max (a i) (-(a i)) := rfl
/-- … and a rounding to even rounds the element. -/
theorem roundeven_apply (a : FVec Ideal s φ) (i : s.Idx) : roundeven a i = Ideal.liftRound Ideal.roundHalfEven (a i) := rfl

end AtIdeal

/-- At the extended reals a scalar constant is what its word denotes. -/
theorem scalar_ofBits (φ : FTy) (b : BitVec φ.bits) : Scalar.ofBits (F := Ideal) φ b = Ideal.ofBits φ b := rfl

/-- The f32 word `0xFF800000` is `-∞`. -/
theorem negInf_f32 : Ideal.ofBits .f32 0xFF800000#32 = (⊥ : EReal) := by simp [Ideal.ofBits, Ideal.ieee]
/-- The bf16 word `0xFF80` is `-∞`. -/
theorem negInf_bf16 : Ideal.ofBits .bf16 0xFF80#16 = (⊥ : EReal) := by simp [Ideal.ofBits, Ideal.ieee]

/-- A row's maximum: the `maximumf` reduction of an `[a, b]` array over its columns reads, at row `p`, the fold of
    `max` from the accumulator's value over the row's `b` entries. -/
theorem rowMax_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ src acc h hφ hacc (ix1 p)
      = (Finset.univ : Finset (Fin b)).fold max (Ideal.ofBits φ acc) (fun k => src (ix2 p k)) := by
  refine (Ideal.multiReduction_maximumf_single src acc h hφ hacc (ix1 p)).trans ?_
  show (Finset.univ : Finset (Fin b)).fold max (Ideal.ofBits φ acc) (src ∘ h.lift (ix1 p)) = _
  congr 1
  funext k
  show src (h.lift (ix1 p) k) = src (ix2 p k)
  congr 1
  funext d; apply Fin.ext
  match d with
  | ⟨0, _⟩ => rfl
  | ⟨1, _⟩ => rfl

end Cert.LibKeepdims
-- ==== Proof.KI.Val0.lean ====
/-
  Region 0 on the extended reals: after its eight grid points the output array holds, at every index, the input's
  entry on the 8-bit grid of its own row's scale. A grid point's block is 512 whole rows, so a row's largest absolute
  value over the block's 4096 columns is the row's over the array.
-/
import proofs.«139580_j65773129171180_2_alg».proof.Proof.KI.R0
import proofs.«139580_j65773129171180_2_alg».proof.Proof.RegionSpec
import proofs.«139580_j65773129171180_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open Cert.Spec Cert.RegionSpec Cert.LibKeepdims

variable (V : (c : Dev nD) → (b : Ref sig .tc) → Buf (Elt Ideal) ((c : Thread nD τ).loc b))

/-- The specification's two scalar definitions, unfolded once. -/
private theorem aq_def (x s : EReal) : aq x s = Ideal.div (min c127 (max cm128 (rnd (x * s)))) s := rfl
private theorem ascale_def (a : EReal) : ascale a = Ideal.div c127 (max a eps) := rfl

/-! ## The payload at an index -/
/-- The fold of `max` over a row of absolute values, started from the word that encodes `-∞`, is the row's largest
    absolute value. -/
theorem rowfold0 (x0 : FVec Ideal S512x4096 .f32) (p : Fin 512) :
    (Finset.univ : Finset (Fin 4096)).fold max (Ideal.ofBits .f32 0xFF800000#32) (fun k => absf x0 (ix2 p k))
      = fmax fun k : Fin 4096 => eabs (x0 (ix2 p k)) := by
  rw [negInf_f32]
  exact Finset.fold_congr (fun k _ => rfl)

/-- Row `p`'s largest absolute value over the block's 4096 columns, as the reduction computes it from `-∞`. -/
theorem rowmax0 (x0 : FVec Ideal S512x4096 .f32) (p : Fin 512) :
    multiReduction .maximumf [1] S512 (absf x0) 0xFF800000#32 reduces_S512x4096_S512 (.inl rfl) rfl (ix1 p)
      = fmax fun k : Fin 4096 => eabs (x0 (ix2 p k)) :=
  (rowMax_apply (absf x0) 0xFF800000#32 reduces_S512x4096_S512 (.inl rfl) rfl p).trans (rowfold0 x0 p)

/-- The column of row scales the kernel computes from a block, for any numerator `c` and floor `e`: `c` over the larger
    of each row's largest absolute value and `e`. -/
def scales0Of (c e : Ideal .f32) (x : FVec Ideal S512x4096 .f32) : FVec Ideal S512x1 .f32 :=
  divf (broadcast S512x1 c)
    (maximumf (shapeCast S512x1 (multiReduction .maximumf [1] S512 (absf x) 0xFF800000#32 reduces_S512x4096_S512 (.inl rfl) rfl) shapeCasts_S512_S512x1)
      (broadcast S512x1 e))

/-- Row `p`'s scale. -/
theorem scales0Of_apply (c e : Ideal .f32) (x : FVec Ideal S512x4096 .f32) (p : Fin 512) (u : Fin 1) :
    scales0Of c e x (ix2 p u) = Ideal.div c (max (fmax fun k : Fin 4096 => eabs (x (ix2 p k))) e) := by
  unfold scales0Of
  rw [divf_apply, broadcast_apply, maximumf_apply, broadcast_apply, shapeCast_a_a1_apply, rowmax0]

/-- The block on the grid of its rows' scales, for any clamp bounds `a`, `b`: every entry times its row's scale, rounded,
    clamped to `[b, a]`, over the scale. -/
def quant0Of (a b c e : Ideal .f32) (x : FVec Ideal S512x4096 .f32) : FVec Ideal S512x4096 .bf16 :=
  truncf .bf16 (divf (minimumf (broadcast S512x4096 a) (maximumf (broadcast S512x4096 b)
      (roundeven (mulf x (broadcastTo S512x4096 (scales0Of c e x) broadcasts_S512x1_S512x4096)))))
    (broadcastTo S512x4096 (scales0Of c e x) broadcasts_S512x1_S512x4096)) bitsLt_bf16_f32

theorem quant0Of_apply (a b c e : Ideal .f32) (x : FVec Ideal S512x4096 .f32) (j : S512x4096.Idx) :
    quant0Of a b c e x j
      = Ideal.div (min a (max b (rnd (x j * broadcastTo S512x4096 (scales0Of c e x) broadcasts_S512x1_S512x4096 j))))
          (broadcastTo S512x4096 (scales0Of c e x) broadcasts_S512x1_S512x4096 j) := by
  unfold quant0Of
  rw [truncf_apply, divf_apply, minimumf_apply, broadcast_apply, maximumf_apply, broadcast_apply, roundeven_apply, mulf_apply]

/-- The printed payload is that quantization at the printed constants. -/
theorem pay0_quant (x0 : FVec Ideal S512x4096 .f32) :
    k0_pay1 (F := Ideal) x0
      = quant0Of (Scalar.ofBits .f32 0x42FE0000#32) (Scalar.ofBits .f32 0xC3000000#32) (Scalar.ofBits .f32 0x42FE0000#32)
          (Scalar.ofBits .f32 0x3727C5AC#32) (shapeCast S512x4096 x0 shapeCasts_S512x4096_S512x4096) := rfl

/-- The stored value at `(p, q)`: the block's entry there on the 8-bit grid of row `p`'s scale. -/
theorem pay0_apply (x0 : FVec Ideal S512x4096 .f32) (p : Fin 512) (q : Fin 4096) :
    k0_pay1 (F := Ideal) x0 (ix2 p q) = aq (x0 (ix2 p q)) (ascale (fmax fun k : Fin 4096 => eabs (x0 (ix2 p k)))) := by
  rw [aq_def, ascale_def, pay0_quant, shapeCast_self x0, quant0Of_apply, broadcastTo_a1_ab_apply, scales0Of_apply,
    scalar_ofBits, scalar_ofBits, scalar_ofBits]

/-- A block whose row `p` is row `r` of the array `X` stores, at `(p, q)`, the region's value of `X` at `(r, q)`. -/
theorem blk0_apply (X : I4096x4096 → EReal) (x0 : FVec Ideal S512x4096 .f32) (r : Fin 4096) (p : Fin 512) (q : Fin 4096)
    (hx : ∀ k : Fin 4096, x0 (ix2 p k) = X (ix2 r k)) :
    k0_pay1 (F := Ideal) x0 (ix2 p q) = A0 X (ix2 r q) := by
  rw [pay0_apply]
  simp only [hx]
  rfl

/-! ## From blocks to the array -/

theorem hz0 : (![0, 0] : Fin 2 → Nat) = fun _ => 0 := funext fun a => by fin_cases a <;> rfl

/-- Both windows' block index at point `t` is `(t, 0)`: block `t` is rows `512 t … 512 t + 511`, all columns. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- What point `t` writes back is block `t` of the region's value of the input array. -/
theorem flushed0_eq (c : Dev nD) (t : Fin cfg0.N) :
    (dat0 (F := Ideal) V c).flushed 1 t = ((cfg0.win 1).blk t).view.read (Elt Ideal) (A0 (V c main_v0)) := by
  show (cfg0.win 1).cut (grid0.coords t) ((dat0 V c).after 1 t) = _
  rw [after0_1]
  unfold out0_1
  rw [View.canon_unit_zero hz0]
  simp only [View.ld_unit_zero (S := S512x4096) hz0]
  obtain ⟨e0, e1, e2, e3⟩ := idx_facts0 t
  have ht : t.val < 8 := lt_of_lt_of_eq t.isLt N_0
  funext j
  obtain ⟨p, q, rfl⟩ : ∃ (p : Fin 512) (q : Fin 4096), j = ix2 p q := ⟨j 0, j 1, eq_ix2 j⟩
  have hp : p.val < 512 := p.isLt
  have hemb : ((cfg0.win 1).blk t).view.emb (ix2 p q) = ix2 (⟨t.val * 512 + p.val, by omega⟩ : Fin 4096) q := by
    funext a; apply Fin.ext
    match a with
    | ⟨0, _⟩ => show win0_1.index t (0 : Fin 2) * 512 + 1 * p.val = t.val * 512 + p.val; omega
    | ⟨1, _⟩ => show win0_1.index t (1 : Fin 2) * 4096 + 1 * q.val = q.val; omega
  show k0_pay1 (F := Ideal) (iblk0 V c 0 t) (ix2 p q) = A0 (V c main_v0) (((cfg0.win 1).blk t).view.emb (ix2 p q))
  rw [hemb]
  refine blk0_apply (V c main_v0) (iblk0 V c 0 t) _ p q fun k => ?_
  show V c main_v0 (((cfg0.win 0).blk t).view.emb (ix2 p k)) = V c main_v0 (ix2 (⟨t.val * 512 + p.val, by omega⟩ : Fin 4096) k)
  congr 1
  funext a; apply Fin.ext
  match a with
  | ⟨0, _⟩ => show win0_0.index t (0 : Fin 2) * 512 + 1 * p.val = t.val * 512 + p.val; omega
  | ⟨1, _⟩ => show win0_0.index t (1 : Fin 2) * 4096 + 1 * k.val = k.val; omega

/-- An index of the output array is in point `t`'s block iff each coordinate is in the block's range on its axis. -/
theorem mem_blk0 (t : Fin cfg0.N) (i : S4096x4096.Idx) :
    i ∈ ((cfg0.win 1).blk t).view.set ↔ ∀ a : Fin 2, win0_1.index t a * S512x4096.size a ≤ (i a).val ∧ (i a).val < win0_1.index t a * S512x4096.size a + S512x4096.size a := by
  show i ∈ ((View.whole main_v40).slice (win0_1.rect t)).set ↔ _
  rw [View.set_slice_whole, Rect.mem_set_unit]
  exact Iff.rfl

/-- Every index of the output array is in the block of the point that holds its row: point `row / 512`. -/
theorem cover0 (i : S4096x4096.Idx) : ∃ t : Fin cfg0.N, (cfg0.win 1).flush t = true ∧ i ∈ ((cfg0.win 1).blk t).view.set := by
  have hi0 : (i 0).val < 4096 := (i 0).isLt
  have hi1 : (i 1).val < 4096 := (i 1).isLt
  obtain ⟨t, ht⟩ : ∃ t : Fin cfg0.N, t.val = (i 0).val / 512 :=
    ⟨⟨(i 0).val / 512, lt_of_lt_of_eq (by omega : (i 0).val / 512 < 8) N_0.symm⟩, rfl⟩
  obtain ⟨e0, e1, e2, e3⟩ := idx_facts0 t
  refine ⟨t, flush0_1 t, ?_⟩
  rw [mem_blk0]
  intro a
  match a with
  | ⟨0, _⟩ => show win0_1.index t (0 : Fin 2) * 512 ≤ (i 0).val ∧ (i 0).val < win0_1.index t (0 : Fin 2) * 512 + 512; omega
  | ⟨1, _⟩ => show win0_1.index t (1 : Fin 2) * 4096 ≤ (i 1).val ∧ (i 1).val < win0_1.index t (1 : Fin 2) * 4096 + 4096; omega

/-- The output array after the region: the region's value of the input array, everywhere. -/
theorem final0 (c : Dev nD) : (dat0 (F := Ideal) V c).arrAt 1 cfg0.N = A0 (V c main_v0) :=
  (dat0 V c).arrAt_eq_of_cover 1 _ (fun t _ => flushed0_eq V c t) cover0

end Cert.KernelIdeal.Val

end
-- ==== Proof.KI.Val1.lean ====
/-
  Region 1 on the extended reals: after its 11 x 16 grid points the output array holds, at every index `(r, j)`, the
  square of the positive part of row `r` of the activations against row `j` of the first weight matrix, times row `r`
  against row `j` of the second. A grid point's activation block is 256 whole rows and its weight blocks 1024 whole
  rows, all 4096 input features, so each product over the block's features is the product over the arrays'.
-/
import proofs.«139580_j65773129171180_2_alg».proof.Proof.KI.R1
import proofs.«139580_j65773129171180_2_alg».proof.Proof.RegionSpec
import proofs.«139580_j65773129171180_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open Cert.Spec Cert.RegionSpec Cert.LibKeepdims

variable (V : (c : Dev nD) → (b : Ref sig .tc) → Buf (Elt Ideal) ((c : Thread nD τ).loc b))

/-! ## The two products at an index -/

/-- The left operand's index at output index `j` and contraction position `k` is `(j 0, k)` … -/
theorem lhs1_0 (j : S256x1024.Idx) (k : dot_S256x4096_S1024x4096_S256x1024_1_1_0_0_n_n.contr.Idx) :
    (dot_S256x4096_S1024x4096_S256x1024_1_1_0_0_n_n.lhsIdx j k 0).val = (j 0).val := by
  unfold DotDims.lhsIdx
  rw [dif_neg (show ¬(0 : Fin S256x4096.rank) ∈ dot_S256x4096_S1024x4096_S256x1024_1_1_0_0_n_n.lhsBatch by decide), dif_pos (show (0 : Fin S256x4096.rank) ∈ dot_S256x4096_S1024x4096_S256x1024_1_1_0_0_n_n.lhsNonContracting by decide)]
  rfl
theorem lhs1_1 (j : S256x1024.Idx) (k : dot_S256x4096_S1024x4096_S256x1024_1_1_0_0_n_n.contr.Idx) :
    (dot_S256x4096_S1024x4096_S256x1024_1_1_0_0_n_n.lhsIdx j k 1).val = (k ⟨0, by decide⟩).val :=
  dot_S256x4096_S1024x4096_S256x1024_1_1_0_0_n_n.lhsIdx_val_of_single rfl j k
/-- … and the right operand's is `(j 1, k)`: both operands are contracted on their last axis. -/
theorem rhs1_0 (j : S256x1024.Idx) (k : dot_S256x4096_S1024x4096_S256x1024_1_1_0_0_n_n.contr.Idx) :
    (dot_S256x4096_S1024x4096_S256x1024_1_1_0_0_n_n.rhsIdx j k 0).val = (j 1).val := by
  unfold DotDims.rhsIdx
  rw [dif_neg (show ¬(0 : Fin S1024x4096.rank) ∈ dot_S256x4096_S1024x4096_S256x1024_1_1_0_0_n_n.rhsBatch by decide), dif_pos (show (0 : Fin S1024x4096.rank) ∈ dot_S256x4096_S1024x4096_S256x1024_1_1_0_0_n_n.rhsNonContracting by decide)]
  rfl
theorem rhs1_1 (j : S256x1024.Idx) (k : dot_S256x4096_S1024x4096_S256x1024_1_1_0_0_n_n.contr.Idx) :
    (dot_S256x4096_S1024x4096_S256x1024_1_1_0_0_n_n.rhsIdx j k 1).val = (k ⟨0, by decide⟩).val :=
  dot_S256x4096_S1024x4096_S256x1024_1_1_0_0_n_n.rhsIdx_val_of_single rfl j k

/-- A product into the zero accumulator at `(p, q)`: row `p` of the left block against row `q` of the right, summed
    over the 4096 features. -/
theorem dot1_apply (a : FVec Ideal S256x4096 .bf16) (w : FVec Ideal S1024x4096 .bf16) (p : Fin 256) (q : Fin 1024) :
    matmul (F := Ideal) dot_S256x4096_S1024x4096_S256x1024_1_1_0_0_n_n none a w (constant (F := Ideal) S256x1024 .f32 0x00000000#32) (ix2 p q)
      = ∑ k : Fin 4096, a (ix2 p k) * w (ix2 q k) := by
  refine (Ideal.matmul_constant_zero_apply dot_S256x4096_S1024x4096_S256x1024_1_1_0_0_n_n none a w (ix2 p q)).trans ?_
  rw [← Equiv.sum_comp (contrEquiv1 dot_S256x4096_S1024x4096_S256x1024_1_1_0_0_n_n 4096 rfl rfl).symm]
  refine Finset.sum_congr rfl fun k _ => ?_
  have hk := contrEquiv1_symm_val dot_S256x4096_S1024x4096_S256x1024_1_1_0_0_n_n 4096 rfl rfl k
  have el : dot_S256x4096_S1024x4096_S256x1024_1_1_0_0_n_n.lhsIdx (ix2 p q) ((contrEquiv1 dot_S256x4096_S1024x4096_S256x1024_1_1_0_0_n_n 4096 rfl rfl).symm k) = ix2 p k := funext fun d => Fin.ext (by
    match d with
    | ⟨0, _⟩ => exact lhs1_0 _ _
    | ⟨1, _⟩ => exact (lhs1_1 _ _).trans hk)
  have er : dot_S256x4096_S1024x4096_S256x1024_1_1_0_0_n_n.rhsIdx (ix2 p q) ((contrEquiv1 dot_S256x4096_S1024x4096_S256x1024_1_1_0_0_n_n 4096 rfl rfl).symm k) = ix2 q k := funext fun d => Fin.ext (by
    match d with
    | ⟨0, _⟩ => exact rhs1_0 _ _
    | ⟨1, _⟩ => exact (rhs1_1 _ _).trans hk)
  rw [el, er]

/-! ## The payload at an index -/

/-- The gated product of three blocks, for any floor `z`: the larger of the first product and `z`, squared, times the second
    product, narrowed. -/
def gated1Of (z : Ideal .f32) (x0 : FVec Ideal S256x4096 .bf16) (x1 x2 : FVec Ideal S1024x4096 .bf16) : FVec Ideal S256x1024 .bf16 :=
  truncf .bf16 (mulf
      (mulf (maximumf (matmul (F := Ideal) dot_S256x4096_S1024x4096_S256x1024_1_1_0_0_n_n none x0 x1 (constant (F := Ideal) S256x1024 .f32 0x00000000#32)) (broadcast S256x1024 z))
        (maximumf (matmul (F := Ideal) dot_S256x4096_S1024x4096_S256x1024_1_1_0_0_n_n none x0 x1 (constant (F := Ideal) S256x1024 .f32 0x00000000#32)) (broadcast S256x1024 z)))
      (matmul (F := Ideal) dot_S256x4096_S1024x4096_S256x1024_1_1_0_0_n_n none x0 x2 (constant (F := Ideal) S256x1024 .f32 0x00000000#32))) bitsLt_bf16_f32

theorem gated1Of_apply (z : Ideal .f32) (x0 : FVec Ideal S256x4096 .bf16) (x1 x2 : FVec Ideal S1024x4096 .bf16) (p : Fin 256) (q : Fin 1024) :
    gated1Of z x0 x1 x2 (ix2 p q)
      = (max (∑ k : Fin 4096, x0 (ix2 p k) * x1 (ix2 q k)) z * max (∑ k : Fin 4096, x0 (ix2 p k) * x1 (ix2 q k)) z)
          * ∑ k : Fin 4096, x0 (ix2 p k) * x2 (ix2 q k) := by
  unfold gated1Of
  rw [truncf_apply, mulf_apply, mulf_apply, maximumf_apply, broadcast_apply, dot1_apply, dot1_apply]

/-- The printed payload is that gated product at the printed zero. -/
theorem pay1_gated (x0 : FVec Ideal S256x4096 .bf16) (x1 x2 : FVec Ideal S1024x4096 .bf16) :
    k1_pay1 (F := Ideal) x0 x1 x2
      = gated1Of (Scalar.ofBits .f32 0x00000000#32) (shapeCast S256x4096 x0 shapeCasts_S256x4096_S256x4096)
          (shapeCast S1024x4096 x1 shapeCasts_S1024x4096_S1024x4096) (shapeCast S1024x4096 x2 shapeCasts_S1024x4096_S1024x4096) := rfl

/-- The stored value at `(p, q)`: the gated product of row `p` of the activation block with rows `q` of the two weight blocks. -/
theorem pay1_apply (x0 : FVec Ideal S256x4096 .bf16) (x1 x2 : FVec Ideal S1024x4096 .bf16) (p : Fin 256) (q : Fin 1024) :
    k1_pay1 (F := Ideal) x0 x1 x2 (ix2 p q)
      = (max (∑ k : Fin 4096, x0 (ix2 p k) * x1 (ix2 q k)) c0 * max (∑ k : Fin 4096, x0 (ix2 p k) * x1 (ix2 q k)) c0)
          * ∑ k : Fin 4096, x0 (ix2 p k) * x2 (ix2 q k) := by
  rw [pay1_gated, shapeCast_self x0, shapeCast_self x1, shapeCast_self x2, gated1Of_apply, scalar_ofBits]

/-- Blocks whose rows `p`, `q`, `q` are rows `r`, `j`, `j` of the arrays store, at `(p, q)`, the region's value at `(r, j)`. -/
theorem blk1_apply (Xq : I4096x4096 → EReal) (Wg Wu : I11264x4096 → EReal)
    (x0 : FVec Ideal S256x4096 .bf16) (x1 x2 : FVec Ideal S1024x4096 .bf16) (r : Fin 4096) (j : Fin 11264) (p : Fin 256) (q : Fin 1024)
    (h0 : ∀ k : Fin 4096, x0 (ix2 p k) = Xq (ix2 r k)) (h1 : ∀ k : Fin 4096, x1 (ix2 q k) = Wg (ix2 j k))
    (h2 : ∀ k : Fin 4096, x2 (ix2 q k) = Wu (ix2 j k)) :
    k1_pay1 (F := Ideal) x0 x1 x2 (ix2 p q) = A1 Xq Wg Wu (ix2 r j) := by
  rw [pay1_apply]
  simp only [h0, h1, h2]
  rfl

/-! ## From blocks to the array -/

theorem hz1 : (![0, 0] : Fin 2 → Nat) = fun _ => 0 := funext fun a => by fin_cases a <;> rfl

/-- The block indices at point `t` = 16 i + s (i the weight block, s the row block): the activations' is `(s, 0)`, the
    two weights' `(i, 0)`, the output's `(s, i)`. -/
theorem idx_facts1 : ∀ t : Fin cfg1.N, win1_0.index t (0 : Fin 2) = t.val % 16 ∧ win1_0.index t (1 : Fin 2) = 0
    ∧ win1_1.index t (0 : Fin 2) = t.val / 16 ∧ win1_1.index t (1 : Fin 2) = 0
    ∧ win1_2.index t (0 : Fin 2) = t.val / 16 ∧ win1_2.index t (1 : Fin 2) = 0
    ∧ win1_3.index t (0 : Fin 2) = t.val % 16 ∧ win1_3.index t (1 : Fin 2) = t.val / 16 :=
  (by decide +kernel : ∀ t : Fin grid1.N, _)

/-- What point `t` writes back is block `t` of the region's value of the three input arrays. -/
theorem flushed1_eq (c : Dev nD) (t : Fin cfg1.N) :
    (dat1 (F := Ideal) V c).flushed 3 t
      = ((cfg1.win 3).blk t).view.read (Elt Ideal) (A1 (V c main_v40) (V c main_v37) (V c main_v38)) := by
  show (cfg1.win 3).cut (grid1.coords t) ((dat1 V c).after 3 t) = _
  rw [after1_3]
  unfold out1_3
  rw [View.canon_unit_zero hz1]
  simp only [View.ld_unit_zero (S := S256x4096) hz1, View.ld_unit_zero (S := S1024x4096) hz1]
  obtain ⟨e0, e1, e2, e3, e4, e5, e6, e7⟩ := idx_facts1 t
  have ht : t.val < 176 := lt_of_lt_of_eq t.isLt N_1
  funext j
  obtain ⟨p, q, rfl⟩ : ∃ (p : Fin 256) (q : Fin 1024), j = ix2 p q := ⟨j 0, j 1, eq_ix2 j⟩
  have hp : p.val < 256 := p.isLt
  have hq : q.val < 1024 := q.isLt
  have hemb : ((cfg1.win 3).blk t).view.emb (ix2 p q)
      = ix2 (⟨t.val % 16 * 256 + p.val, by omega⟩ : Fin 4096) (⟨t.val / 16 * 1024 + q.val, by omega⟩ : Fin 11264) := by
    funext a; apply Fin.ext
    match a with
    | ⟨0, _⟩ => show win1_3.index t (0 : Fin 2) * 256 + 1 * p.val = t.val % 16 * 256 + p.val; omega
    | ⟨1, _⟩ => show win1_3.index t (1 : Fin 2) * 1024 + 1 * q.val = t.val / 16 * 1024 + q.val; omega
  show k1_pay1 (F := Ideal) (iblk1 V c 0 t) (iblk1 V c 1 t) (iblk1 V c 2 t) (ix2 p q)
    = A1 (V c main_v40) (V c main_v37) (V c main_v38) (((cfg1.win 3).blk t).view.emb (ix2 p q))
  rw [hemb]
  refine blk1_apply (V c main_v40) (V c main_v37) (V c main_v38) (iblk1 V c 0 t) (iblk1 V c 1 t) (iblk1 V c 2 t) _ _ p q
    (fun k => ?_) (fun k => ?_) (fun k => ?_)
  · show V c main_v40 (((cfg1.win 0).blk t).view.emb (ix2 p k)) = V c main_v40 (ix2 (⟨t.val % 16 * 256 + p.val, by omega⟩ : Fin 4096) k)
    congr 1
    funext a; apply Fin.ext
    match a with
    | ⟨0, _⟩ => show win1_0.index t (0 : Fin 2) * 256 + 1 * p.val = t.val % 16 * 256 + p.val; omega
    | ⟨1, _⟩ => show win1_0.index t (1 : Fin 2) * 4096 + 1 * k.val = k.val; omega
  · show V c main_v37 (((cfg1.win 1).blk t).view.emb (ix2 q k)) = V c main_v37 (ix2 (⟨t.val / 16 * 1024 + q.val, by omega⟩ : Fin 11264) k)
    congr 1
    funext a; apply Fin.ext
    match a with
    | ⟨0, _⟩ => show win1_1.index t (0 : Fin 2) * 1024 + 1 * q.val = t.val / 16 * 1024 + q.val; omega
    | ⟨1, _⟩ => show win1_1.index t (1 : Fin 2) * 4096 + 1 * k.val = k.val; omega
  · show V c main_v38 (((cfg1.win 2).blk t).view.emb (ix2 q k)) = V c main_v38 (ix2 (⟨t.val / 16 * 1024 + q.val, by omega⟩ : Fin 11264) k)
    congr 1
    funext a; apply Fin.ext
    match a with
    | ⟨0, _⟩ => show win1_2.index t (0 : Fin 2) * 1024 + 1 * q.val = t.val / 16 * 1024 + q.val; omega
    | ⟨1, _⟩ => show win1_2.index t (1 : Fin 2) * 4096 + 1 * k.val = k.val; omega

/-- An index of the output array is in point `t`'s block iff each coordinate is in the block's range on its axis. -/
theorem mem_blk1 (t : Fin cfg1.N) (i : S4096x11264.Idx) :
    i ∈ ((cfg1.win 3).blk t).view.set ↔ ∀ a : Fin 2, win1_3.index t a * S256x1024.size a ≤ (i a).val ∧ (i a).val < win1_3.index t a * S256x1024.size a + S256x1024.size a := by
  show i ∈ ((View.whole main_v41).slice (win1_3.rect t)).set ↔ _
  rw [View.set_slice_whole, Rect.mem_set_unit]
  exact Iff.rfl

/-- Every index `(r, j)` of the output array is in the block of point `16 (j / 1024) + r / 256`. -/
theorem cover1 (i : S4096x11264.Idx) : ∃ t : Fin cfg1.N, (cfg1.win 3).flush t = true ∧ i ∈ ((cfg1.win 3).blk t).view.set := by
  have hi0 : (i 0).val < 4096 := (i 0).isLt
  have hi1 : (i 1).val < 11264 := (i 1).isLt
  obtain ⟨t, ht⟩ : ∃ t : Fin cfg1.N, t.val = (i 1).val / 1024 * 16 + (i 0).val / 256 :=
    ⟨⟨(i 1).val / 1024 * 16 + (i 0).val / 256, lt_of_lt_of_eq (by omega : (i 1).val / 1024 * 16 + (i 0).val / 256 < 176) N_1.symm⟩, rfl⟩
  obtain ⟨e0, e1, e2, e3, e4, e5, e6, e7⟩ := idx_facts1 t
  refine ⟨t, flush1_3 t, ?_⟩
  rw [mem_blk1]
  intro a
  match a with
  | ⟨0, _⟩ => show win1_3.index t (0 : Fin 2) * 256 ≤ (i 0).val ∧ (i 0).val < win1_3.index t (0 : Fin 2) * 256 + 256; omega
  | ⟨1, _⟩ => show win1_3.index t (1 : Fin 2) * 1024 ≤ (i 1).val ∧ (i 1).val < win1_3.index t (1 : Fin 2) * 1024 + 1024; omega

/-- The output array after the region: the region's value of the three input arrays, everywhere. -/
theorem final1 (c : Dev nD) : (dat1 (F := Ideal) V c).arrAt 3 cfg1.N = A1 (V c main_v40) (V c main_v37) (V c main_v38) :=
  (dat1 V c).arrAt_eq_of_cover 3 _ (fun t _ => flushed1_eq V c t) cover1

end Cert.KernelIdeal.Val

end
-- ==== Proof.KI.Val2.lean ====
/-
  Region 2 on the extended reals: after its sixteen grid points the output column holds, at every row, the row's
  scale — 127 over the larger of the row's largest absolute value and ε. A grid point's block is 256 whole rows of all
  11264 columns, so a row's largest absolute value over the block's columns is the row's over the array.
-/
import proofs.«139580_j65773129171180_2_alg».proof.Proof.KI.R2
import proofs.«139580_j65773129171180_2_alg».proof.Proof.RegionSpec
import proofs.«139580_j65773129171180_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open Cert.Spec Cert.RegionSpec Cert.LibKeepdims

variable (V : (c : Dev nD) → (b : Ref sig .tc) → Buf (Elt Ideal) ((c : Thread nD τ).loc b))

/-- The specification's two scalar definitions, unfolded once. -/
private theorem aq_def (x s : EReal) : aq x s = Ideal.div (min c127 (max cm128 (rnd (x * s)))) s := rfl
private theorem ascale_def (a : EReal) : ascale a = Ideal.div c127 (max a eps) := rfl

/-! ## The payload at an index -/
/-- The fold of `max` over a row of absolute values, started from the word that encodes `-∞`, is the row's largest
    absolute value. -/
theorem rowfold2 (x0 : FVec Ideal S256x11264 .bf16) (p : Fin 256) :
    (Finset.univ : Finset (Fin 11264)).fold max (Ideal.ofBits .bf16 0xFF80#16) (fun k => absf x0 (ix2 p k))
      = fmax fun k : Fin 11264 => eabs (x0 (ix2 p k)) := by
  rw [negInf_bf16]
  exact Finset.fold_congr (fun k _ => rfl)

/-- Row `p`'s largest absolute value over the block's 11264 columns, as the reduction computes it from `-∞`. -/
theorem rowmax2 (x0 : FVec Ideal S256x11264 .bf16) (p : Fin 256) :
    multiReduction .maximumf [1] S256 (absf x0) 0xFF80#16 reduces_S256x11264_S256 (.inr rfl) rfl (ix1 p)
      = fmax fun k : Fin 11264 => eabs (x0 (ix2 p k)) :=
  (rowMax_apply (absf x0) 0xFF80#16 reduces_S256x11264_S256 (.inr rfl) rfl p).trans (rowfold2 x0 p)

/-- The column of row scales the kernel computes from a block, for any numerator `c` and floor `e`. -/
def scales2Of (c e : Ideal .f32) (x : FVec Ideal S256x11264 .bf16) : FVec Ideal S256x1 .f32 :=
  divf (broadcast S256x1 c)
    (maximumf (extf .f32 (shapeCast S256x1 (multiReduction .maximumf [1] S256 (absf x) 0xFF80#16 reduces_S256x11264_S256 (.inr rfl) rfl) shapeCasts_S256_S256x1) bitsLt_bf16_f32)
      (broadcast S256x1 e))

/-- Row `p`'s scale. -/
theorem scales2Of_apply (c e : Ideal .f32) (x : FVec Ideal S256x11264 .bf16) (p : Fin 256) (u : Fin 1) :
    scales2Of c e x (ix2 p u) = Ideal.div c (max (fmax fun k : Fin 11264 => eabs (x (ix2 p k))) e) := by
  unfold scales2Of
  rw [divf_apply, broadcast_apply, maximumf_apply, broadcast_apply, extf_apply, shapeCast_a_a1_apply, rowmax2]

/-- The printed payload is that column at the printed constants. -/
theorem pay2_scales (x0 : FVec Ideal S256x11264 .bf16) :
    k2_pay1 (F := Ideal) x0
      = scales2Of (Scalar.ofBits .f32 0x42FE0000#32) (Scalar.ofBits .f32 0x3727C5AC#32) (shapeCast S256x11264 x0 shapeCasts_S256x11264_S256x11264) := rfl

/-- The stored value at row `p` of the one column: row `p`'s scale. -/
theorem pay2_apply (x0 : FVec Ideal S256x11264 .bf16) (p : Fin 256) (u : Fin 1) :
    k2_pay1 (F := Ideal) x0 (ix2 p u) = ascale (fmax fun k : Fin 11264 => eabs (x0 (ix2 p k))) := by
  rw [ascale_def, pay2_scales, shapeCast_self x0, scales2Of_apply, scalar_ofBits, scalar_ofBits]

/-- A block whose row `p` is row `r` of the array `X` stores, at row `p`, the region's value of `X` at row `r`. -/
theorem blk2_apply (X : I4096x11264 → EReal) (x0 : FVec Ideal S256x11264 .bf16) (r : Fin 4096) (p : Fin 256) (u : Fin 1)
    (hx : ∀ k : Fin 11264, x0 (ix2 p k) = X (ix2 r k)) :
    k2_pay1 (F := Ideal) x0 (ix2 p u) = A2 X (ix2 r u) := by
  rw [pay2_apply]
  simp only [hx]
  rfl

/-! ## From blocks to the array -/

theorem hz2 : (![0, 0] : Fin 2 → Nat) = fun _ => 0 := funext fun a => by fin_cases a <;> rfl

/-- Both windows' block index at point `t` is `(t, 0)`: block `t` is rows `256 t … 256 t + 255`, all columns. -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0 :=
  (by decide +kernel : ∀ t : Fin grid2.N, _)

/-- What point `t` writes back is block `t` of the region's value of the input array. -/
theorem flushed2_eq (c : Dev nD) (t : Fin cfg2.N) :
    (dat2 (F := Ideal) V c).flushed 1 t = ((cfg2.win 1).blk t).view.read (Elt Ideal) (A2 (V c main_v41)) := by
  show (cfg2.win 1).cut (grid2.coords t) ((dat2 V c).after 1 t) = _
  rw [after2_1]
  unfold out2_1
  rw [View.canon_unit_zero hz2]
  simp only [View.ld_unit_zero (S := S256x11264) hz2]
  obtain ⟨e0, e1, e2, e3⟩ := idx_facts2 t
  have ht : t.val < 16 := lt_of_lt_of_eq t.isLt N_2
  funext j
  obtain ⟨p, u, rfl⟩ : ∃ (p : Fin 256) (u : Fin 1), j = ix2 p u := ⟨j 0, j 1, eq_ix2 j⟩
  have hp : p.val < 256 := p.isLt
  have hu : u.val < 1 := u.isLt
  have hemb : ((cfg2.win 1).blk t).view.emb (ix2 p u) = ix2 (⟨t.val * 256 + p.val, by omega⟩ : Fin 4096) u := by
    funext a; apply Fin.ext
    match a with
    | ⟨0, _⟩ => show win2_1.index t (0 : Fin 2) * 256 + 1 * p.val = t.val * 256 + p.val; omega
    | ⟨1, _⟩ => show win2_1.index t (1 : Fin 2) * 1 + 1 * u.val = u.val; omega
  show k2_pay1 (F := Ideal) (iblk2 V c 0 t) (ix2 p u) = A2 (V c main_v41) (((cfg2.win 1).blk t).view.emb (ix2 p u))
  rw [hemb]
  refine blk2_apply (V c main_v41) (iblk2 V c 0 t) _ p u fun k => ?_
  show V c main_v41 (((cfg2.win 0).blk t).view.emb (ix2 p k)) = V c main_v41 (ix2 (⟨t.val * 256 + p.val, by omega⟩ : Fin 4096) k)
  congr 1
  funext a; apply Fin.ext
  match a with
  | ⟨0, _⟩ => show win2_0.index t (0 : Fin 2) * 256 + 1 * p.val = t.val * 256 + p.val; omega
  | ⟨1, _⟩ => show win2_0.index t (1 : Fin 2) * 11264 + 1 * k.val = k.val; omega

/-- An index of the output column is in point `t`'s block iff each coordinate is in the block's range on its axis. -/
theorem mem_blk2 (t : Fin cfg2.N) (i : S4096x1.Idx) :
    i ∈ ((cfg2.win 1).blk t).view.set ↔ ∀ a : Fin 2, win2_1.index t a * S256x1.size a ≤ (i a).val ∧ (i a).val < win2_1.index t a * S256x1.size a + S256x1.size a := by
  show i ∈ ((View.whole main_v42).slice (win2_1.rect t)).set ↔ _
  rw [View.set_slice_whole, Rect.mem_set_unit]
  exact Iff.rfl

/-- Every index of the output column is in the block of the point that holds its row: point `row / 256`. -/
theorem cover2 (i : S4096x1.Idx) : ∃ t : Fin cfg2.N, (cfg2.win 1).flush t = true ∧ i ∈ ((cfg2.win 1).blk t).view.set := by
  have hi0 : (i 0).val < 4096 := (i 0).isLt
  have hi1 : (i 1).val < 1 := (i 1).isLt
  obtain ⟨t, ht⟩ : ∃ t : Fin cfg2.N, t.val = (i 0).val / 256 :=
    ⟨⟨(i 0).val / 256, lt_of_lt_of_eq (by omega : (i 0).val / 256 < 16) N_2.symm⟩, rfl⟩
  obtain ⟨e0, e1, e2, e3⟩ := idx_facts2 t
  refine ⟨t, flush2_1 t, ?_⟩
  rw [mem_blk2]
  intro a
  match a with
  | ⟨0, _⟩ => show win2_1.index t (0 : Fin 2) * 256 ≤ (i 0).val ∧ (i 0).val < win2_1.index t (0 : Fin 2) * 256 + 256; omega
  | ⟨1, _⟩ => show win2_1.index t (1 : Fin 2) * 1 ≤ (i 1).val ∧ (i 1).val < win2_1.index t (1 : Fin 2) * 1 + 1; omega

/-- The output column after the region: the region's value of the input array, at every row. -/
theorem final2 (c : Dev nD) : (dat2 (F := Ideal) V c).arrAt 1 cfg2.N = A2 (V c main_v41) :=
  (dat2 V c).arrAt_eq_of_cover 1 _ (fun t _ => flushed2_eq V c t) cover2

end Cert.KernelIdeal.Val

end
-- ==== Proof.KI.Val3Pay.lean ====
/-
  Region 3's two stored values at one index, on the extended reals. The zero block is 0 everywhere. One accumulation
  step stores, at `(p, q)`, the accumulator's entry plus the product of row `p` of the activation block — each entry
  put on the 8-bit grid of row `p`'s scale — with row `q` of the weight block, over the block's 512 columns.
-/
import proofs.«139580_j65773129171180_2_alg».proof.Proof.Gen.KernelIdeal.Skeleton
import proofs.«139580_j65773129171180_2_alg».proof.Proof.RegionSpec
import proofs.«139580_j65773129171180_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen
open Idealize.ShloMosaic Idealize.ShloMosaic.ValueIdx
open Cert.Spec Cert.RegionSpec Cert.LibKeepdims

/-! ## The product at an index -/

/-- The left operand's index at output index `j` and contraction position `k` is `(j 0, k)` … -/
theorem lhs3_0 (j : S1024x1024.Idx) (k : dot_S1024x512_S1024x512_S1024x1024_1_1_0_0_n_n.contr.Idx) :
    (dot_S1024x512_S1024x512_S1024x1024_1_1_0_0_n_n.lhsIdx j k 0).val = (j 0).val := by
  unfold DotDims.lhsIdx
  rw [dif_neg (show ¬(0 : Fin S1024x512.rank) ∈ dot_S1024x512_S1024x512_S1024x1024_1_1_0_0_n_n.lhsBatch by decide), dif_pos (show (0 : Fin S1024x512.rank) ∈ dot_S1024x512_S1024x512_S1024x1024_1_1_0_0_n_n.lhsNonContracting by decide)]
  rfl
theorem lhs3_1 (j : S1024x1024.Idx) (k : dot_S1024x512_S1024x512_S1024x1024_1_1_0_0_n_n.contr.Idx) :
    (dot_S1024x512_S1024x512_S1024x1024_1_1_0_0_n_n.lhsIdx j k 1).val = (k ⟨0, by decide⟩).val :=
  dot_S1024x512_S1024x512_S1024x1024_1_1_0_0_n_n.lhsIdx_val_of_single rfl j k
/-- … and the right operand's is `(j 1, k)`: both operands are contracted on their last axis. -/
theorem rhs3_0 (j : S1024x1024.Idx) (k : dot_S1024x512_S1024x512_S1024x1024_1_1_0_0_n_n.contr.Idx) :
    (dot_S1024x512_S1024x512_S1024x1024_1_1_0_0_n_n.rhsIdx j k 0).val = (j 1).val := by
  unfold DotDims.rhsIdx
  rw [dif_neg (show ¬(0 : Fin S1024x512.rank) ∈ dot_S1024x512_S1024x512_S1024x1024_1_1_0_0_n_n.rhsBatch by decide), dif_pos (show (0 : Fin S1024x512.rank) ∈ dot_S1024x512_S1024x512_S1024x1024_1_1_0_0_n_n.rhsNonContracting by decide)]
  rfl
theorem rhs3_1 (j : S1024x1024.Idx) (k : dot_S1024x512_S1024x512_S1024x1024_1_1_0_0_n_n.contr.Idx) :
    (dot_S1024x512_S1024x512_S1024x1024_1_1_0_0_n_n.rhsIdx j k 1).val = (k ⟨0, by decide⟩).val :=
  dot_S1024x512_S1024x512_S1024x1024_1_1_0_0_n_n.rhsIdx_val_of_single rfl j k

/-- A product into the zero accumulator at `(p, q)`: row `p` of the left block against row `q` of the right, summed
    over the block's 512 columns. -/
theorem dot3_apply (a : FVec Ideal S1024x512 .bf16) (w : FVec Ideal S1024x512 .bf16) (p q : Fin 1024) :
    matmul (F := Ideal) dot_S1024x512_S1024x512_S1024x1024_1_1_0_0_n_n none a w (constant (F := Ideal) S1024x1024 .f32 0x00000000#32) (ix2 p q)
      = ∑ k : Fin 512, a (ix2 p k) * w (ix2 q k) := by
  refine (Ideal.matmul_constant_zero_apply dot_S1024x512_S1024x512_S1024x1024_1_1_0_0_n_n none a w (ix2 p q)).trans ?_
  rw [← Equiv.sum_comp (contrEquiv1 dot_S1024x512_S1024x512_S1024x1024_1_1_0_0_n_n 512 rfl rfl).symm]
  refine Finset.sum_congr rfl fun k _ => ?_
  have hk := contrEquiv1_symm_val dot_S1024x512_S1024x512_S1024x1024_1_1_0_0_n_n 512 rfl rfl k
  have el : dot_S1024x512_S1024x512_S1024x1024_1_1_0_0_n_n.lhsIdx (ix2 p q) ((contrEquiv1 dot_S1024x512_S1024x512_S1024x1024_1_1_0_0_n_n 512 rfl rfl).symm k) = ix2 p k := funext fun d => Fin.ext (by
    match d with
    | ⟨0, _⟩ => exact lhs3_0 _ _
    | ⟨1, _⟩ => exact (lhs3_1 _ _).trans hk)
  have er : dot_S1024x512_S1024x512_S1024x1024_1_1_0_0_n_n.rhsIdx (ix2 p q) ((contrEquiv1 dot_S1024x512_S1024x512_S1024x1024_1_1_0_0_n_n 512 rfl rfl).symm k) = ix2 q k := funext fun d => Fin.ext (by
    match d with
    | ⟨0, _⟩ => exact rhs3_0 _ _
    | ⟨1, _⟩ => exact (rhs3_1 _ _).trans hk)
  rw [el, er]

/-! ## The payloads at an index -/

/-- The zero block is 0 at every index. -/
theorem zero3_apply (p q : Fin 1024) : k3_pay1 (F := Ideal) (ix2 p q) = c0 := by
  unfold k3_pay1
  simp only [shapeCast_self, broadcast_apply]
  rfl

/-- One accumulation step at `(p, q)`: the accumulator's entry plus, over the block's 512 columns, row `p` of the
    activation block on the 8-bit grid of row `p`'s scale times row `q` of the weight block. -/
theorem pay3_apply (x0 : FVec Ideal S1024x512 .bf16) (x1 : FVec Ideal S1024x1 .f32) (x2 : FVec Ideal S1024x512 .bf16)
    (s : FVec Ideal S1024x1024 .f32) (p q : Fin 1024) :
    k3_pay2 (F := Ideal) x0 x1 x2 s (ix2 p q)
      = s (ix2 p q) + ∑ kk : Fin 512, aq (x0 (ix2 p kk)) (x1 (ix2 p (0 : Fin 1))) * x2 (ix2 q kk) := by
  unfold k3_pay2
  simp only [shapeCast_self, addf_apply, dot3_apply, truncf_apply, extf_apply, divf_apply, minimumf_apply, maximumf_apply,
    mulf_apply, broadcast_apply, roundeven_apply, broadcastTo_a1_ab_apply]
  rfl

/-- Blocks whose rows `p`, `p`, `q` are row `r` of the activations (columns of block `kb`), row `r` of the scales
    and row `o` of the weights (columns of block `kb`) add, at `(p, q)`, block `kb`'s contribution to entry `(r, o)`. -/
theorem blk3_apply (H : I4096x11264 → EReal) (S : I4096x1 → EReal) (W : I4096x11264 → EReal)
    (x0 : FVec Ideal S1024x512 .bf16) (x1 : FVec Ideal S1024x1 .f32) (x2 : FVec Ideal S1024x512 .bf16)
    (s : FVec Ideal S1024x1024 .f32) (r o : Fin 4096) (kb : Fin 22) (p q : Fin 1024)
    (h0 : ∀ kk : Fin 512, x0 (ix2 p kk) = H (ix2 r ⟨kb.val * 512 + kk.val, by omega⟩))
    (h1 : x1 (ix2 p (0 : Fin 1)) = S (ix2 r 0))
    (h2 : ∀ kk : Fin 512, x2 (ix2 q kk) = W (ix2 o ⟨kb.val * 512 + kk.val, by omega⟩)) :
    k3_pay2 (F := Ideal) x0 x1 x2 s (ix2 p q) = s (ix2 p q) + blockSum H S W r o kb := by
  rw [pay3_apply]
  simp only [h0, h1, h2]
  rfl

end Cert.KernelIdeal.Val

end
-- ==== Proof.KI.Val3.lean ====
/-
  Region 3 on the extended reals: after its 4 x 4 x 22 grid points the output array holds, at every index `(r, o)`,
  the running total over the 22 column blocks of row `r` of the activations, put on the 8-bit grid of the row's scale,
  against row `o` of the weights. A grid point `t = 88 m + 22 h + k` reads rows `1024 m …` and columns `512 k …` of
  the activations, rows `1024 m …` of the scales, rows `1024 h …` and columns `512 k …` of the weights; the
  accumulator is zeroed at `k = 0`, takes one block's sum per point, and is written to rows `1024 m …`, columns
  `1024 h …` of the output at `k = 21`.
-/
import proofs.«139580_j65773129171180_2_alg».proof.Proof.KI.R3
import proofs.«139580_j65773129171180_2_alg».proof.Proof.KI.Val3Pay

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open Cert.Spec Cert.RegionSpec Cert.LibKeepdims

variable (V : (c : Dev nD) → (b : Ref sig .tc) → Buf (Elt Ideal) ((c : Thread nD τ).loc b))

/-! ## The blocks a point reads -/

/-- The block indices at point `t = 88 m + 22 h + k`: the activations' is `(m, k)`, the scales' `(m, 0)`, the
    weights' `(h, k)`, the output's `(m, h)`. -/
theorem idx_facts3 : ∀ t : Fin cfg3.N, win3_0.index t (0 : Fin 2) = t.val / 88 ∧ win3_0.index t (1 : Fin 2) = t.val % 22
    ∧ win3_1.index t (0 : Fin 2) = t.val / 88 ∧ win3_1.index t (1 : Fin 2) = 0
    ∧ win3_2.index t (0 : Fin 2) = t.val / 22 % 4 ∧ win3_2.index t (1 : Fin 2) = t.val % 22
    ∧ win3_3.index t (0 : Fin 2) = t.val / 88 ∧ win3_3.index t (1 : Fin 2) = t.val / 22 % 4 :=
  (by decide +kernel : ∀ t : Fin grid3.N, _)

/-- One accumulation step at point `t`, at `(p, q)`: the accumulator's entry plus block `k`'s contribution to entry
    `(r, o)` of the product, `r` and `o` the array rows that the blocks' rows `p` and `q` are. -/
theorem step3_apply (c : Dev nD) (t : Fin cfg3.N) (s : FVec Ideal S1024x1024 .f32) (p q : Fin 1024)
    (r o : Fin 4096) (kb : Fin 22)
    (hr : r.val = t.val / 88 * 1024 + p.val) (ho : o.val = t.val / 22 % 4 * 1024 + q.val) (hk : kb.val = t.val % 22) :
    step3 V c t s (ix2 p q) = s (ix2 p q) + blockSum (V c main_v41) (V c main_v42) (V c main_v39) r o kb := by
  obtain ⟨e0, e1, e2, e3, e4, e5, e6, e7⟩ := idx_facts3 t
  have ht : t.val < 352 := lt_of_lt_of_eq t.isLt N_3
  have hp : p.val < 1024 := p.isLt
  have hq : q.val < 1024 := q.isLt
  unfold step3
  refine blk3_apply (V c main_v41) (V c main_v42) (V c main_v39) (iblk3 V c 0 t) (iblk3 V c 1 t) (iblk3 V c 2 t) s r o kb p q
    (fun kk => ?_) ?_ (fun kk => ?_)
  · show V c main_v41 (((cfg3.win 0).blk t).view.emb (ix2 p kk)) = V c main_v41 (ix2 r (⟨kb.val * 512 + kk.val, by omega⟩ : Fin 11264))
    congr 1
    funext a; apply Fin.ext
    match a with
    | ⟨0, _⟩ => show win3_0.index t (0 : Fin 2) * 1024 + 1 * p.val = r.val; omega
    | ⟨1, _⟩ => show win3_0.index t (1 : Fin 2) * 512 + 1 * kk.val = kb.val * 512 + kk.val; omega
  · show V c main_v42 (((cfg3.win 1).blk t).view.emb (ix2 p (0 : Fin 1))) = V c main_v42 (ix2 r (0 : Fin 1))
    congr 1
    funext a; apply Fin.ext
    match a with
    | ⟨0, _⟩ => show win3_1.index t (0 : Fin 2) * 1024 + 1 * p.val = r.val; omega
    | ⟨1, _⟩ => show win3_1.index t (1 : Fin 2) * 1 + 1 * 0 = 0; omega
  · show V c main_v39 (((cfg3.win 2).blk t).view.emb (ix2 q kk)) = V c main_v39 (ix2 o (⟨kb.val * 512 + kk.val, by omega⟩ : Fin 11264))
    congr 1
    funext a; apply Fin.ext
    match a with
    | ⟨0, _⟩ => show win3_2.index t (0 : Fin 2) * 1024 + 1 * q.val = o.val; omega
    | ⟨1, _⟩ => show win3_2.index t (1 : Fin 2) * 512 + 1 * kk.val = kb.val * 512 + kk.val; omega

/-! ## The accumulator is the running total -/

theorem acc3_congr (c : Dev nD) {n n' : ℕ} (e : n = n') (h : n < cfg3.N) (h' : n' < cfg3.N) :
    acc3 V c n h = acc3 V c n' h' := by subst e; rfl

/-- Within the group of 22 points `22 g … 22 g + 21` (one block of output rows and columns, `g = 4 m + h`), after the
    point with reduction index `k` the accumulator holds, at `(p, q)`, the running total of blocks `0 … k` for entry
    `(r, o)` — by induction on `k`: zeroed and one block added at `k = 0`, one more block added at each later point. -/
theorem acc3_group (c : Dev nD) (g : ℕ) (hg : g < 16) (p q : Fin 1024) (r o : Fin 4096)
    (hr : r.val = g / 4 * 1024 + p.val) (ho : o.val = g % 4 * 1024 + q.val) :
    ∀ (k : ℕ) (hk : k < 22) (hn : g * 22 + k < cfg3.N),
      acc3 V c (g * 22 + k) hn (ix2 p q) = runTotal (blockSum (V c main_v41) (V c main_v42) (V c main_v39) r o) k hk := by
  intro k
  induction k with
  | zero =>
    intro hk hn
    have e1 : acc3 V c (g * 22 + 0) hn = step3 V c ⟨g * 22 + 0, hn⟩ (k3_pay1 (F := Ideal)) :=
      acc3_first V c ⟨g * 22 + 0, hn⟩ (by show (g * 22 + 0) % 22 = 0; omega)
    rw [e1, step3_apply V c ⟨g * 22 + 0, hn⟩ (k3_pay1 (F := Ideal)) p q r o ⟨0, hk⟩
      (by show r.val = (g * 22 + 0) / 88 * 1024 + p.val; omega) (by show o.val = (g * 22 + 0) / 22 % 4 * 1024 + q.val; omega)
      (by show 0 = (g * 22 + 0) % 22; omega), zero3_apply]
    rfl
  | succ k ih =>
    intro hk hn
    have hN : cfg3.N = 352 := N_3
    have hn' : g * 22 + k < cfg3.N := by omega
    have e1 : acc3 V c (g * 22 + (k + 1)) hn
        = step3 V c ⟨g * 22 + (k + 1), hn⟩ (acc3 V c (g * 22 + (k + 1) - 1) (Nat.lt_of_le_of_lt (Nat.sub_le _ _) hn)) :=
      acc3_next V c ⟨g * 22 + (k + 1), hn⟩ (by show ¬(g * 22 + (k + 1)) % 22 = 0; omega)
    rw [e1, step3_apply V c ⟨g * 22 + (k + 1), hn⟩ _ p q r o ⟨k + 1, hk⟩
      (by show r.val = (g * 22 + (k + 1)) / 88 * 1024 + p.val; omega) (by show o.val = (g * 22 + (k + 1)) / 22 % 4 * 1024 + q.val; omega)
      (by show k + 1 = (g * 22 + (k + 1)) % 22; omega),
      acc3_congr V c (show g * 22 + (k + 1) - 1 = g * 22 + k by omega) _ hn', ih (by omega) hn']
    rfl

/-! ## From blocks to the array -/

/-- What a point whose reduction index is the last writes back is its block of the region's value of the three arrays. -/
theorem flushed3_eq (c : Dev nD) (t : Fin cfg3.N) (hf : (cfg3.win 3).flush t = true) :
    (dat3 (F := Ideal) V c).flushed 3 t
      = ((cfg3.win 3).blk t).view.read (Elt Ideal) (A3 (V c main_v41) (V c main_v42) (V c main_v39)) := by
  have h21 : t.val % 22 = 21 := (flush3_3 t).mp hf
  show (cfg3.win 3).cut (grid3.coords t) ((dat3 V c).after 3 t) = _
  rw [after3_3_of_last V c t h21]
  obtain ⟨e0, e1, e2, e3, e4, e5, e6, e7⟩ := idx_facts3 t
  have ht : t.val < 352 := lt_of_lt_of_eq t.isLt N_3
  have hN : cfg3.N = 352 := N_3
  funext j
  obtain ⟨p, q, rfl⟩ : ∃ (p : Fin 1024) (q : Fin 1024), j = ix2 p q := ⟨j 0, j 1, eq_ix2 j⟩
  have hp : p.val < 1024 := p.isLt
  have hq : q.val < 1024 := q.isLt
  have hemb : ((cfg3.win 3).blk t).view.emb (ix2 p q)
      = ix2 (⟨t.val / 88 * 1024 + p.val, by omega⟩ : Fin 4096) (⟨t.val / 22 % 4 * 1024 + q.val, by omega⟩ : Fin 4096) := by
    funext a; apply Fin.ext
    match a with
    | ⟨0, _⟩ => show win3_3.index t (0 : Fin 2) * 1024 + 1 * p.val = t.val / 88 * 1024 + p.val; omega
    | ⟨1, _⟩ => show win3_3.index t (1 : Fin 2) * 1024 + 1 * q.val = t.val / 22 % 4 * 1024 + q.val; omega
  show acc3 V c t.val t.isLt (ix2 p q) = A3 (V c main_v41) (V c main_v42) (V c main_v39) (((cfg3.win 3).blk t).view.emb (ix2 p q))
  rw [hemb, acc3_congr V c (show t.val = t.val / 22 * 22 + 21 by omega) t.isLt (by omega),
    acc3_group V c (t.val / 22) (by omega) p q (⟨t.val / 88 * 1024 + p.val, by omega⟩ : Fin 4096)
      (⟨t.val / 22 % 4 * 1024 + q.val, by omega⟩ : Fin 4096)
      (by show t.val / 88 * 1024 + p.val = t.val / 22 / 4 * 1024 + p.val; omega)
      (by show t.val / 22 % 4 * 1024 + q.val = t.val / 22 % 4 * 1024 + q.val; rfl) 21 (by omega) (by omega)]
  rfl

/-- An index of the output array is in point `t`'s block iff each coordinate is in the block's range on its axis. -/
theorem mem_blk3 (t : Fin cfg3.N) (i : S4096x4096.Idx) :
    i ∈ ((cfg3.win 3).blk t).view.set ↔ ∀ a : Fin 2, win3_3.index t a * S1024x1024.size a ≤ (i a).val ∧ (i a).val < win3_3.index t a * S1024x1024.size a + S1024x1024.size a := by
  show i ∈ ((View.whole main_v43).slice (win3_3.rect t)).set ↔ _
  rw [View.set_slice_whole, Rect.mem_set_unit]
  exact Iff.rfl

/-- Every index `(r, o)` of the output array is in the block written back at point `88 (r / 1024) + 22 (o / 1024) + 21`. -/
theorem cover3 (i : S4096x4096.Idx) : ∃ t : Fin cfg3.N, (cfg3.win 3).flush t = true ∧ i ∈ ((cfg3.win 3).blk t).view.set := by
  have hi0 : (i 0).val < 4096 := (i 0).isLt
  have hi1 : (i 1).val < 4096 := (i 1).isLt
  obtain ⟨t, ht⟩ : ∃ t : Fin cfg3.N, t.val = (i 0).val / 1024 * 88 + (i 1).val / 1024 * 22 + 21 :=
    ⟨⟨(i 0).val / 1024 * 88 + (i 1).val / 1024 * 22 + 21, lt_of_lt_of_eq (by omega : (i 0).val / 1024 * 88 + (i 1).val / 1024 * 22 + 21 < 352) N_3.symm⟩, rfl⟩
  obtain ⟨e0, e1, e2, e3, e4, e5, e6, e7⟩ := idx_facts3 t
  refine ⟨t, (flush3_3 t).mpr (by omega), ?_⟩
  rw [mem_blk3]
  intro a
  match a with
  | ⟨0, _⟩ => show win3_3.index t (0 : Fin 2) * 1024 ≤ (i 0).val ∧ (i 0).val < win3_3.index t (0 : Fin 2) * 1024 + 1024; omega
  | ⟨1, _⟩ => show win3_3.index t (1 : Fin 2) * 1024 ≤ (i 1).val ∧ (i 1).val < win3_3.index t (1 : Fin 2) * 1024 + 1024; omega

/-- The output array after the region: the region's value of the three input arrays, everywhere. -/
theorem final3 (c : Dev nD) : (dat3 (F := Ideal) V c).arrAt 3 cfg3.N = A3 (V c main_v41) (V c main_v42) (V c main_v39) :=
  (dat3 V c).arrAt_eq_of_cover 3 _ (fun t hf => flushed3_eq V c t hf) cover3

end Cert.KernelIdeal.Val

end
-- ==== Proof.KI.HostDefs.lean ====
/-
  The host side of the program as functions of a weight matrix: its one scale `1 / max (mean |w|) ε` (the mean the
  sum of the absolute values, from 0, over the entry count), the matrix on the ternary grid of that scale
  (`clamp (round (w · scale)) / scale`, the clamp to [-1, 1]), and the zero rows (gate, up) or zero columns (down)
  appended from 11008 to 11264 — once for the gate/up shape 11008 x 4096, once for the down shape 4096 x 11008.
-/
import proofs.«139580_j65773129171180_2_alg».proof.Proof.Gen.KernelIdeal.Regions
import Idealize.ShloMosaic.Lib.StableHlo.Run

set_option maxRecDepth 16384

noncomputable section

namespace Cert.KernelIdeal.Val

open Cert.KernelIdeal Cert.KernelIdeal.Gen
open Idealize.ShloMosaic Idealize.ShloMosaic.TcCoe Idealize.SL.Sem Idealize.ShloMosaic.StableHlo

variable {F : FTy → Type} [FloatOps F]

/-- The one scale of a gate/up-shaped matrix. -/
def wscA (w : (⟨S11008x4096, .f32⟩ : BufTy).Contents (Elt F)) : (⟨S_, .f32⟩ : BufTy).Contents (Elt F) :=
  Host.divf (constant S_ .f32 0x3F800000#32)
    (maximumf (Host.divf (Host.reduceAdd (Host.absf w) (constant S_ .f32 0x00000000#32) reducesTo_S11008x4096_S_d0_1 h_S_)
      (constant S_ .f32 0x4C2C0000#32)) (constant S_ .f32 0x3727C5AC#32))

/-- The matrix on the ternary grid of that scale. -/
def wqA (w : (⟨S11008x4096, .f32⟩ : BufTy).Contents (Elt F)) : (⟨S11008x4096, .bf16⟩ : BufTy).Contents (Elt F) :=
  truncf .bf16 (Host.divf
    (minimumf (broadcastInDim S11008x4096 ![] bcast_S_S11008x4096 (id (constant S_ .f32 0x3F800000#32)))
      (maximumf (broadcastInDim S11008x4096 ![] bcast_S_S11008x4096 (id (constant S_ .f32 0xBF800000#32)))
        (Host.roundeven (mulf w (broadcastInDim S11008x4096 ![] bcast_S_S11008x4096 (wscA w))))))
    (broadcastInDim S11008x4096 ![] bcast_S_S11008x4096 (wscA w))) bitsLt_bf16_f32

/-- Zero rows appended, from 11008 to 11264. -/
def padA (v : (⟨S11008x4096, .bf16⟩ : BufTy).Contents (Elt F)) : (⟨S11264x4096, .bf16⟩ : BufTy).Contents (Elt F) :=
  pad S11264x4096 ![0, 0] ![256, 0] ![0, 0] v (sitofp .bf16 (constantI S_ 32 0#32)) pads_S11008x4096_S11264x4096_02560_000 h_S_

/-- The one scale of the down-shaped matrix. -/
def wscB (w : (⟨S4096x11008, .f32⟩ : BufTy).Contents (Elt F)) : (⟨S_, .f32⟩ : BufTy).Contents (Elt F) :=
  Host.divf (constant S_ .f32 0x3F800000#32)
    (maximumf (Host.divf (Host.reduceAdd (Host.absf w) (constant S_ .f32 0x00000000#32) reducesTo_S4096x11008_S_d0_1 h_S_)
      (constant S_ .f32 0x4C2C0000#32)) (constant S_ .f32 0x3727C5AC#32))

/-- The matrix on the ternary grid of that scale. -/
def wqB (w : (⟨S4096x11008, .f32⟩ : BufTy).Contents (Elt F)) : (⟨S4096x11008, .bf16⟩ : BufTy).Contents (Elt F) :=
  truncf .bf16 (Host.divf
    (minimumf (broadcastInDim S4096x11008 ![] bcast_S_S4096x11008 (id (constant S_ .f32 0x3F800000#32)))
      (maximumf (broadcastInDim S4096x11008 ![] bcast_S_S4096x11008 (id (constant S_ .f32 0xBF800000#32)))
        (Host.roundeven (mulf w (broadcastInDim S4096x11008 ![] bcast_S_S4096x11008 (wscB w))))))
    (broadcastInDim S4096x11008 ![] bcast_S_S4096x11008 (wscB w))) bitsLt_bf16_f32

/-- Zero columns appended, from 11008 to 11264. -/
def padB (v : (⟨S4096x11008, .bf16⟩ : BufTy).Contents (Elt F)) : (⟨S4096x11264, .bf16⟩ : BufTy).Contents (Elt F) :=
  pad S4096x11264 ![0, 0] ![0, 256] ![0, 0] v (sitofp .bf16 (constantI S_ 32 0#32)) pads_S4096x11008_S4096x11264_000_02560 h_S_

end Cert.KernelIdeal.Val

end
-- ==== Proof.KI.HostG.lean ====
/-
  When the first region is entered the padded gate matrix is the first weight argument on the ternary grid of its
  own scale, with zero rows appended.
-/
import proofs.«139580_j65773129171180_2_alg».proof.Proof.KI.HostDefs

set_option maxRecDepth 16384

noncomputable section

namespace Cert.KernelIdeal.Val

open Cert.KernelIdeal Cert.KernelIdeal.Gen
open Idealize.ShloMosaic Idealize.ShloMosaic.TcCoe Idealize.SL.Sem Idealize.ShloMosaic.StableHlo

variable {F : FTy → Type} [FloatOps F]

variable (m : (ℓ : Loc nD τ sig) → Buf (Elt F) ℓ)

set_option maxHeartbeats 4000000 in
theorem v37_eq (c : Dev nD) : V18 m c main_v37 = padA (wqA (m ((c : Thread nD τ).loc main_arg1))) := by
  show StableHlo.after hostOps0_17 _ (Proc.devRef .tc main_v37) = _
  after_results
  unfold padA wqA wscA
  rfl

end Cert.KernelIdeal.Val

end
-- ==== Proof.KI.HostU.lean ====
/-
  When the first region is entered the padded up matrix is the second weight argument on the ternary grid of its own
  scale, with zero rows appended.
-/
import proofs.«139580_j65773129171180_2_alg».proof.Proof.KI.HostDefs

set_option maxRecDepth 16384

noncomputable section

namespace Cert.KernelIdeal.Val

open Cert.KernelIdeal Cert.KernelIdeal.Gen
open Idealize.ShloMosaic Idealize.ShloMosaic.TcCoe Idealize.SL.Sem Idealize.ShloMosaic.StableHlo

variable {F : FTy → Type} [FloatOps F]

variable (m : (ℓ : Loc nD τ sig) → Buf (Elt F) ℓ)

set_option maxHeartbeats 4000000 in
theorem v38_eq (c : Dev nD) : V18 m c main_v38 = padA (wqA (m ((c : Thread nD τ).loc main_arg2))) := by
  show StableHlo.after hostOps0_17 _ (Proc.devRef .tc main_v38) = _
  after_results
  unfold padA wqA wscA
  rfl

end Cert.KernelIdeal.Val

end
-- ==== Proof.KI.HostD.lean ====
/-
  When the first region is entered the padded down matrix is the third weight argument on the ternary grid of its own
  scale, with zero columns appended; and the token matrix is the input with its two leading axes merged.
-/
import proofs.«139580_j65773129171180_2_alg».proof.Proof.KI.HostDefs

set_option maxRecDepth 16384

noncomputable section

namespace Cert.KernelIdeal.Val

open Cert.KernelIdeal Cert.KernelIdeal.Gen
open Idealize.ShloMosaic Idealize.ShloMosaic.TcCoe Idealize.SL.Sem Idealize.ShloMosaic.StableHlo

variable {F : FTy → Type} [FloatOps F]

variable (m : (ℓ : Loc nD τ sig) → Buf (Elt F) ℓ)

set_option maxHeartbeats 4000000 in
theorem v39_eq (c : Dev nD) : V18 m c main_v39 = padB (wqB (m ((c : Thread nD τ).loc main_arg3))) := by
  show StableHlo.after hostOps0_17 _ (Proc.devRef .tc main_v39) = _
  after_results
  unfold padB wqB wscB
  rfl

set_option maxHeartbeats 4000000 in
theorem v0_eq (c : Dev nD) :
    V18 m c main_v0 = shapeCast S4096x4096 (m ((c : Thread nD τ).loc main_arg0)) shapeCasts_S2x2048x4096_S4096x4096 := by
  show StableHlo.after hostOps0_17 _ (Proc.devRef .tc main_v0) = _
  after_results
  rfl

end Cert.KernelIdeal.Val

end
-- ==== Proof.Algebra.lean ====
/-
  Sums and maxima of padded and blocked families on the extended reals.

  The extended reals are a commutative additive monoid in which `0 * x = 0`, so a family that is zero beyond a
  bound has the same sum as its restriction to the bound; a non-negative family that is zero beyond a positive
  bound has the same maximum (from `-∞`); a sum over `a * b` indices is the sum over `a` blocks of the `b`-term
  block sums; and an accumulator started at `0 + B 0` and increased by `B (n+1)` at each step holds, after the
  last step, the sum of all the blocks. Last, the few values of binary words the padding and the reductions meet.
-/
import Mathlib.Data.Finset.Fold
import Mathlib.Algebra.BigOperators.Fin
import Mathlib.Logic.Equiv.Fin.Basic
import Mathlib.Tactic.Ring
import Mathlib.Data.EReal.Operations
import Idealize.ShloMosaic.PureOps.Ideal
import Idealize.ShloMosaic.PureOps.Ideal.Laws

noncomputable section

namespace Cert.Algebra

open Idealize.ShloMosaic

/-! ## (a) A sum whose terms beyond a bound are zero -/

/-- A family on `Fin m` that is zero at every index from `n` on sums to the sum of its first `n` terms. -/
theorem sum_pad_general {M : Type*} [AddCommMonoid M] {n m : Nat} (h : n ≤ m) (f : Fin m → M)
    (hz : ∀ j : Fin m, n ≤ j.val → f j = 0) :
    ∑ j : Fin m, f j = ∑ i : Fin n, f ⟨i.val, lt_of_lt_of_le i.isLt h⟩ := by
  classical
  let F : ℕ → M := fun k => if hk : k < m then f ⟨k, hk⟩ else 0
  have e1 : ∑ j : Fin m, f j = ∑ k ∈ Finset.range m, F k := by
    rw [← Fin.sum_univ_eq_sum_range]
    refine Finset.sum_congr rfl fun j _ => ?_
    show f j = if hk : j.val < m then f ⟨j.val, hk⟩ else 0
    rw [dif_pos j.isLt]
  have e2 : ∑ i : Fin n, f ⟨i.val, lt_of_lt_of_le i.isLt h⟩ = ∑ k ∈ Finset.range n, F k := by
    rw [← Fin.sum_univ_eq_sum_range]
    refine Finset.sum_congr rfl fun i _ => ?_
    show f ⟨i.val, _⟩ = if hk : i.val < m then f ⟨i.val, hk⟩ else 0
    rw [dif_pos (lt_of_lt_of_le i.isLt h)]
  rw [e1, e2]
  symm
  refine Finset.sum_subset (Finset.range_subset_range.2 h) fun k hk hk' => ?_
  have hkm : k < m := Finset.mem_range.1 hk
  have hkn : n ≤ k := not_lt.1 fun hlt => hk' (Finset.mem_range.2 hlt)
  show (if hk : k < m then f ⟨k, hk⟩ else 0) = 0
  rw [dif_pos hkm]
  exact hz ⟨k, hkm⟩ hkn

/-- At the literal sizes: 11264 terms, zero from 11008 on. -/
theorem sum_pad (f : Fin 11264 → EReal) (hz : ∀ j : Fin 11264, 11008 ≤ j.val → f j = 0) :
    ∑ j : Fin 11264, f j = ∑ i : Fin 11008, f ⟨i.val, by have := i.isLt; omega⟩ :=
  sum_pad_general (by decide) f hz

/-! ## (b) A maximum of non-negative values whose terms beyond a positive bound are zero -/

/-- A non-negative family on `Fin m` that is zero from `n` on, `0 < n`, has the maximum (from `-∞`) of its first
    `n` terms: each padding zero is below the first term. -/
theorem fold_max_pad_general {n m : Nat} (h : n ≤ m) (hn : 0 < n) (g : Fin m → EReal)
    (hz : ∀ j : Fin m, n ≤ j.val → g j = 0) (hpos : ∀ j : Fin m, 0 ≤ g j) :
    (Finset.univ : Finset (Fin m)).fold max ⊥ g
      = (Finset.univ : Finset (Fin n)).fold max ⊥ (fun i => g ⟨i.val, lt_of_lt_of_le i.isLt h⟩) := by
  apply le_antisymm
  · rw [Finset.fold_max_le]
    refine ⟨bot_le, fun j _ => ?_⟩
    rw [Finset.le_fold_max]
    right
    by_cases hj : j.val < n
    · exact ⟨⟨j.val, hj⟩, Finset.mem_univ _, le_refl _⟩
    · refine ⟨⟨0, hn⟩, Finset.mem_univ _, ?_⟩
      rw [hz j (not_lt.1 hj)]
      exact hpos _
  · rw [Finset.fold_max_le]
    refine ⟨bot_le, fun i _ => ?_⟩
    rw [Finset.le_fold_max]
    exact Or.inr ⟨_, Finset.mem_univ _, le_refl _⟩

/-- At the literal sizes. -/
theorem fold_max_pad (g : Fin 11264 → EReal) (hz : ∀ j : Fin 11264, 11008 ≤ j.val → g j = 0)
    (hpos : ∀ j : Fin 11264, 0 ≤ g j) :
    (Finset.univ : Finset (Fin 11264)).fold max ⊥ g
      = (Finset.univ : Finset (Fin 11008)).fold max ⊥ (fun i => g ⟨i.val, by have := i.isLt; omega⟩) :=
  fold_max_pad_general (by decide) (by decide) g hz hpos

/-! ## (c) A sum by blocks, and the accumulator that adds the blocks one at a time -/

/-- A sum over `a * b` indices is the sum over `a` blocks of the sums of the blocks' `b` terms. -/
theorem sum_blocks_general {M : Type*} [AddCommMonoid M] (a b : Nat) (f : Fin (a * b) → M) :
    ∑ j : Fin (a * b), f j
      = ∑ kb : Fin a, ∑ r : Fin b, f ⟨kb.val * b + r.val, by
          have h1 := kb.isLt; have h2 := r.isLt
          calc kb.val * b + r.val < kb.val * b + b := by omega
            _ = (kb.val + 1) * b := by ring
            _ ≤ a * b := Nat.mul_le_mul_right b h1⟩ := by
  rw [← Equiv.sum_comp finProdFinEquiv f, Fintype.sum_prod_type]
  refine Finset.sum_congr rfl fun kb _ => Finset.sum_congr rfl fun r _ => ?_
  congr 1
  apply Fin.ext
  show r.val + b * kb.val = kb.val * b + r.val
  rw [Nat.mul_comm, Nat.add_comm]

/-- At the literal sizes: 22 blocks of 512. -/
theorem sum_blocks (f : Fin 11264 → EReal) :
    ∑ j : Fin 11264, f j
      = ∑ kb : Fin 22, ∑ r : Fin 512, f ⟨kb.val * 512 + r.val, by have := kb.isLt; have := r.isLt; omega⟩ :=
  sum_blocks_general 22 512 f

/-- An accumulator that starts at `0 + B 0` and adds `B (n+1)` at step `n+1` holds the sum of `B 0 … B n`. -/
theorem acc_eq_sum_range {M : Type*} [AddCommMonoid M] (N : Nat) (B acc : ℕ → M) (h0 : acc 0 = 0 + B 0)
    (hs : ∀ n, n + 1 < N → acc (n + 1) = acc n + B (n + 1)) :
    ∀ n, n < N → acc n = ∑ k ∈ Finset.range (n + 1), B k := by
  intro n
  induction n with
  | zero => intro _; rw [h0, zero_add, Finset.sum_range_one]
  | succ n ih =>
    intro hn
    rw [hs n hn, ih (by omega), Finset.sum_range_succ _ (n + 1)]

/-- With the blocks indexed by `Fin 22`: after the last step the accumulator is the sum of all 22 blocks. -/
theorem acc_blocks (B : Fin 22 → EReal) (acc : ℕ → EReal) (h0 : acc 0 = 0 + B ⟨0, by decide⟩)
    (hs : ∀ n (h : n + 1 < 22), acc (n + 1) = acc n + B ⟨n + 1, h⟩) :
    acc 21 = ∑ kb : Fin 22, B kb := by
  classical
  let B' : ℕ → EReal := fun k => if hk : k < 22 then B ⟨k, hk⟩ else 0
  have h0' : acc 0 = 0 + B' 0 := h0
  have hs' : ∀ n, n + 1 < 22 → acc (n + 1) = acc n + B' (n + 1) := by
    intro n hn
    rw [hs n hn]
    show _ = acc n + (if hk : n + 1 < 22 then B ⟨n + 1, hk⟩ else 0)
    rw [dif_pos hn]
  rw [acc_eq_sum_range 22 B' acc h0' hs' 21 (by decide), ← Fin.sum_univ_eq_sum_range]
  refine Finset.sum_congr rfl fun kb _ => ?_
  show (if hk : kb.val < 22 then B ⟨kb.val, hk⟩ else 0) = B kb
  rw [dif_pos kb.isLt]

/-! ## (d) Small facts on the extended reals, and three binary words -/

theorem max_comm' (x y : EReal) : max x y = max y x := max_comm x y

/-- `|x| = max x (-x)` is non-negative. -/
theorem eabs_nonneg (x : EReal) : 0 ≤ max x (-x) := by
  rcases le_total 0 x with h | h
  · exact le_max_of_le_left h
  · exact le_max_of_le_right (EReal.neg_nonneg.2 h)

/-- `|0| = 0`. -/
theorem eabs_zero : max (0 : EReal) (-0) = 0 := by rw [neg_zero, max_self]

theorem ofBits_f32_neg_inf : Ideal.ofBits .f32 0xFF800000#32 = (⊥ : EReal) := by
  simp [Ideal.ofBits, Ideal.ieee]

theorem ofBits_bf16_neg_inf : Ideal.ofBits .bf16 0xFF80#16 = (⊥ : EReal) := by
  simp [Ideal.ofBits, Ideal.ieee]

theorem ofBits_f32_zero : Ideal.ofBits .f32 0x00000000#32 = (0 : EReal) := by
  simp [Ideal.ofBits, Ideal.ieee]

end Cert.Algebra

end
-- ==== Proof.Bridge.lean ====
/-
  The four regions' functions composed are the specification.

  Read the tokens as rows `r = b · 2048 + s`. Given the reshaped input `x2` (row `r` of `x2` is token `(b, s)` of `x`) and
  the three quantized weight matrices padded with ZERO rows (gate, up) or zero columns (down) from 11008 to 11264:
    • the quantized rows of `x2` are the quantized tokens;
    • against a padding row every product is `a · 0 = 0`, so the gate and up products vanish there and so does
      `relu(g)² · u`; inside the padding they are the specification's `gate`, `up`, `hval`;
    • `|h|` is non-negative and `0` on the padding, so the largest value over 11264 columns is the largest over the
      11008 real ones: the rows' scales agree;
    • the running total over 22 blocks of 512 columns is the sum over all 11264 columns (addition on the extended reals is
      associative and commutative), whose padding terms are `q · 0 = 0`: the sum over the 11008 real columns.
  No finiteness is used: `0 · x = 0` and the monoid laws hold on all extended reals.
-/
import proofs.«139580_j65773129171180_2_alg».proof.Proof.RegionSpec
import proofs.«139580_j65773129171180_2_alg».proof.Proof.Algebra

noncomputable section

namespace Cert.Bridge

open Idealize.ShloMosaic Idealize.ShloMosaic.ValueIdx Cert.Spec Cert.RegionSpec

/-- Token `(b, s)`'s row, and a real column among the padded ones. -/
def row (b : Fin 2) (s : Fin 2048) : Fin 4096 := ⟨b.val * 2048 + s.val, by have := b.isLt; have := s.isLt; omega⟩
def inj (i : Fin 11008) : Fin 11264 := ⟨i.val, by have := i.isLt; omega⟩

variable (x : (⟨3, ![2, 2048, 4096]⟩ : Shape).Idx → EReal)
variable (wg wu : (⟨2, ![11008, 4096]⟩ : Shape).Idx → EReal) (wd : (⟨2, ![4096, 11008]⟩ : Shape).Idx → EReal)
variable (x2 : I4096x4096 → EReal) (wgp wup : I11264x4096 → EReal) (wdp : I4096x11264 → EReal)

/-- How the arrays the regions read come from the arguments. -/
structure Hyp : Prop where
  hx : ∀ b s k, x2 (ix2 (row b s) k) = x (ix3 b s k)
  hg_in : ∀ (i : Fin 11008) k, wgp (ix2 (inj i) k) = mq wg i k
  hg_out : ∀ (j : Fin 11264) k, 11008 ≤ j.val → wgp (ix2 j k) = 0
  hu_in : ∀ (i : Fin 11008) k, wup (ix2 (inj i) k) = mq wu i k
  hu_out : ∀ (j : Fin 11264) k, 11008 ≤ j.val → wup (ix2 j k) = 0
  hd_in : ∀ o (i : Fin 11008), wdp (ix2 o (inj i)) = mq wd o i
  hd_out : ∀ o (j : Fin 11264), 11008 ≤ j.val → wdp (ix2 o j) = 0

variable {x wg wu wd x2 wgp wup wdp}

theorem a0_eq (H : Hyp x wg wu wd x2 wgp wup wdp) (b : Fin 2) (s : Fin 2048) (k : Fin 4096) :
    A0 x2 (ix2 (row b s) k) = xq x b s k := by
  show aq (x2 (ix2 (row b s) k)) (ascale (fmax fun k' : Fin 4096 => eabs (x2 (ix2 (row b s) k')))) = _
  simp only [H.hx]
  rfl

theorem dot_in (H : Hyp x wg wu wd x2 wgp wup wdp) {w : I11264x4096 → EReal} {wm : (⟨2, ![11008, 4096]⟩ : Shape).Idx → EReal}
    (hin : ∀ (i : Fin 11008) k, w (ix2 (inj i) k) = mq wm i k) (b : Fin 2) (s : Fin 2048) (i : Fin 11008) :
    dotRow (A0 x2) w (row b s) (inj i) = ∑ k : Fin 4096, xq x b s k * mq wm i k := by
  unfold dotRow
  exact Finset.sum_congr rfl fun k _ => by rw [a0_eq H, hin]

theorem dot_out {a : I4096x4096 → EReal} {w : I11264x4096 → EReal}
    (hout : ∀ (j : Fin 11264) k, 11008 ≤ j.val → w (ix2 j k) = 0) (r : Fin 4096) (j : Fin 11264) (hj : 11008 ≤ j.val) :
    dotRow a w r j = 0 := by
  unfold dotRow
  exact Finset.sum_eq_zero fun k _ => by rw [hout j k hj, mul_zero]

theorem a1_in (H : Hyp x wg wu wd x2 wgp wup wdp) (b : Fin 2) (s : Fin 2048) (i : Fin 11008) :
    A1 (A0 x2) wgp wup (ix2 (row b s) (inj i)) = hval x wg wu b s i := by
  show (max (dotRow (A0 x2) wgp (row b s) (inj i)) c0 * max (dotRow (A0 x2) wgp (row b s) (inj i)) c0)
      * dotRow (A0 x2) wup (row b s) (inj i) = _
  rw [dot_in H H.hg_in, dot_in H H.hu_in]
  rfl

theorem a1_out (H : Hyp x wg wu wd x2 wgp wup wdp) (r : Fin 4096) (j : Fin 11264) (hj : 11008 ≤ j.val) :
    A1 (A0 x2) wgp wup (ix2 r j) = 0 := by
  show (max (dotRow (A0 x2) wgp r j) c0 * max (dotRow (A0 x2) wgp r j) c0) * dotRow (A0 x2) wup r j = 0
  rw [dot_out H.hu_out r j hj, mul_zero]

theorem a2_eq (H : Hyp x wg wu wd x2 wgp wup wdp) (b : Fin 2) (s : Fin 2048) :
    A2 (A1 (A0 x2) wgp wup) (ix2 (row b s) 0) = hscale x wg wu b s := by
  show ascale (fmax fun j : Fin 11264 => eabs (A1 (A0 x2) wgp wup (ix2 (row b s) j))) = _
  unfold hscale fmax
  rw [Cert.Algebra.fold_max_pad _ (fun j hj => by rw [a1_out H _ j hj]; exact Cert.Algebra.eabs_zero)
    (fun j => Cert.Algebra.eabs_nonneg _)]
  refine congrArg ascale (congrArg (fun f : Fin 11008 → EReal => Finset.fold max ⊥ f Finset.univ) (funext fun i => ?_))
  show eabs (A1 (A0 x2) wgp wup (ix2 (row b s) (inj i))) = _
  rw [a1_in H]

/-- The running total over the blocks is the sum of the blocks. -/
theorem runTotal_eq_sum (B : Fin 22 → EReal) : runTotal B 21 (by omega) = ∑ kb : Fin 22, B kb := by
  have key := Cert.Algebra.acc_blocks B (fun n => if h : n < 22 then runTotal B n h else 0)
    (by rw [dif_pos (by omega)]; show c0 + B ⟨0, _⟩ = 0 + B ⟨0, _⟩; rw [show c0 = (0 : EReal) from Cert.Algebra.ofBits_f32_zero])
    (fun n h => by rw [dif_pos h, dif_pos (by omega)]; rfl)
  rw [dif_pos (by omega)] at key
  exact key

theorem a3_eq (H : Hyp x wg wu wd x2 wgp wup wdp) (b : Fin 2) (s : Fin 2048) (o : Fin 4096) :
    A3 (A1 (A0 x2) wgp wup) (A2 (A1 (A0 x2) wgp wup)) wdp (ix2 (row b s) o) = out x wg wu wd b s o := by
  show runTotal (blockSum (A1 (A0 x2) wgp wup) (A2 (A1 (A0 x2) wgp wup)) wdp (row b s) o) 21 _ = _
  rw [runTotal_eq_sum]
  unfold blockSum
  rw [← Cert.Algebra.sum_blocks (fun j : Fin 11264 =>
    aq (A1 (A0 x2) wgp wup (ix2 (row b s) j)) (A2 (A1 (A0 x2) wgp wup) (ix2 (row b s) 0)) * wdp (ix2 o j))]
  rw [Cert.Algebra.sum_pad _ (fun j hj => by rw [H.hd_out o j hj, mul_zero])]
  unfold out
  refine Finset.sum_congr rfl fun i _ => ?_
  show aq (A1 (A0 x2) wgp wup (ix2 (row b s) (inj i))) (A2 (A1 (A0 x2) wgp wup) (ix2 (row b s) 0)) * wdp (ix2 o (inj i)) = _
  rw [a1_in H, a2_eq H, H.hd_in]
  rfl

end Cert.Bridge

end
-- ==== Proof.KI.HostVal.lean ====
/-
  The arrays the four regions read, index by index on the extended reals, from the program's arguments: the token
  matrix is the input with its two leading axes merged (row `2048 b + s` is token `(b, s)`); each padded weight matrix
  is, on its real rows or columns, the argument's entry on the ternary grid of the argument's one scale, and 0 on the
  appended ones; and the result is the last region's array with its row axis split back into `(b, s)`.
-/
import proofs.«139580_j65773129171180_2_alg».proof.Proof.KI.Run
import proofs.«139580_j65773129171180_2_alg».proof.Proof.KI.HostG
import proofs.«139580_j65773129171180_2_alg».proof.Proof.KI.HostU
import proofs.«139580_j65773129171180_2_alg».proof.Proof.KI.HostD
import proofs.«139580_j65773129171180_2_alg».proof.Proof.Bridge
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx Idealize.SL.Sem
open Idealize.ShloMosaic.StableHlo
open Cert.Spec Cert.RegionSpec Cert.Bridge

/-! ## The scale and the ternary grid at an index -/

/-- The host's sum of a whole array from the zero word: `0` plus the sum of its entries. -/
theorem hostSum_apply {s : Shape} {axes : List (Fin s.rank)} (red : s.ReducesTo axes S_) (y : FVec Ideal s .f32) (j : S_.Idx) :
    Host.reduceAdd (F := Ideal) y (constant (F := Ideal) S_ .f32 0x00000000#32) red h_S_ j = c0 + ∑ i : s.Idx, y i := by
  simp only [Host.reduceAdd, Ideal.hostReduceAdd_def]
  exact Ideal.hostReduceAdd_total red (fun b => b.elim0) y _ j

/-- A scalar spread over a matrix reads the scalar everywhere. -/
theorem bcastA_apply (y : (⟨S_, .f32⟩ : BufTy).Contents (Elt Ideal)) (j : S11008x4096.Idx) :
    broadcastInDim S11008x4096 ![] bcast_S_S11008x4096 y j = y (fun a => a.elim0) :=
  broadcastInDim_apply _ bcast_S_S11008x4096 y j (fun a => a.elim0) (fun a => a.elim0)
theorem bcastB_apply (y : (⟨S_, .f32⟩ : BufTy).Contents (Elt Ideal)) (j : S4096x11008.Idx) :
    broadcastInDim S4096x11008 ![] bcast_S_S4096x11008 y j = y (fun a => a.elim0) :=
  broadcastInDim_apply _ bcast_S_S4096x11008 y j (fun a => a.elim0) (fun a => a.elim0)

/-- The gate/up-shaped matrix's scale is the specification's. -/
theorem wscA_apply (w : (⟨S11008x4096, .f32⟩ : BufTy).Contents (Elt Ideal)) (j : S_.Idx) :
    wscA (F := Ideal) w j = mscale (n0 := 11008) (n1 := 4096) w := by
  have h1 : wscA (F := Ideal) w j
      = Ideal.div c1 (max (Ideal.div (Host.reduceAdd (F := Ideal) (Host.absf w) (constant (F := Ideal) S_ .f32 0x00000000#32) reducesTo_S11008x4096_S_d0_1 h_S_ j) cN) eps) := rfl
  rw [h1, hostSum_apply]
  rfl
theorem wscB_apply (w : (⟨S4096x11008, .f32⟩ : BufTy).Contents (Elt Ideal)) (j : S_.Idx) :
    wscB (F := Ideal) w j = mscale (n0 := 4096) (n1 := 11008) w := by
  have h1 : wscB (F := Ideal) w j
      = Ideal.div c1 (max (Ideal.div (Host.reduceAdd (F := Ideal) (Host.absf w) (constant (F := Ideal) S_ .f32 0x00000000#32) reducesTo_S4096x11008_S_d0_1 h_S_ j) cN) eps) := rfl
  rw [h1, hostSum_apply]
  rfl

/-- The matrix on the ternary grid, at an index, is the specification's quantized entry. -/
theorem wqA_apply (w : (⟨S11008x4096, .f32⟩ : BufTy).Contents (Elt Ideal)) (i : Fin 11008) (k : Fin 4096) :
    wqA (F := Ideal) w (ix2 i k) = mq (n0 := 11008) (n1 := 4096) w i k := by
  have h1 : wqA (F := Ideal) w (ix2 i k)
      = Ideal.div (min (broadcastInDim S11008x4096 ![] bcast_S_S11008x4096 (id (constant (F := Ideal) S_ .f32 0x3F800000#32)) (ix2 i k))
          (max (broadcastInDim S11008x4096 ![] bcast_S_S11008x4096 (id (constant (F := Ideal) S_ .f32 0xBF800000#32)) (ix2 i k))
            (rnd (w (ix2 i k) * broadcastInDim S11008x4096 ![] bcast_S_S11008x4096 (wscA (F := Ideal) w) (ix2 i k)))))
          (broadcastInDim S11008x4096 ![] bcast_S_S11008x4096 (wscA (F := Ideal) w) (ix2 i k)) := rfl
  rw [h1, bcastA_apply, bcastA_apply, bcastA_apply, wscA_apply]
  rfl
theorem wqB_apply (w : (⟨S4096x11008, .f32⟩ : BufTy).Contents (Elt Ideal)) (i : Fin 4096) (k : Fin 11008) :
    wqB (F := Ideal) w (ix2 i k) = mq (n0 := 4096) (n1 := 11008) w i k := by
  have h1 : wqB (F := Ideal) w (ix2 i k)
      = Ideal.div (min (broadcastInDim S4096x11008 ![] bcast_S_S4096x11008 (id (constant (F := Ideal) S_ .f32 0x3F800000#32)) (ix2 i k))
          (max (broadcastInDim S4096x11008 ![] bcast_S_S4096x11008 (id (constant (F := Ideal) S_ .f32 0xBF800000#32)) (ix2 i k))
            (rnd (w (ix2 i k) * broadcastInDim S4096x11008 ![] bcast_S_S4096x11008 (wscB (F := Ideal) w) (ix2 i k)))))
          (broadcastInDim S4096x11008 ![] bcast_S_S4096x11008 (wscB (F := Ideal) w) (ix2 i k)) := rfl
  rw [h1, bcastB_apply, bcastB_apply, bcastB_apply, wscB_apply]
  rfl

/-! ## The appended rows and columns -/

/-- On a real row the padded matrix is the matrix; -/
theorem padA_in (v : (⟨S11008x4096, .bf16⟩ : BufTy).Contents (Elt Ideal)) (i : Fin 11008) (k : Fin 4096) :
    padA (F := Ideal) v (ix2 (inj i) k) = v (ix2 i k) := by
  unfold padA
  refine pad_apply_of_inside _ _ _ v _ pads_S11008x4096_S11264x4096_02560_000 h_S_ (ix2 (inj i) k) (ix2 i k) fun a => ?_
  match a with
  | ⟨0, _⟩ => show i.val = 0 + i.val * (0 + 1); omega
  | ⟨1, _⟩ => show k.val = 0 + k.val * (0 + 1); omega
/-- on an appended row it is 0. -/
theorem padA_out (v : (⟨S11008x4096, .bf16⟩ : BufTy).Contents (Elt Ideal)) (j : Fin 11264) (k : Fin 4096) (hj : 11008 ≤ j.val) :
    padA (F := Ideal) v (ix2 j k) = 0 := by
  unfold padA
  refine (pad_apply_of_not_inside _ _ _ v _ pads_S11008x4096_S11264x4096_02560_000 h_S_ (ix2 j k) ⟨0, by decide⟩ ?_).trans ?_
  · show ¬(0 ≤ j.val ∧ (j.val - 0) % (0 + 1) = 0 ∧ (j.val - 0) / (0 + 1) < 11008)
    omega
  · exact sitofp_zero (φ := .bf16)
/-- On a real column the padded matrix is the matrix; -/
theorem padB_in (v : (⟨S4096x11008, .bf16⟩ : BufTy).Contents (Elt Ideal)) (o : Fin 4096) (i : Fin 11008) :
    padB (F := Ideal) v (ix2 o (inj i)) = v (ix2 o i) := by
  unfold padB
  refine pad_apply_of_inside _ _ _ v _ pads_S4096x11008_S4096x11264_000_02560 h_S_ (ix2 o (inj i)) (ix2 o i) fun a => ?_
  match a with
  | ⟨0, _⟩ => show o.val = 0 + o.val * (0 + 1); omega
  | ⟨1, _⟩ => show i.val = 0 + i.val * (0 + 1); omega
/-- on an appended column it is 0. -/
theorem padB_out (v : (⟨S4096x11008, .bf16⟩ : BufTy).Contents (Elt Ideal)) (o : Fin 4096) (j : Fin 11264) (hj : 11008 ≤ j.val) :
    padB (F := Ideal) v (ix2 o j) = 0 := by
  unfold padB
  refine (pad_apply_of_not_inside _ _ _ v _ pads_S4096x11008_S4096x11264_000_02560 h_S_ (ix2 o j) ⟨1, by decide⟩ ?_).trans ?_
  · show ¬(0 ≤ j.val ∧ (j.val - 0) % (0 + 1) = 0 ∧ (j.val - 0) / (0 + 1) < 11008)
    omega
  · exact sitofp_zero (φ := .bf16)

/-! ## The arrays the regions read, and the result -/

variable (m : (ℓ : Loc nD τ sig) → Buf (Elt Ideal) ℓ)

/-- The token matrix's row `2048 b + s` is token `(b, s)` of the input. -/
theorem x2_apply (c : Dev nD) (b : Fin 2) (s : Fin 2048) (k : Fin 4096) :
    Q0 m c main_v0 (ix2 (row b s) k) = m ((c : Thread nD τ).loc main_arg0) (ix3 b s k) :=
  (congrFun (v0_eq m c) (ix2 (row b s) k)).trans
    (shapeCast_apply _ shapeCasts_S2x2048x4096_S4096x4096 (ix2 (row b s) k) (ix3 b s k) (by
      rw [Shape.rowMajor_val_three, Shape.rowMajor_val_two]
      show (b.val * 2048 + s.val) * 4096 + k.val = (b.val * 2048 + s.val) * 4096 + k.val
      rfl))

/-- How the arrays the regions read come from the arguments. -/
theorem host_hyp (c : Dev nD) :
    Hyp (m ((c : Thread nD τ).loc main_arg0)) (m ((c : Thread nD τ).loc main_arg1)) (m ((c : Thread nD τ).loc main_arg2))
      (m ((c : Thread nD τ).loc main_arg3)) (Q0 m c main_v0) (Q0 m c main_v37) (Q0 m c main_v38) (Q0 m c main_v39) where
  hx b s k := x2_apply m c b s k
  hg_in i k := (congrFun (v37_eq m c) (ix2 (inj i) k)).trans ((padA_in _ i k).trans (wqA_apply _ i k))
  hg_out j k hj := (congrFun (v37_eq m c) (ix2 j k)).trans (padA_out _ j k hj)
  hu_in i k := (congrFun (v38_eq m c) (ix2 (inj i) k)).trans ((padA_in _ i k).trans (wqA_apply _ i k))
  hu_out j k hj := (congrFun (v38_eq m c) (ix2 j k)).trans (padA_out _ j k hj)
  hd_in o i := (congrFun (v39_eq m c) (ix2 o (inj i))).trans ((padB_in _ o i).trans (wqB_apply _ o i))
  hd_out o j hj := (congrFun (v39_eq m c) (ix2 o j)).trans (padB_out _ o j hj)

/-- The result is the last region's array with its row axis split back: entry `(b, s, o)` is row `2048 b + s`, column `o`. -/
theorem result_reshape (c : Dev nD) (b : Fin 2) (s : Fin 2048) (o : Fin 4096) :
    Q5 m c main_v44 (ix3 b s o) = Q4 m c main_v43 (ix2 (row b s) o) := by
  have e : Q5 m c main_v44 = shapeCast S2x2048x4096 (Q4 m c main_v43) shapeCasts_S4096x4096_S2x2048x4096 := by
    show StableHlo.after hostOps4 (Q4 m c) (Proc.devRef .tc main_v44) = _
    after_results
    rfl
  refine (congrFun e (ix3 b s o)).trans (shapeCast_apply _ shapeCasts_S4096x4096_S2x2048x4096 (ix3 b s o) (ix2 (row b s) o) (by
    rw [Shape.rowMajor_val_three, Shape.rowMajor_val_two]
    show (b.val * 2048 + s.val) * 4096 + o.val = (b.val * 2048 + s.val) * 4096 + o.val
    rfl))

end Cert.KernelIdeal.Val

end
-- ==== Proof.KI.Final.lean ====
/-
  The result of the idealized kernel program is the specification's function of its four arguments.

  After the run every unscoped buffer holds the last boundary's contents. The result buffer there is the final reshape of
  region 3's output array; region 3's output is the blocked product `A3` of region 1's output `h`, region 2's column of
  row scales and the padded down matrix; region 2's column is `A2 h`; `h` is the gated product `A1` of region 0's
  quantized rows with the padded gate and up matrices; region 0's output is `A0` of the reshaped input. An input
  window's array is left as the region found it, and a buffer that is no array of a region passes through it unchanged,
  so each operand above is read at the boundary where it was produced. The composition of `A0 … A3` over the reshaped
  input and the zero-padded ternary weights is the specification (the pure statement, `Cert.Bridge.a3_eq`).
-/
import proofs.«139580_j65773129171180_2_alg».proof.Proof.KI.Frame
import proofs.«139580_j65773129171180_2_alg».proof.Proof.KI.Val0
import proofs.«139580_j65773129171180_2_alg».proof.Proof.KI.Val1
import proofs.«139580_j65773129171180_2_alg».proof.Proof.KI.Val2
import proofs.«139580_j65773129171180_2_alg».proof.Proof.KI.Val3
import proofs.«139580_j65773129171180_2_alg».proof.Proof.KI.HostVal
import proofs.«139580_j65773129171180_2_alg».proof.Proof.Bridge

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat)
open Cert.RegionSpec

variable (m : (ℓ : Loc nD τ sig) → Buf (Elt Ideal) ℓ)

/-! ## Each region's output array, and the operands it is read with -/

theorem q1_v40 (c : Dev nD) : Q1 m c main_v40 = A0 (Q0 m c main_v0) :=
  (Q1_arr m c 1).trans (final0 (T0 m) c)
theorem q1_v37 (c : Dev nD) : Q1 m c main_v37 = Q0 m c main_v37 := Q1_of_ne m c main_v37 (by decide)
theorem q1_v38 (c : Dev nD) : Q1 m c main_v38 = Q0 m c main_v38 := Q1_of_ne m c main_v38 (by decide)

theorem q2_v41 (c : Dev nD) : Q2 m c main_v41 = A1 (Q1 m c main_v40) (Q1 m c main_v37) (Q1 m c main_v38) :=
  (Q2_arr m c 3).trans (final1 (T1 m) c)

/-- Region 2 reads `h` through an input window: its array is left as found. -/
theorem q3_v41 (c : Dev nD) : Q3 m c main_v41 = Q2 m c main_v41 :=
  (Q3_arr m c 0).trans (((dat2 (T2 m) c).arrAt_in 0 rfl _).trans (A_eq2 (T2 m) c 0))
theorem q3_v42 (c : Dev nD) : Q3 m c main_v42 = A2 (Q2 m c main_v41) :=
  (Q3_arr m c 1).trans (final2 (T2 m) c)
theorem q3_v39 (c : Dev nD) : Q3 m c main_v39 = Q0 m c main_v39 :=
  (Q3_of_ne m c main_v39 (by decide)).trans <| (Q2_of_ne m c main_v39 (by decide)).trans <| Q1_of_ne m c main_v39 (by decide)

theorem q4_v43 (c : Dev nD) : Q4 m c main_v43 = A3 (Q3 m c main_v41) (Q3 m c main_v42) (Q3 m c main_v39) :=
  (Q4_arr m c 3).trans (final3 (T3 m) c)

/-! ## The result -/

/-- The result buffer's last contents: the specification of the four arguments' launch contents. -/
theorem result_eq (c : Dev nD) :
    Q5 m c main_v44 = Cert.Spec.G (m ((c : Thread nD τ).loc main_arg0)) (m ((c : Thread nD τ).loc main_arg1))
      (m ((c : Thread nD τ).loc main_arg2)) (m ((c : Thread nD τ).loc main_arg3)) := by
  funext j
  obtain ⟨b, s, o, rfl⟩ : ∃ (b : Fin 2) (s : Fin 2048) (o : Fin 4096), j = ix3 b s o := ⟨j 0, j 1, j 2, eq_ix3 j⟩
  rw [result_reshape m c b s o, q4_v43, q3_v41, q3_v42, q3_v39, q2_v41, q1_v40, q1_v37, q1_v38]
  exact Cert.Bridge.a3_eq (host_hyp m c) b s o

/-- The run of @main with its result named: every weakly fair execution terminates, nothing faulting, the result buffer at
    the specification of the arguments and the four argument arrays as launched. -/
theorem run (ρ : Dev nD → PrngReg) : θ_run defs (onTc (τ := τ) (main (F := Ideal))) ⟨m, fun _ => 0, ρ⟩ (fun r => ∀ c : Dev nD,
      r.2.mem ((c.tc : Thread nD τ).loc main_v44) = Cert.Spec.G (m ((c.tc : Thread nD τ).loc main_arg0))
        (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v44 (by decide))).trans (result_eq m c),
     (h c _ (mem_uc main_arg0 (by decide))).trans (Q5_main_arg0 m c),
     (h c _ (mem_uc main_arg1 (by decide))).trans (Q5_main_arg1 m c),
     (h c _ (mem_uc main_arg2 (by decide))).trans (Q5_main_arg2 m c),
     (h c _ (mem_uc main_arg3 (by decide))).trans (Q5_main_arg3 m c)⟩) (run_all m ρ)

end Cert.KernelIdeal.Val

end
-- ==== Proof.RefSpec.Basic.lean ====
/-
  Tools for reading the reference at an index: the host's row maximum as the specification's `fmax`, and the two
  scale formulas with their maxima's operands in the reference's order.
-/
import proofs.«139580_j65773129171180_2_alg».proof.Proof.Spec
import Idealize.ShloMosaic.PureOps.Reduce
import Idealize.ShloMosaic.PureOps.Ideal.Laws
import Idealize.ShloMosaic.Lib.ValueIdx

noncomputable section

namespace Cert.RefSpec

open Idealize.ShloMosaic Idealize.ShloMosaic.ValueIdx Cert.Spec

/-- The word `0xFF800000` is `-∞`. -/
theorem ofBits_neg_inf : Ideal.ofBits .f32 0xFF800000#32 = (⊥ : EReal) := by
  simp [Ideal.ofBits, Ideal.ieee]

/-- The reduced index (b, s) with the coordinate `k` put back on the last axis is (b, s, k). -/
theorem lift_ix3 {n0 n1 n : Nat} (h : (⟨3, ![n0, n1, n]⟩ : Shape).Reduces [2] (⟨2, ![n0, n1]⟩ : Shape)) (b : Fin n0)
    (s : Fin n1) (k : Fin ((⟨3, ![n0, n1, n]⟩ : Shape).size 2)) :
    h.lift (ix2 b s) k = ix3 b s (⟨k.val, k.isLt⟩ : Fin n) := by
  funext c; apply Fin.ext
  fin_cases c <;> rfl

/-- From `-∞` the host's reduce with a maximum body over the last axis of a rank-3 array is, at (b, s), the largest
    value of the row (b, s, ·). -/
theorem hostRowMax {n0 n1 n : Nat} (y : (⟨3, ![n0, n1, n]⟩ : Shape).Idx → Ideal .f32)
    (init : (⟨0, ![]⟩ : Shape).Idx → Ideal .f32)
    (h' : (⟨3, ![n0, n1, n]⟩ : Shape).ReducesTo [2] (⟨2, ![n0, n1]⟩ : Shape))
    (h : (⟨3, ![n0, n1, n]⟩ : Shape).Reduces [2] (⟨2, ![n0, n1]⟩ : Shape))
    (hu : 0 < (⟨0, ![]⟩ : Shape).numel) (hinit : init (Shape.Idx.first hu) = (⊥ : EReal)) (b : Fin n0) (s : Fin n1) :
    Host.reduce FloatOps.maximumf y init h' hu (ix2 b s) = fmax (fun k : Fin n => y (ix3 b s k)) := by
  rw [Host.reduce_eq_fold_single FloatOps.maximumf y init h' h hu, hinit]
  unfold fmax
  have hf : (y ∘ h.lift (ix2 b s)) = fun k : Fin n => y (ix3 b s k) :=
    funext fun k => congrArg y (lift_ix3 h b s k)
  exact congrArg (fun f => Finset.fold max (⊥ : EReal) f (Finset.univ : Finset (Fin n))) hf

/-- A row's scale, the maximum's operands in the reference's order. -/
theorem ascale_eq (a : EReal) : Ideal.div c127 (max eps a) = ascale a := by
  unfold ascale; rw [max_comm]

/-- A matrix's scale, the maximum's operands in the reference's order. -/
theorem wscale_eq (t : EReal) : Ideal.div c1 (max eps (Ideal.div t cN)) = wscale t := by
  unfold wscale; rw [max_comm]

end Cert.RefSpec

end
-- ==== Proof.RefSpec.Weights.lean ====
/-
  The weight matrices of the reference, read at an index: each of the three is quantized by one scale for the whole
  matrix, `1 / max (mean |w|) ε` with the mean's sum started at `0`, and an entry is
  `clamp (round (w · scale)) / scale`, the clamp to `[-1, 1]`. The three chains are the same operations under
  different names.
-/
import proofs.«139580_j65773129171180_2_alg».proof.Proof.RefSpec.Basic
import proofs.«139580_j65773129171180_2_alg».proof.Proof.RefReadP

noncomputable section

namespace Cert.RefSpec

open Idealize.ShloMosaic Idealize.ShloMosaic.ValueIdx Cert.Spec Cert.ReferenceIdeal Cert.ReferenceIdeal.Gen Cert.ReferenceIdeal.ReadP

/-- The gate matrix's one scale, read at the scalar's index. -/
theorem wscale_g (w : (⟨S11008x4096, .f32⟩ : BufTy).Contents (Elt Ideal)) (j0 : S_.Idx) :
    val_main_v16 (F := Ideal) w j0 = mscale w := by
  rw [val_main_v16_apply, val_main_cst_7_apply, val_main_v15_apply, val_main_call3_v0_apply, val_main_cst_6_apply,
    val_main_v14_apply, val_main_v13_apply, val_main_cst_4_apply, val_main_cst_5_apply]
  simp only [val_main_v12_apply, Ideal.hostDivf_def, Ideal.minimumf_def, Ideal.maximumf_def, Ideal.mulf_def, Ideal.hostUnary_roundeven_def, Ideal.ofBits_def, Ideal.hostAbsf_def, Ideal.absf_def]
  unfold mscale
  exact wscale_eq _

/-- An entry of the quantized gate matrix. -/
theorem wq_g (w : (⟨S11008x4096, .f32⟩ : BufTy).Contents (Elt Ideal)) (i : S11008x4096.Idx) :
    val_main_v22 (F := Ideal) w i = wq (w i) (mscale w) := by
  rw [val_main_v22_apply, val_main_v20_apply, val_main_call5_v4_apply, val_main_call5_v3_apply, val_main_cst_9_apply,
    val_main_call5_v2_apply, val_main_call5_v1_apply, val_main_call5_v0_apply, val_main_cst_8_apply, val_main_v19_apply,
    val_main_v18_apply, val_main_v17_apply, val_main_v21_apply]
  simp only [wscale_g, Ideal.hostDivf_def, Ideal.minimumf_def, Ideal.maximumf_def, Ideal.mulf_def, Ideal.hostUnary_roundeven_def, Ideal.ofBits_def, Ideal.hostAbsf_def, Ideal.absf_def]
  unfold wq
  with_reducible rfl

/-- The up matrix's one scale, read at the scalar's index. -/
theorem wscale_u (w : (⟨S11008x4096, .f32⟩ : BufTy).Contents (Elt Ideal)) (j0 : S_.Idx) :
    val_main_v40 (F := Ideal) w j0 = mscale w := by
  rw [val_main_v40_apply, val_main_cst_18_apply, val_main_v39_apply, val_main_call9_v0_apply, val_main_cst_17_apply,
    val_main_v38_apply, val_main_v37_apply, val_main_cst_15_apply, val_main_cst_16_apply]
  simp only [val_main_v36_apply, Ideal.hostDivf_def, Ideal.minimumf_def, Ideal.maximumf_def, Ideal.mulf_def, Ideal.hostUnary_roundeven_def, Ideal.ofBits_def, Ideal.hostAbsf_def, Ideal.absf_def]
  unfold mscale
  exact wscale_eq _

/-- An entry of the quantized up matrix. -/
theorem wq_u (w : (⟨S11008x4096, .f32⟩ : BufTy).Contents (Elt Ideal)) (i : S11008x4096.Idx) :
    val_main_v46 (F := Ideal) w i = wq (w i) (mscale w) := by
  rw [val_main_v46_apply, val_main_v44_apply, val_main_call11_v4_apply, val_main_call11_v3_apply, val_main_cst_20_apply,
    val_main_call11_v2_apply, val_main_call11_v1_apply, val_main_call11_v0_apply, val_main_cst_19_apply, val_main_v43_apply,
    val_main_v42_apply, val_main_v41_apply, val_main_v45_apply]
  simp only [wscale_u, Ideal.hostDivf_def, Ideal.minimumf_def, Ideal.maximumf_def, Ideal.mulf_def, Ideal.hostUnary_roundeven_def, Ideal.ofBits_def, Ideal.hostAbsf_def, Ideal.absf_def]
  unfold wq
  with_reducible rfl

/-- The down matrix's one scale, read at the scalar's index. -/
theorem wscale_d (w : (⟨S4096x11008, .f32⟩ : BufTy).Contents (Elt Ideal)) (j0 : S_.Idx) :
    val_main_v67 (F := Ideal) w j0 = mscale w := by
  rw [val_main_v67_apply, val_main_cst_29_apply, val_main_v66_apply, val_main_call16_v0_apply, val_main_cst_28_apply,
    val_main_v65_apply, val_main_v64_apply, val_main_cst_26_apply, val_main_cst_27_apply]
  simp only [val_main_v63_apply, Ideal.hostDivf_def, Ideal.minimumf_def, Ideal.maximumf_def, Ideal.mulf_def, Ideal.hostUnary_roundeven_def, Ideal.ofBits_def, Ideal.hostAbsf_def, Ideal.absf_def]
  unfold mscale
  exact wscale_eq _

/-- An entry of the quantized down matrix. -/
theorem wq_d (w : (⟨S4096x11008, .f32⟩ : BufTy).Contents (Elt Ideal)) (i : S4096x11008.Idx) :
    val_main_v73 (F := Ideal) w i = wq (w i) (mscale w) := by
  rw [val_main_v73_apply, val_main_v71_apply, val_main_call18_v4_apply, val_main_call18_v3_apply, val_main_cst_31_apply,
    val_main_call18_v2_apply, val_main_call18_v1_apply, val_main_call18_v0_apply, val_main_cst_30_apply, val_main_v70_apply,
    val_main_v69_apply, val_main_v68_apply, val_main_v72_apply]
  simp only [wscale_d, Ideal.hostDivf_def, Ideal.minimumf_def, Ideal.maximumf_def, Ideal.mulf_def, Ideal.hostUnary_roundeven_def, Ideal.ofBits_def, Ideal.hostAbsf_def, Ideal.absf_def]
  unfold wq
  with_reducible rfl

end Cert.RefSpec

end
-- ==== Proof.RefSpec.Act.lean ====
/-
  The input's quantization in the reference, read at an index. A row's scale is `127 / max a ε`, `a` the largest
  absolute value of the row (a maximum from `-∞` over the row's 4096 entries), and an entry is
  `clamp (round (x · scale)) / scale`, the clamp to `[-128, 127]`. The reference computes the quantized input twice,
  once for each of the two products it enters; the two chains are the same operations under different names.
-/
import proofs.«139580_j65773129171180_2_alg».proof.Proof.RefSpec.Basic
import proofs.«139580_j65773129171180_2_alg».proof.Proof.RefReadP

noncomputable section

namespace Cert.RefSpec

open Idealize.ShloMosaic Idealize.ShloMosaic.ValueIdx Cert.Spec Cert.ReferenceIdeal Cert.ReferenceIdeal.Gen Cert.ReferenceIdeal.ReadP

/-- The largest absolute value of a row of the input (the copy the gate product reads). -/
theorem rowmax_x1 (x : (⟨S2x2048x4096, .f32⟩ : BufTy).Contents (Elt Ideal)) (b : Fin 2) (s : Fin 2048) :
    val_main_v1 (F := Ideal) x (ix2 b s) = fmax (fun k : Fin 4096 => eabs (x (ix3 b s k))) := by
  unfold val_main_v1
  rw [hostRowMax (n0 := 2) (n1 := 2048) (n := 4096) (val_main_v0 (F := Ideal) x) (val_main_cst (F := Ideal))
    reducesTo_S2x2048x4096_S2x2048_d2 (by decide) h_S_ ofBits_neg_inf b s]
  simp only [val_main_v0_apply, Ideal.hostAbsf_def, Ideal.absf_def]

/-- The scale of a row of the input (the copy the gate product reads), read at any index of the row's one-column array. -/
theorem rowscale_x1 (x : (⟨S2x2048x4096, .f32⟩ : BufTy).Contents (Elt Ideal)) (b : Fin 2) (s : Fin 2048) (j' : S2x2048x1.Idx)
    (h0 : (j' 0).val = b.val) (h1 : (j' 1).val = s.val) :
    val_main_v5 (F := Ideal) x j' = ascale (fmax fun k : Fin 4096 => eabs (x (ix3 b s k))) := by
  have hj : idx_main_v2 j' = ix2 b s := by
    funext a; apply Fin.ext
    match a with
    | ⟨0, _⟩ => exact h0
    | ⟨1, _⟩ => exact h1
  rw [val_main_v5_apply, val_main_v4_apply, val_main_cst_1_apply, val_main_v3_apply, val_main_call0_v1_apply,
    val_main_call0_v0_apply, val_main_cst_0_apply, val_main_v2_apply, hj, rowmax_x1]
  simp only [Ideal.hostDivf_def, Ideal.minimumf_def, Ideal.maximumf_def, Ideal.mulf_def, Ideal.hostUnary_roundeven_def, Ideal.ofBits_def, Ideal.hostAbsf_def, Ideal.absf_def]
  exact ascale_eq _

/-- The row's scale, as the first of its two broadcasts to the full array reads it. -/
theorem bscale_x1_a (x : (⟨S2x2048x4096, .f32⟩ : BufTy).Contents (Elt Ideal)) (b : Fin 2) (s : Fin 2048) (k : Fin 4096) :
    val_main_v6 (F := Ideal) x (ix3 b s k) = ascale (fmax fun k : Fin 4096 => eabs (x (ix3 b s k))) := by
  rw [val_main_v6_apply]
  exact rowscale_x1 x b s (idx_main_v6 (ix3 b s k)) rfl rfl

/-- The row's scale, as the second broadcast reads it. -/
theorem bscale_x1_b (x : (⟨S2x2048x4096, .f32⟩ : BufTy).Contents (Elt Ideal)) (b : Fin 2) (s : Fin 2048) (k : Fin 4096) :
    val_main_v10 (F := Ideal) x (ix3 b s k) = ascale (fmax fun k : Fin 4096 => eabs (x (ix3 b s k))) := by
  rw [val_main_v10_apply]
  exact rowscale_x1 x b s (idx_main_v10 (ix3 b s k)) rfl rfl

/-- An entry of the input (the copy the gate product reads), quantized. -/
theorem quant_x1 (x : (⟨S2x2048x4096, .f32⟩ : BufTy).Contents (Elt Ideal)) (b : Fin 2) (s : Fin 2048) (k : Fin 4096) :
    val_main_v11 (F := Ideal) x (ix3 b s k) = aq (x (ix3 b s k)) (ascale (fmax fun k : Fin 4096 => eabs (x (ix3 b s k)))) := by
  rw [val_main_v11_apply, val_main_v9_apply, val_main_call2_v4_apply, val_main_call2_v3_apply, val_main_cst_3_apply,
    val_main_call2_v2_apply, val_main_call2_v1_apply, val_main_call2_v0_apply, val_main_cst_2_apply, val_main_v8_apply,
    val_main_v7_apply, bscale_x1_a, bscale_x1_b]
  simp only [Ideal.hostDivf_def, Ideal.minimumf_def, Ideal.maximumf_def, Ideal.mulf_def, Ideal.hostUnary_roundeven_def, Ideal.ofBits_def, Ideal.hostAbsf_def, Ideal.absf_def]
  unfold aq
  with_reducible rfl

/-- The largest absolute value of a row of the input (the copy the up product reads). -/
theorem rowmax_x2 (x : (⟨S2x2048x4096, .f32⟩ : BufTy).Contents (Elt Ideal)) (b : Fin 2) (s : Fin 2048) :
    val_main_v25 (F := Ideal) x (ix2 b s) = fmax (fun k : Fin 4096 => eabs (x (ix3 b s k))) := by
  unfold val_main_v25
  rw [hostRowMax (n0 := 2) (n1 := 2048) (n := 4096) (val_main_v24 (F := Ideal) x) (val_main_cst_10 (F := Ideal))
    reducesTo_S2x2048x4096_S2x2048_d2 (by decide) h_S_ ofBits_neg_inf b s]
  simp only [val_main_v24_apply, Ideal.hostAbsf_def, Ideal.absf_def]

/-- The scale of a row of the input (the copy the up product reads), read at any index of the row's one-column array. -/
theorem rowscale_x2 (x : (⟨S2x2048x4096, .f32⟩ : BufTy).Contents (Elt Ideal)) (b : Fin 2) (s : Fin 2048) (j' : S2x2048x1.Idx)
    (h0 : (j' 0).val = b.val) (h1 : (j' 1).val = s.val) :
    val_main_v29 (F := Ideal) x j' = ascale (fmax fun k : Fin 4096 => eabs (x (ix3 b s k))) := by
  have hj : idx_main_v26 j' = ix2 b s := by
    funext a; apply Fin.ext
    match a with
    | ⟨0, _⟩ => exact h0
    | ⟨1, _⟩ => exact h1
  rw [val_main_v29_apply, val_main_v28_apply, val_main_cst_12_apply, val_main_v27_apply, val_main_call6_v1_apply,
    val_main_call6_v0_apply, val_main_cst_11_apply, val_main_v26_apply, hj, rowmax_x2]
  simp only [Ideal.hostDivf_def, Ideal.minimumf_def, Ideal.maximumf_def, Ideal.mulf_def, Ideal.hostUnary_roundeven_def, Ideal.ofBits_def, Ideal.hostAbsf_def, Ideal.absf_def]
  exact ascale_eq _

/-- The row's scale, as the first of its two broadcasts to the full array reads it. -/
theorem bscale_x2_a (x : (⟨S2x2048x4096, .f32⟩ : BufTy).Contents (Elt Ideal)) (b : Fin 2) (s : Fin 2048) (k : Fin 4096) :
    val_main_v30 (F := Ideal) x (ix3 b s k) = ascale (fmax fun k : Fin 4096 => eabs (x (ix3 b s k))) := by
  rw [val_main_v30_apply]
  exact rowscale_x2 x b s (idx_main_v30 (ix3 b s k)) rfl rfl

/-- The row's scale, as the second broadcast reads it. -/
theorem bscale_x2_b (x : (⟨S2x2048x4096, .f32⟩ : BufTy).Contents (Elt Ideal)) (b : Fin 2) (s : Fin 2048) (k : Fin 4096) :
    val_main_v34 (F := Ideal) x (ix3 b s k) = ascale (fmax fun k : Fin 4096 => eabs (x (ix3 b s k))) := by
  rw [val_main_v34_apply]
  exact rowscale_x2 x b s (idx_main_v34 (ix3 b s k)) rfl rfl

/-- An entry of the input (the copy the up product reads), quantized. -/
theorem quant_x2 (x : (⟨S2x2048x4096, .f32⟩ : BufTy).Contents (Elt Ideal)) (b : Fin 2) (s : Fin 2048) (k : Fin 4096) :
    val_main_v35 (F := Ideal) x (ix3 b s k) = aq (x (ix3 b s k)) (ascale (fmax fun k : Fin 4096 => eabs (x (ix3 b s k)))) := by
  rw [val_main_v35_apply, val_main_v33_apply, val_main_call8_v4_apply, val_main_call8_v3_apply, val_main_cst_14_apply,
    val_main_call8_v2_apply, val_main_call8_v1_apply, val_main_call8_v0_apply, val_main_cst_13_apply, val_main_v32_apply,
    val_main_v31_apply, bscale_x2_a, bscale_x2_b]
  simp only [Ideal.hostDivf_def, Ideal.minimumf_def, Ideal.maximumf_def, Ideal.mulf_def, Ideal.hostUnary_roundeven_def, Ideal.ofBits_def, Ideal.hostAbsf_def, Ideal.absf_def]
  unfold aq
  with_reducible rfl

/-- The gate product's left operand is the specification's quantized input. -/
theorem xq_1 (x : (⟨S2x2048x4096, .f32⟩ : BufTy).Contents (Elt Ideal)) (b : Fin 2) (s : Fin 2048) (k : Fin 4096) :
    val_main_v11 (F := Ideal) x (ix3 b s k) = xq x b s k := by
  rw [quant_x1]
  unfold xq xscale
  with_reducible rfl

/-- The up product's left operand is the specification's quantized input. -/
theorem xq_2 (x : (⟨S2x2048x4096, .f32⟩ : BufTy).Contents (Elt Ideal)) (b : Fin 2) (s : Fin 2048) (k : Fin 4096) :
    val_main_v35 (F := Ideal) x (ix3 b s k) = xq x b s k := by
  rw [quant_x2]
  unfold xq xscale
  with_reducible rfl

end Cert.RefSpec

end
-- ==== Proof.RefSpec.Hidden.lean ====
/-
  The hidden layer of the reference, read at an index: the gate and up products of the quantized input with the
  quantized gate and up matrices, the gated value `relu(g)² · u`, and its quantization row by row (a row's scale from
  the largest absolute value of its 11008 entries).
-/
import proofs.«139580_j65773129171180_2_alg».proof.Proof.RefSpec.Weights
import proofs.«139580_j65773129171180_2_alg».proof.Proof.RefSpec.Act

noncomputable section

namespace Cert.RefSpec

open Idealize.ShloMosaic Idealize.ShloMosaic.ValueIdx Cert.Spec Cert.ReferenceIdeal Cert.ReferenceIdeal.Gen Cert.ReferenceIdeal.ReadP

/-! ## The two products -/

theorem lidx_v23 (b : Fin 2) (s : Fin 2048) (i : Fin 11008) (k : Fin 4096) :
    lidx_main_v23 (ix3 b s i) k = ix3 b s k := by
  funext a; apply Fin.ext
  match a with
  | ⟨0, _⟩ => rfl
  | ⟨1, _⟩ => rfl
  | ⟨2, _⟩ => rfl

theorem ridx_v23 (b : Fin 2) (s : Fin 2048) (i : Fin 11008) (k : Fin 4096) :
    ridx_main_v23 (ix3 b s i) k = ix2 i k := by
  funext a; apply Fin.ext
  match a with
  | ⟨0, _⟩ => rfl
  | ⟨1, _⟩ => rfl

theorem lidx_v47 (b : Fin 2) (s : Fin 2048) (i : Fin 11008) (k : Fin 4096) :
    lidx_main_v47 (ix3 b s i) k = ix3 b s k := by
  funext a; apply Fin.ext
  match a with
  | ⟨0, _⟩ => rfl
  | ⟨1, _⟩ => rfl
  | ⟨2, _⟩ => rfl

theorem ridx_v47 (b : Fin 2) (s : Fin 2048) (i : Fin 11008) (k : Fin 4096) :
    ridx_main_v47 (ix3 b s i) k = ix2 i k := by
  funext a; apply Fin.ext
  match a with
  | ⟨0, _⟩ => rfl
  | ⟨1, _⟩ => rfl

/-- The gate product. -/
theorem gate_eq (x : (⟨S2x2048x4096, .f32⟩ : BufTy).Contents (Elt Ideal)) (wg : (⟨S11008x4096, .f32⟩ : BufTy).Contents (Elt Ideal)) (b : Fin 2) (s : Fin 2048)
    (i : Fin 11008) : val_main_v23 (F := Ideal) x wg (ix3 b s i) = gate x wg b s i := by
  rw [val_main_v23_apply]
  unfold gate
  refine Finset.sum_congr rfl fun k _ => ?_
  rw [lidx_v23, ridx_v23, xq_1, wq_g]
  unfold mq
  with_reducible rfl

/-- The up product. -/
theorem up_eq (x : (⟨S2x2048x4096, .f32⟩ : BufTy).Contents (Elt Ideal)) (wu : (⟨S11008x4096, .f32⟩ : BufTy).Contents (Elt Ideal)) (b : Fin 2) (s : Fin 2048)
    (i : Fin 11008) : val_main_v47 (F := Ideal) x wu (ix3 b s i) = up x wu b s i := by
  rw [val_main_v47_apply]
  unfold up
  refine Finset.sum_congr rfl fun k _ => ?_
  rw [lidx_v47, ridx_v47, xq_2, wq_u]
  unfold mq
  with_reducible rfl

/-! ## The gated value -/

/-- `relu(g)² · u`. -/
theorem hval_eq (x : (⟨S2x2048x4096, .f32⟩ : BufTy).Contents (Elt Ideal)) (wg wu : (⟨S11008x4096, .f32⟩ : BufTy).Contents (Elt Ideal)) (b : Fin 2) (s : Fin 2048) (i : Fin 11008) :
    val_main_v50 (F := Ideal) x wg wu (ix3 b s i) = hval x wg wu b s i := by
  rw [val_main_v50_apply, val_main_v49_apply, val_main_v48_apply, val_main_call12_v0_apply, val_main_call12_cst_apply,
    gate_eq, up_eq]
  unfold hval
  generalize gate x wg b s i = g
  generalize up x wu b s i = u
  simp only [Ideal.hostDivf_def, Ideal.minimumf_def, Ideal.maximumf_def, Ideal.mulf_def, Ideal.hostUnary_roundeven_def, Ideal.ofBits_def, Ideal.hostAbsf_def, Ideal.absf_def]

/-! ## Its quantization

The chain is the input's, with the gated value in the input's place: it enters only through its entries. -/

/-- The largest absolute value of a row of the gated value. -/
theorem rowmax_h (x : (⟨S2x2048x4096, .f32⟩ : BufTy).Contents (Elt Ideal)) (wg wu : (⟨S11008x4096, .f32⟩ : BufTy).Contents (Elt Ideal)) (b : Fin 2) (s : Fin 2048) :
    val_main_v52 (F := Ideal) x wg wu (ix2 b s)
      = fmax (fun k : Fin 11008 => eabs (val_main_v50 (F := Ideal) x wg wu (ix3 b s k))) := by
  unfold val_main_v52
  rw [hostRowMax (n0 := 2) (n1 := 2048) (n := 11008) (val_main_v51 (F := Ideal) x wg wu) (val_main_cst_21 (F := Ideal))
    reducesTo_S2x2048x11008_S2x2048_d2 (by decide) h_S_ ofBits_neg_inf b s]
  refine congrArg (fmax (n := 11008)) (funext fun k => ?_)
  rw [val_main_v51_apply]
  generalize val_main_v50 (F := Ideal) x wg wu (ix3 b s k) = a
  rw [Ideal.hostAbsf_def, Ideal.absf_def]

/-- The scale of a row of the gated value, read at any index of the row's one-column array. -/
theorem rowscale_h (x : (⟨S2x2048x4096, .f32⟩ : BufTy).Contents (Elt Ideal)) (wg wu : (⟨S11008x4096, .f32⟩ : BufTy).Contents (Elt Ideal)) (b : Fin 2) (s : Fin 2048) (j' : S2x2048x1.Idx)
    (h0 : (j' 0).val = b.val) (h1 : (j' 1).val = s.val) :
    val_main_v56 (F := Ideal) x wg wu j' = ascale (fmax fun k : Fin 11008 => eabs (val_main_v50 (F := Ideal) x wg wu (ix3 b s k))) := by
  have hj : idx_main_v53 j' = ix2 b s := by
    funext a; apply Fin.ext
    match a with
    | ⟨0, _⟩ => exact h0
    | ⟨1, _⟩ => exact h1
  rw [val_main_v56_apply, val_main_v55_apply, val_main_cst_23_apply, val_main_v54_apply, val_main_call13_v1_apply,
    val_main_call13_v0_apply, val_main_cst_22_apply, val_main_v53_apply, hj, rowmax_h]
  generalize val_main_v50 (F := Ideal) x wg wu = y
  simp only [Ideal.hostDivf_def, Ideal.minimumf_def, Ideal.maximumf_def, Ideal.mulf_def, Ideal.hostUnary_roundeven_def, Ideal.ofBits_def, Ideal.hostAbsf_def, Ideal.absf_def]
  exact ascale_eq _

/-- The row's scale, as the first of its two broadcasts to the full array reads it. -/
theorem bscale_h_a (x : (⟨S2x2048x4096, .f32⟩ : BufTy).Contents (Elt Ideal)) (wg wu : (⟨S11008x4096, .f32⟩ : BufTy).Contents (Elt Ideal)) (b : Fin 2) (s : Fin 2048) (k : Fin 11008) :
    val_main_v57 (F := Ideal) x wg wu (ix3 b s k) = ascale (fmax fun k : Fin 11008 => eabs (val_main_v50 (F := Ideal) x wg wu (ix3 b s k))) := by
  rw [val_main_v57_apply]
  exact rowscale_h x wg wu b s (idx_main_v57 (ix3 b s k)) rfl rfl

/-- The row's scale, as the second broadcast reads it. -/
theorem bscale_h_b (x : (⟨S2x2048x4096, .f32⟩ : BufTy).Contents (Elt Ideal)) (wg wu : (⟨S11008x4096, .f32⟩ : BufTy).Contents (Elt Ideal)) (b : Fin 2) (s : Fin 2048) (k : Fin 11008) :
    val_main_v61 (F := Ideal) x wg wu (ix3 b s k) = ascale (fmax fun k : Fin 11008 => eabs (val_main_v50 (F := Ideal) x wg wu (ix3 b s k))) := by
  rw [val_main_v61_apply]
  exact rowscale_h x wg wu b s (idx_main_v61 (ix3 b s k)) rfl rfl

/-- An entry of the gated value, quantized. -/
theorem quant_h (x : (⟨S2x2048x4096, .f32⟩ : BufTy).Contents (Elt Ideal)) (wg wu : (⟨S11008x4096, .f32⟩ : BufTy).Contents (Elt Ideal)) (b : Fin 2) (s : Fin 2048) (k : Fin 11008) :
    val_main_v62 (F := Ideal) x wg wu (ix3 b s k) = aq (val_main_v50 (F := Ideal) x wg wu (ix3 b s k)) (ascale (fmax fun k : Fin 11008 => eabs (val_main_v50 (F := Ideal) x wg wu (ix3 b s k)))) := by
  rw [val_main_v62_apply, val_main_v60_apply, val_main_call15_v4_apply, val_main_call15_v3_apply, val_main_cst_25_apply,
    val_main_call15_v2_apply, val_main_call15_v1_apply, val_main_call15_v0_apply, val_main_cst_24_apply, val_main_v59_apply,
    val_main_v58_apply, bscale_h_a, bscale_h_b]
  generalize val_main_v50 (F := Ideal) x wg wu = y
  simp only [Ideal.hostDivf_def, Ideal.minimumf_def, Ideal.maximumf_def, Ideal.mulf_def, Ideal.hostUnary_roundeven_def, Ideal.ofBits_def, Ideal.hostAbsf_def, Ideal.absf_def]
  unfold aq
  with_reducible rfl

/-- The last product's left operand is the specification's quantized gated value. -/
theorem hq_eq (x : (⟨S2x2048x4096, .f32⟩ : BufTy).Contents (Elt Ideal)) (wg wu : (⟨S11008x4096, .f32⟩ : BufTy).Contents (Elt Ideal)) (b : Fin 2) (s : Fin 2048) (i : Fin 11008) :
    val_main_v62 (F := Ideal) x wg wu (ix3 b s i) = hq x wg wu b s i := by
  rw [quant_h]
  simp only [hval_eq]
  unfold hq hscale
  with_reducible rfl

end Cert.RefSpec

end
-- ==== Proof.RefSpec.lean ====
/-
  The reference computes the specification: its result, read at (b, s, o), is the product of the quantized gated
  row (b, s) with row o of the quantized down matrix.
-/
import proofs.«139580_j65773129171180_2_alg».proof.Proof.RefSpec.Hidden

noncomputable section

namespace Cert.RefSpec

open Idealize.ShloMosaic Idealize.ShloMosaic.ValueIdx Cert.Spec Cert.ReferenceIdeal Cert.ReferenceIdeal.Gen Cert.ReferenceIdeal.ReadP

theorem lidx_v74 (b : Fin 2) (s : Fin 2048) (i : Fin 4096) (k : Fin 11008) :
    lidx_main_v74 (ix3 b s i) k = ix3 b s k := by
  funext a; apply Fin.ext
  match a with
  | ⟨0, _⟩ => rfl
  | ⟨1, _⟩ => rfl
  | ⟨2, _⟩ => rfl

theorem ridx_v74 (b : Fin 2) (s : Fin 2048) (i : Fin 4096) (k : Fin 11008) :
    ridx_main_v74 (ix3 b s i) k = ix2 i k := by
  funext a; apply Fin.ext
  match a with
  | ⟨0, _⟩ => rfl
  | ⟨1, _⟩ => rfl

/-- The result at (b, s, o). -/
theorem out_eq (x : (⟨S2x2048x4096, .f32⟩ : BufTy).Contents (Elt Ideal)) (wg wu : (⟨S11008x4096, .f32⟩ : BufTy).Contents (Elt Ideal)) (wd : (⟨S4096x11008, .f32⟩ : BufTy).Contents (Elt Ideal)) (b : Fin 2) (s : Fin 2048) (o : Fin 4096) :
    val_main_v74 (F := Ideal) x wg wu wd (ix3 b s o) = out x wg wu wd b s o := by
  rw [val_main_v74_apply]
  unfold out
  refine Finset.sum_congr rfl fun k _ => ?_
  rw [lidx_v74, ridx_v74, hq_eq, wq_d]
  unfold mq
  with_reducible rfl

/-- The reference's result is the specification's array. -/
theorem ref_eq (x : (⟨S2x2048x4096, .f32⟩ : BufTy).Contents (Elt Ideal)) (wg wu : (⟨S11008x4096, .f32⟩ : BufTy).Contents (Elt Ideal)) (wd : (⟨S4096x11008, .f32⟩ : BufTy).Contents (Elt Ideal)) :
    val_main_v74 (F := Ideal) x wg wu wd = G x wg wu wd := by
  funext j
  have hj := eq_ix3 j
  calc val_main_v74 (F := Ideal) x wg wu wd j
      = val_main_v74 (F := Ideal) x wg wu wd (ix3 (j 0) (j 1) (j 2)) :=
        congrArg (val_main_v74 (F := Ideal) x wg wu wd) hj
    _ = out x wg wu wd (j 0) (j 1) (j 2) := out_eq x wg wu wd (j 0) (j 1) (j 2)
    _ = G x wg wu wd j := by unfold G; with_reducible rfl

end Cert.RefSpec

end
-- ==== Proof.lean ====
/-
  A gated MLP block with quantized operands, as four kernel regions, against its plain reference.

  Both programs compute, for every token `(b, s)` and output feature `o`,
      out = Σ_i  Q8(h)(b,s,i) · T(W_down)(o,i),      h = relu(g)² · u,
      g = Σ_k Q8(x)(b,s,k) · T(W_gate)(i,k),          u = Σ_k Q8(x)(b,s,k) · T(W_up)(i,k),
  where `Q8` puts a row on the 8-bit grid of its own scale `127 / max (max_k |·|) ε` (round to nearest even, clamp to
  `[-128, 127]`, divide by the scale again) and `T` puts a matrix on the ternary grid of one scale `1 / max (mean |w|) ε`
  (clamp to `[-1, 1]`). The kernel program pads the hidden axis from 11008 to 11264 with zero rows and columns of the
  quantized weights, runs the three products in blocks (the last one accumulated over 22 blocks of the hidden axis in a
  scratch buffer), and takes `h`'s row maxima over the padded rows. On the extended reals this changes nothing: a product
  with a padding entry is `0`, `|h|` is non-negative and `0` on the padding, and sums may be regrouped freely; a change
  of float format is the identity there. So the two results are one function of the arguments (`Cert.Spec.G`), with no
  use of the inputs' finiteness.

  The frames: every argument array ends as launched, because no host operation writes one and a region changes only the
  array of its output window, which is never an argument; each kernel program's run is a chain of host stretches and
  regions, every unscoped buffer held at named contents between two of them, and the reference's run is its list of host
  operations. The idealization rewrote nothing, so `preserves` has no conjunct.
-/
import proofs.«139580_j65773129171180_2_alg».proof.Defs
import proofs.«139580_j65773129171180_2_alg».proof.Proof.Gen.Kernel
import proofs.«139580_j65773129171180_2_alg».proof.Proof.Gen.KernelIdeal
import proofs.«139580_j65773129171180_2_alg».proof.Proof.Gen.ReferenceIdeal
import proofs.«139580_j65773129171180_2_alg».proof.Proof.Gen.Pre_finite_inputs
import proofs.«139580_j65773129171180_2_alg».proof.Proof.KB.Frame
import proofs.«139580_j65773129171180_2_alg».proof.Proof.KI.Final
import proofs.«139580_j65773129171180_2_alg».proof.Proof.RefRunQ
import proofs.«139580_j65773129171180_2_alg».proof.Proof.RefSpec
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame (F := Bits) m ρ

theorem frame_ki : Cert.frame_KernelIdeal := fun m ρ _ => Cert.KernelIdeal.Hand.frame (F := Ideal) m ρ

theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both runs end with the result at the specification of the arguments, which agree. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Val.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v74_eq, Cert.RefSpec.ref_eq, (hagree c).1, (hagree c).2.1, (hagree c).2.2.1,
    (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
